-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v69_0)) (v1 : (c : Dev Cert.KernelIdeal.nD) → Buf (Elt Ideal) ((c.tc : Thread Cert.KernelIdeal.nD Cert.KernelIdeal.τ).loc Cert.KernelIdeal.main_v69_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v69_0) = v0 c
          ∧ r.2.mem ((c.tc : Thread Cert.KernelIdeal.nD Cert.KernelIdeal.τ).loc Cert.KernelIdeal.main_v69_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v106) = v0 c
          ∧ r.2.mem ((c.tc : Thread Cert.ReferenceIdeal.nD Cert.ReferenceIdeal.τ).loc Cert.ReferenceIdeal.main_v102) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x256 : S_.BroadcastsInDim S128x256 (![] : Fin 0 → Fin S128x256.rank)
  reducesTo_S128x256_S_d0_1 : S128x256.ReducesTo [0, 1] S_
  bcast_S_S256 : S_.BroadcastsInDim S256 (![] : Fin 0 → Fin S256.rank)
  reducesTo_S256_S_d0 : S256.ReducesTo [0] S_
  bcast_S_S256x128 : S_.BroadcastsInDim S256x128 (![] : Fin 0 → Fin S256x128.rank)
  reducesTo_S256x128_S_d0_1 : S256x128.ReducesTo [0, 1] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_
  bcast_S_S64x10 : S_.BroadcastsInDim S64x10 (![] : Fin 0 → Fin S64x10.rank)
  reducesTo_S64x10_S_d0_1 : S64x10.ReducesTo [0, 1] S_
  bcast_S_S10 : S_.BroadcastsInDim S10 (![] : Fin 0 → Fin S10.rank)
  reducesTo_S10_S_d0 : S10.ReducesTo [0] S_

variable [Facts]

def fn_part3 {F : FTy → Type} [FloatOps F] (main_arg13 : FVec F S64x10 .f32) (main_arg14 : FVec F S10 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S64x10 .f32 := Host.absf main_arg13
  let main_cst_20 : FVec F S_ .f32 := constant S_ .f32 0x7F800000#32
  let main_v55 : FVec F S64x10 .f32 := broadcastInDim S64x10 ![] bcast_S_S64x10 main_cst_20
  let main_v56 : IVec S64x10 1 := cmpf .olt main_v54 main_v55
  let main_c_21 : IVec S_ 1 := constantI S_ 1 1#1
  let main_v57 : IVec S_ 1 := (fun x v => Host.reduce IntOp.andi x v reducesTo_S64x10_S_d0_1 h_S_) main_v56 main_c_21
  let main_v58 : IVec S_ 1 := andi main_v53 main_v57
  let main_v59 : FVec F S10 .f32 := Host.absf main_arg14
  let main_cst_22 : FVec F S_ .f32 := constant S_ .f32 0x7F800000#32
  let main_v60 : FVec F S10 .f32 := broadcastInDim S10 ![] bcast_S_S10 main_cst_22
  let main_v61 : IVec S10 1 := cmpf .olt main_v59 main_v60
  let main_c_23 : IVec S_ 1 := constantI S_ 1 1#1
  let main_v62 : IVec S_ 1 := (fun x v => Host.reduce IntOp.andi x v reducesTo_S10_S_d0 h_S_) main_v61 main_c_23
  let main_v63 : IVec S_ 1 := andi main_v58 main_v62
  main_v63

def fn_part2 {F : FTy → Type} [FloatOps F] (main_arg9 : FVec F S256x128 .f32) (main_arg10 : FVec F S128 .f32) (main_arg11 : FVec F S128x64 .f32) (main_arg12 : FVec F S64 .f32) (main_arg13 : FVec F S64x10 .f32) (main_arg14 : FVec F S10 .f32) (main_v33 : IVec S_ 1) : IVec S_ 1 :=
  let main_v34 : FVec F S256x128 .f32 := Host.absf main_arg9
  let main_cst_12 : FVec F S_ .f32 := constant S_ .f32 0x7F800000#32
  let main_v35 : FVec F S256x128 .f32 := broadcastInDim S256x128 ![] bcast_S_S256x128 main_cst_12
  let main_v36 : IVec S256x128 1 := cmpf .olt main_v34 main_v35
  let main_c_13 : IVec S_ 1 := constantI S_ 1 1#1
  let main_v37 : IVec S_ 1 := (fun x v => Host.reduce IntOp.andi x v reducesTo_S256x128_S_d0_1 h_S_) main_v36 main_c_13
  let main_v38 : IVec S_ 1 := andi main_v33 main_v37
  let main_v39 : FVec F S128 .f32 := Host.absf main_arg10
  let main_cst_14 : FVec F S_ .f32 := constant S_ .f32 0x7F800000#32
  let main_v40 : FVec F S128 .f32 := broadcastInDim S128 ![] bcast_S_S128 main_cst_14
  let main_v41 : IVec S128 1 := cmpf .olt main_v39 main_v40
  let main_c_15 : IVec S_ 1 := constantI S_ 1 1#1
  let main_v42 : IVec S_ 1 := (fun x v => Host.reduce IntOp.andi x v reducesTo_S128_S_d0 h_S_) main_v41 main_c_15
  let main_v43 : IVec S_ 1 := andi main_v38 main_v42
  let main_v44 : FVec F S128x64 .f32 := Host.absf main_arg11
  let main_cst_16 : FVec F S_ .f32 := constant S_ .f32 0x7F800000#32
  let main_v45 : FVec F S128x64 .f32 := broadcastInDim S128x64 ![] bcast_S_S128x64 main_cst_16
  let main_v46 : IVec S128x64 1 := cmpf .olt main_v44 main_v45
  let main_c_17 : IVec S_ 1 := constantI S_ 1 1#1
  let main_v47 : IVec S_ 1 := (fun x v => Host.reduce IntOp.andi x v reducesTo_S128x64_S_d0_1 h_S_) main_v46 main_c_17
  let main_v48 : IVec S_ 1 := andi main_v43 main_v47
  let main_v49 : FVec F S64 .f32 := Host.absf main_arg12
  let main_cst_18 : FVec F S_ .f32 := constant S_ .f32 0x7F800000#32
  let main_v50 : FVec F S64 .f32 := broadcastInDim S64 ![] bcast_S_S64 main_cst_18
  fn_part3 (F := F) main_arg13 main_arg14 main_v48 main_v49 main_v50

def fn_part1 {F : FTy → Type} [FloatOps F] (main_arg6 : FVec F S128 .f32) (main_arg7 : FVec F S128x256 .f32) (main_arg8 : FVec F S256 .f32) (main_arg9 : FVec F S256x128 .f32) (main_arg10 : FVec F S128 .f32) (main_arg11 : FVec F S128x64 .f32) (main_arg12 : FVec F S64 .f32) (main_arg13 : FVec F S64x10 .f32) (main_arg14 : FVec F S10 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x256 .f32 := Host.absf main_arg7
  let main_cst_8 : FVec F S_ .f32 := constant S_ .f32 0x7F800000#32
  let main_v25 : FVec F S128x256 .f32 := broadcastInDim S128x256 ![] bcast_S_S128x256 main_cst_8
  let main_v26 : IVec S128x256 1 := cmpf .olt main_v24 main_v25
  let main_c_9 : IVec S_ 1 := constantI S_ 1 1#1
  let main_v27 : IVec S_ 1 := (fun x v => Host.reduce IntOp.andi x v reducesTo_S128x256_S_d0_1 h_S_) main_v26 main_c_9
  let main_v28 : IVec S_ 1 := andi main_v23 main_v27
  let main_v29 : FVec F S256 .f32 := Host.absf main_arg8
  let main_cst_10 : FVec F S_ .f32 := constant S_ .f32 0x7F800000#32
  let main_v30 : FVec F S256 .f32 := broadcastInDim S256 ![] bcast_S_S256 main_cst_10
  let main_v31 : IVec S256 1 := cmpf .olt main_v29 main_v30
  let main_c_11 : IVec S_ 1 := constantI S_ 1 1#1
  let main_v32 : IVec S_ 1 := (fun x v => Host.reduce IntOp.andi x v reducesTo_S256_S_d0 h_S_) main_v31 main_c_11
  let main_v33 : IVec S_ 1 := andi main_v28 main_v32
  fn_part2 (F := F) main_arg9 main_arg10 main_arg11 main_arg12 main_arg13 main_arg14 main_v33

def fn {F : FTy → Type} [FloatOps F] (main_arg0 : FVec F S50000x128 .f32) (main_arg1 : IVec S2x800000 32) (main_arg2 : IVec S50000 32) (main_arg3 : FVec F S128x128 .f32) (main_arg4 : FVec F S128 .f32) (main_arg5 : FVec F S128x128 .f32) (main_arg6 : FVec F S128 .f32) (main_arg7 : FVec F S128x256 .f32) (main_arg8 : FVec F S256 .f32) (main_arg9 : FVec F S256x128 .f32) (main_arg10 : FVec F S128 .f32) (main_arg11 : FVec F S128x64 .f32) (main_arg12 : FVec F S64 .f32) (main_arg13 : FVec F S64x10 .f32) (main_arg14 : FVec F S10 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S50000x1 : Shape := ⟨2, ![50000, 1]⟩
abbrev S2000x128 : Shape := ⟨2, ![2000, 128]⟩
abbrev S2000x1 : Shape := ⟨2, ![2000, 1]⟩
abbrev S850000x128 : Shape := ⟨2, ![850000, 128]⟩
abbrev S1x128 : Shape := ⟨2, ![1, 128]⟩
abbrev S50000x256 : Shape := ⟨2, ![50000, 256]⟩
abbrev S2000x256 : Shape := ⟨2, ![2000, 256]⟩
abbrev S850000x256 : Shape := ⟨2, ![850000, 256]⟩
abbrev S1x256 : Shape := ⟨2, ![1, 256]⟩
abbrev S256x256 : Shape := ⟨2, ![256, 256]⟩
abbrev S256x1 : Shape := ⟨2, ![256, 1]⟩
abbrev S1x64 : Shape := ⟨2, ![1, 64]⟩
abbrev S1x10 : Shape := ⟨2, ![1, 10]⟩
abbrev S256x10 : Shape := ⟨2, ![256, 10]⟩
abbrev S256x64 : Shape := ⟨2, ![256, 64]⟩

abbrev nBuf : Space → Nat
  | .hbm => 104
  | .vmem => 52
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S50000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x256, .f32⟩
  | .hbm, ⟨8, _⟩ => ⟨S256, .f32⟩
  | .hbm, ⟨9, _⟩ => ⟨S256x128, .f32⟩
  | .hbm, ⟨10, _⟩ => ⟨S128, .f32⟩
  | .hbm, ⟨11, _⟩ => ⟨S128x64, .f32⟩
  | .hbm, ⟨12, _⟩ => ⟨S64, .f32⟩
  | .hbm, ⟨13, _⟩ => ⟨S64x10, .f32⟩
  | .hbm, ⟨14, _⟩ => ⟨S10, .f32⟩
  | .hbm, ⟨15, _⟩ => ⟨S50000, .i32⟩
  | .hbm, ⟨16, _⟩ => ⟨S1x800000, .i32⟩
  | .hbm, ⟨17, _⟩ => ⟨S800000, .i32⟩
  | .hbm, ⟨18, _⟩ => ⟨S850000, .i32⟩
  | .hbm, ⟨19, _⟩ => ⟨S1x800000, .i32⟩
  | .hbm, ⟨20, _⟩ => ⟨S800000, .i32⟩
  | .hbm, ⟨21, _⟩ => ⟨S850000, .i32⟩
  | .hbm, ⟨22, _⟩ => ⟨S_, .f32⟩
  | .hbm, ⟨23, _⟩ => ⟨S850000, .f32⟩
  | .hbm, ⟨24, _⟩ => ⟨S_, .f32⟩
  | .hbm, ⟨25, _⟩ => ⟨S50000, .f32⟩
  | .hbm, ⟨26, _⟩ => ⟨S850000x1, .i32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .i1⟩
  | .hbm, ⟨31, _⟩ => ⟨S50000, .f32⟩
  | .hbm, ⟨32, _⟩ => ⟨S_, .f32⟩
  | .hbm, ⟨33, _⟩ => ⟨S_, .f32⟩
  | .hbm, ⟨34, _⟩ => ⟨S50000, .f32⟩
  | .hbm, ⟨35, _⟩ => ⟨S50000, .f32⟩
  | .hbm, ⟨36, _⟩ => ⟨S50000x1, .f32⟩
  | .hbm, ⟨37, _⟩ => ⟨S50000x128, .bf16⟩
  | .hbm, ⟨38, _⟩ => ⟨S_, .i32⟩
  | .hbm, ⟨39, _⟩ => ⟨S850000, .i32⟩
  | .hbm, ⟨40, _⟩ => ⟨S850000, .i1⟩
  | .hbm, ⟨41, _⟩ => ⟨S_, .i32⟩
  | .hbm, ⟨42, _⟩ => ⟨S850000, .i32⟩
  | .hbm, ⟨43, _⟩ => ⟨S850000, .i32⟩
  | .hbm, ⟨44, _⟩ => ⟨S850000, .i32⟩
  | .hbm, ⟨45, _⟩ => ⟨S850000x1, .i32⟩
  | .hbm, ⟨46, _⟩ => ⟨S850000x128, .bf16⟩
  | .hbm, ⟨47, _⟩ => ⟨S850000x128, .f32⟩
  | .hbm, ⟨48, _⟩ => ⟨S_, .f32⟩
  | .hbm, ⟨49, _⟩ => ⟨S50000x128, .f32⟩
  | .hbm, ⟨50, _⟩ => ⟨S850000x1, .i32⟩
  | .hbm, ⟨51, _⟩ => ⟨S50000x128, .f32⟩
  | .hbm, ⟨52, _⟩ => ⟨S1x128, .f32⟩
  | .hbm, ⟨53, _⟩ => ⟨S50000x128, .f32⟩
  | .hbm, ⟨54, _⟩ => ⟨S50000x128, .bf16⟩
  | .hbm, ⟨55, _⟩ => ⟨S_, .i32⟩
  | .hbm, ⟨56, _⟩ => ⟨S850000, .i32⟩
  | .hbm, ⟨57, _⟩ => ⟨S850000, .i1⟩
  | .hbm, ⟨58, _⟩ => ⟨S_, .i32⟩
  | .hbm, ⟨59, _⟩ => ⟨S850000, .i32⟩
  | .hbm, ⟨60, _⟩ => ⟨S850000, .i32⟩
  | .hbm, ⟨61, _⟩ => ⟨S850000, .i32⟩
  | .hbm, ⟨62, _⟩ => ⟨S850000x1, .i32⟩
  | .hbm, ⟨63, _⟩ => ⟨S850000x128, .bf16⟩
  | .hbm, ⟨64, _⟩ => ⟨S850000x128, .f32⟩
  | .hbm, ⟨65, _⟩ => ⟨S_, .f32⟩
  | .hbm, ⟨66, _⟩ => ⟨S50000x128, .f32⟩
  | .hbm, ⟨67, _⟩ => ⟨S850000x1, .i32⟩
  | .hbm, ⟨68, _⟩ => ⟨S50000x128, .f32⟩
  | .hbm, ⟨69, _⟩ => ⟨S1x128, .f32⟩
  | .hbm, ⟨70, _⟩ => ⟨S50000x128, .f32⟩
  | .hbm, ⟨71, _⟩ => ⟨S50000x256, .bf16⟩
  | .hbm, ⟨72, _⟩ => ⟨S_, .i32⟩
  | .hbm, ⟨73, _⟩ => ⟨S850000, .i32⟩
  | .hbm, ⟨74, _⟩ => ⟨S850000, .i1⟩
  | .hbm, ⟨75, _⟩ => ⟨S_, .i32⟩
  | .hbm, ⟨76, _⟩ => ⟨S850000, .i32⟩
  | .hbm, ⟨77, _⟩ => ⟨S850000, .i32⟩
  | .hbm, ⟨78, _⟩ => ⟨S850000, .i32⟩
  | .hbm, ⟨79, _⟩ => ⟨S850000x1, .i32⟩
  | .hbm, ⟨80, _⟩ => ⟨S850000x256, .bf16⟩
  | .hbm, ⟨81, _⟩ => ⟨S850000x256, .f32⟩
  | .hbm, ⟨82, _⟩ => ⟨S_, .f32⟩
  | .hbm, ⟨83, _⟩ => ⟨S50000x256, .f32⟩
  | .hbm, ⟨84, _⟩ => ⟨S850000x1, .i32⟩
  | .hbm, ⟨85, _⟩ => ⟨S50000x256, .f32⟩
  | .hbm, ⟨86, _⟩ => ⟨S1x256, .f32⟩
  | .hbm, ⟨87, _⟩ => ⟨S50000x256, .f32⟩
  | .hbm, ⟨88, _⟩ => ⟨S_, .f32⟩
  | .hbm, ⟨89, _⟩ => ⟨S256x256, .f32⟩
  | .hbm, ⟨90, _⟩ => ⟨S50000x1, .i32⟩
  | .hbm, ⟨91, _⟩ => ⟨S256x256, .f32⟩
  | .hbm, ⟨92, _⟩ => ⟨S_, .f32⟩
  | .hbm, ⟨93, _⟩ => ⟨S50000, .f32⟩
  | .hbm, ⟨94, _⟩ => ⟨S_, .f32⟩
  | .hbm, ⟨95, _⟩ => ⟨S256, .f32⟩
  | .hbm, ⟨96, _⟩ => ⟨S50000x1, .i32⟩
  | .hbm, ⟨97, _⟩ => ⟨S256, .f32⟩
  | .hbm, ⟨98, _⟩ => ⟨S256x1, .f32⟩
  | .hbm, ⟨99, _⟩ => ⟨S1x128, .f32⟩
  | .hbm, ⟨100, _⟩ => ⟨S1x64, .f32⟩
  | .hbm, ⟨101, _⟩ => ⟨S1x10, .f32⟩
  | .hbm, ⟨102, _⟩ => ⟨S256x10, .f32⟩
  | .hbm, ⟨103, _⟩ => ⟨S256x64, .f32⟩
  | .local _ .vmem, ⟨0, _⟩ => ⟨S2000x128, .f32⟩
  | .local _ .vmem, ⟨1, _⟩ => ⟨S2000x128, .f32⟩
  | .local _ .vmem, ⟨2, _⟩ => ⟨S128x128, .f32⟩
  | .local _ .vmem, ⟨3, _⟩ => ⟨S2000x1, .f32⟩
  | .local _ .vmem, ⟨4, _⟩ => ⟨S2000x1, .f32⟩
  | .local _ .vmem, ⟨5, _⟩ => ⟨S2000x128, .bf16⟩
  | .local _ .vmem, ⟨6, _⟩ => ⟨S2000x128, .bf16⟩
  | .local _ .vmem, ⟨7, _⟩ => ⟨S2000x128, .f32⟩
  | .local _ .vmem, ⟨8, _⟩ => ⟨S2000x128, .f32⟩
  | .local _ .vmem, ⟨9, _⟩ => ⟨S2000x1, .f32⟩
  | .local _ .vmem, ⟨10, _⟩ => ⟨S2000x1, .f32⟩
  | .local _ .vmem, ⟨11, _⟩ => ⟨S1x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S2000x128, .f32⟩
  | .local _ .vmem, ⟨16, _⟩ => ⟨S128x128, .f32⟩
  | .local _ .vmem, ⟨17, _⟩ => ⟨S2000x1, .f32⟩
  | .local _ .vmem, ⟨18, _⟩ => ⟨S2000x1, .f32⟩
  | .local _ .vmem, ⟨19, _⟩ => ⟨S2000x128, .bf16⟩
  | .local _ .vmem, ⟨20, _⟩ => ⟨S2000x128, .bf16⟩
  | .local _ .vmem, ⟨21, _⟩ => ⟨S2000x128, .f32⟩
  | .local _ .vmem, ⟨22, _⟩ => ⟨S2000x128, .f32⟩
  | .local _ .vmem, ⟨23, _⟩ => ⟨S2000x1, .f32⟩
  | .local _ .vmem, ⟨24, _⟩ => ⟨S2000x1, .f32⟩
  | .local _ .vmem, ⟨25, _⟩ => ⟨S1x128, .f32⟩
  | .local _ .vmem, ⟨26, _⟩ => ⟨S2000x128, .f32⟩
  | .local _ .vmem, ⟨27, _⟩ => ⟨S2000x128, .f32⟩
  | .local _ .vmem, ⟨28, _⟩ => ⟨S2000x128, .f32⟩
  | .local _ .vmem, ⟨29, _⟩ => ⟨S2000x128, .f32⟩
  | .local _ .vmem, ⟨30, _⟩ => ⟨S128x256, .f32⟩
  | .local _ .vmem, ⟨31, _⟩ => ⟨S2000x1, .f32⟩
  | .local _ .vmem, ⟨32, _⟩ => ⟨S2000x1, .f32⟩
  | .local _ .vmem, ⟨33, _⟩ => ⟨S2000x256, .bf16⟩
  | .local _ .vmem, ⟨34, _⟩ => ⟨S2000x256, .bf16⟩
  | .local _ .vmem, ⟨35, _⟩ => ⟨S2000x256, .f32⟩
  | .local _ .vmem, ⟨36, _⟩ => ⟨S2000x256, .f32⟩
  | .local _ .vmem, ⟨37, _⟩ => ⟨S2000x1, .f32⟩
  | .local _ .vmem, ⟨38, _⟩ => ⟨S2000x1, .f32⟩
  | .local _ .vmem, ⟨39, _⟩ => ⟨S1x256, .f32⟩
  | .local _ .vmem, ⟨40, _⟩ => ⟨S2000x256, .f32⟩
  | .local _ .vmem, ⟨41, _⟩ => ⟨S2000x256, .f32⟩
  | .local _ .vmem, ⟨42, _⟩ => ⟨S256x256, .f32⟩
  | .local _ .vmem, ⟨43, _⟩ => ⟨S256x1, .f32⟩
  | .local _ .vmem, ⟨44, _⟩ => ⟨S256x128, .f32⟩
  | .local _ .vmem, ⟨45, _⟩ => ⟨S1x128, .f32⟩
  | .local _ .vmem, ⟨46, _⟩ => ⟨S128x64, .f32⟩
  | .local _ .vmem, ⟨47, _⟩ => ⟨S1x64, .f32⟩
  | .local _ .vmem, ⟨48, _⟩ => ⟨S64x10, .f32⟩
  | .local _ .vmem, ⟨49, _⟩ => ⟨S1x10, .f32⟩
  | .local _ .vmem, ⟨50, _⟩ => ⟨S256x10, .f32⟩
  | .local _ .vmem, ⟨51, _⟩ => ⟨S256x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | _, _ => false

abbrev semScoped : Fin 0 → Bool
  | ⟨_, h⟩ => absurd h (Nat.not_lt_zero _)

abbrev dmaSemScoped : Fin 52 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | _ => false

abbrev sig : RefSig :=
  ofTc nBuf bufTy 0 52 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_v15 : Ref sig .tc := ⟨.hbm, 36, rfl⟩
abbrev main_v16 : Ref sig .tc := ⟨.hbm, 37, rfl⟩
abbrev main_c : Ref sig .tc := ⟨.hbm, 38, rfl⟩
abbrev main_v17 : Ref sig .tc := ⟨.hbm, 39, rfl⟩
abbrev main_v18 : Ref sig .tc := ⟨.hbm, 40, rfl⟩
abbrev main_c_3 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_v22 : Ref sig .tc := ⟨.hbm, 45, rfl⟩
abbrev main_v23 : Ref sig .tc := ⟨.hbm, 46, rfl⟩
abbrev main_v24 : Ref sig .tc := ⟨.hbm, 47, rfl⟩
abbrev main_cst_4 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_c_5 : Ref sig .tc := ⟨.hbm, 55, rfl⟩
abbrev main_v31 : Ref sig .tc := ⟨.hbm, 56, rfl⟩
abbrev main_v32 : Ref sig .tc := ⟨.hbm, 57, rfl⟩
abbrev main_c_6 : Ref sig .tc := ⟨.hbm, 58, rfl⟩
abbrev main_v33 : Ref sig .tc := ⟨.hbm, 59, rfl⟩
abbrev main_v34 : Ref sig .tc := ⟨.hbm, 60, rfl⟩
abbrev main_v35 : Ref sig .tc := ⟨.hbm, 61, rfl⟩
abbrev main_v36 : Ref sig .tc := ⟨.hbm, 62, rfl⟩
abbrev main_v37 : Ref sig .tc := ⟨.hbm, 63, rfl⟩
abbrev main_v38 : Ref sig .tc := ⟨.hbm, 64, rfl⟩
abbrev main_cst_7 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_c_8 : Ref sig .tc := ⟨.hbm, 72, rfl⟩
abbrev main_v45 : Ref sig .tc := ⟨.hbm, 73, rfl⟩
abbrev main_v46 : Ref sig .tc := ⟨.hbm, 74, rfl⟩
abbrev main_c_9 : Ref sig .tc := ⟨.hbm, 75, rfl⟩
abbrev main_v47 : Ref sig .tc := ⟨.hbm, 76, rfl⟩
abbrev main_v48 : Ref sig .tc := ⟨.hbm, 77, rfl⟩
abbrev main_v49 : Ref sig .tc := ⟨.hbm, 78, rfl⟩
abbrev main_v50 : Ref sig .tc := ⟨.hbm, 79, rfl⟩
abbrev main_v51 : Ref sig .tc := ⟨.hbm, 80, rfl⟩
abbrev main_v52 : Ref sig .tc := ⟨.hbm, 81, rfl⟩
abbrev main_cst_10 : Ref sig .tc := ⟨.hbm, 82, rfl⟩
abbrev main_v53 : Ref sig .tc := ⟨.hbm, 83, rfl⟩
abbrev main_v54 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_11 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_cst_12 : Ref sig .tc := ⟨.hbm, 92, rfl⟩
abbrev main_v61 : Ref sig .tc := ⟨.hbm, 93, rfl⟩
abbrev main_cst_13 : Ref sig .tc := ⟨.hbm, 94, rfl⟩
abbrev main_v62 : Ref sig .tc := ⟨.hbm, 95, rfl⟩
abbrev main_v63 : Ref sig .tc := ⟨.hbm, 96, rfl⟩
abbrev main_v64 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69_0 : Ref sig .tc := ⟨.hbm, 102, rfl⟩
abbrev main_v69_1 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc1_stg0_0 : Ref sig .tc := ⟨.vmem, 7, rfl⟩
abbrev cc1_stg0_1 : Ref sig .tc := ⟨.vmem, 8, rfl⟩
abbrev cc1_stg1_0 : Ref sig .tc := ⟨.vmem, 9, rfl⟩
abbrev cc1_stg1_1 : Ref sig .tc := ⟨.vmem, 10, rfl⟩
abbrev cc1_stg2_0 : Ref sig .tc := ⟨.vmem, 11, rfl⟩
abbrev cc1_stg3_0 : Ref sig .tc := ⟨.vmem, 12, rfl⟩
abbrev cc1_stg3_1 : Ref sig .tc := ⟨.vmem, 13, rfl⟩
abbrev cc2_stg0_0 : Ref sig .tc := ⟨.vmem, 14, rfl⟩
abbrev cc2_stg0_1 : Ref sig .tc := ⟨.vmem, 15, rfl⟩
abbrev cc2_stg1_0 : Ref sig .tc := ⟨.vmem, 16, rfl⟩
abbrev cc2_stg2_0 : Ref sig .tc := ⟨.vmem, 17, rfl⟩
abbrev cc2_stg2_1 : Ref sig .tc := ⟨.vmem, 18, rfl⟩
abbrev cc2_stg3_0 : Ref sig .tc := ⟨.vmem, 19, rfl⟩
abbrev cc2_stg3_1 : Ref sig .tc := ⟨.vmem, 20, rfl⟩
abbrev cc3_stg0_0 : Ref sig .tc := ⟨.vmem, 21, rfl⟩
abbrev cc3_stg0_1 : Ref sig .tc := ⟨.vmem, 22, rfl⟩
abbrev cc3_stg1_0 : Ref sig .tc := ⟨.vmem, 23, rfl⟩
abbrev cc3_stg1_1 : Ref sig .tc := ⟨.vmem, 24, rfl⟩
abbrev cc3_stg2_0 : Ref sig .tc := ⟨.vmem, 25, rfl⟩
abbrev cc3_stg3_0 : Ref sig .tc := ⟨.vmem, 26, rfl⟩
abbrev cc3_stg3_1 : Ref sig .tc := ⟨.vmem, 27, rfl⟩
abbrev cc4_stg0_0 : Ref sig .tc := ⟨.vmem, 28, rfl⟩
abbrev cc4_stg0_1 : Ref sig .tc := ⟨.vmem, 29, rfl⟩
abbrev cc4_stg1_0 : Ref sig .tc := ⟨.vmem, 30, rfl⟩
abbrev cc4_stg2_0 : Ref sig .tc := ⟨.vmem, 31, rfl⟩
abbrev cc4_stg2_1 : Ref sig .tc := ⟨.vmem, 32, rfl⟩
abbrev cc4_stg3_0 : Ref sig .tc := ⟨.vmem, 33, rfl⟩
abbrev cc4_stg3_1 : Ref sig .tc := ⟨.vmem, 34, rfl⟩
abbrev cc5_stg0_0 : Ref sig .tc := ⟨.vmem, 35, rfl⟩
abbrev cc5_stg0_1 : Ref sig .tc := ⟨.vmem, 36, rfl⟩
abbrev cc5_stg1_0 : Ref sig .tc := ⟨.vmem, 37, rfl⟩
abbrev cc5_stg1_1 : Ref sig .tc := ⟨.vmem, 38, rfl⟩
abbrev cc5_stg2_0 : Ref sig .tc := ⟨.vmem, 39, rfl⟩
abbrev cc5_stg3_0 : Ref sig .tc := ⟨.vmem, 40, rfl⟩
abbrev cc5_stg3_1 : Ref sig .tc := ⟨.vmem, 41, rfl⟩
abbrev cc6_stg0_0 : Ref sig .tc := ⟨.vmem, 42, rfl⟩
abbrev cc6_stg1_0 : Ref sig .tc := ⟨.vmem, 43, rfl⟩
abbrev cc6_stg2_0 : Ref sig .tc := ⟨.vmem, 44, rfl⟩
abbrev cc6_stg3_0 : Ref sig .tc := ⟨.vmem, 45, rfl⟩
abbrev cc6_stg4_0 : Ref sig .tc := ⟨.vmem, 46, rfl⟩
abbrev cc6_stg5_0 : Ref sig .tc := ⟨.vmem, 47, rfl⟩
abbrev cc6_stg6_0 : Ref sig .tc := ⟨.vmem, 48, rfl⟩
abbrev cc6_stg7_0 : Ref sig .tc := ⟨.vmem, 49, rfl⟩
abbrev cc6_stg8_0 : Ref sig .tc := ⟨.vmem, 50, rfl⟩
abbrev cc6_stg9_0 : Ref sig .tc := ⟨.vmem, 51, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc1_sem0_0 : DmaSem sig := 7
abbrev cc1_sem0_1 : DmaSem sig := 8
abbrev cc1_sem1_0 : DmaSem sig := 9
abbrev cc1_sem1_1 : DmaSem sig := 10
abbrev cc1_sem2_0 : DmaSem sig := 11
abbrev cc1_sem3_0 : DmaSem sig := 12
abbrev cc1_sem3_1 : DmaSem sig := 13
abbrev cc2_sem0_0 : DmaSem sig := 14
abbrev cc2_sem0_1 : DmaSem sig := 15
abbrev cc2_sem1_0 : DmaSem sig := 16
abbrev cc2_sem2_0 : DmaSem sig := 17
abbrev cc2_sem2_1 : DmaSem sig := 18
abbrev cc2_sem3_0 : DmaSem sig := 19
abbrev cc2_sem3_1 : DmaSem sig := 20
abbrev cc3_sem0_0 : DmaSem sig := 21
abbrev cc3_sem0_1 : DmaSem sig := 22
abbrev cc3_sem1_0 : DmaSem sig := 23
abbrev cc3_sem1_1 : DmaSem sig := 24
abbrev cc3_sem2_0 : DmaSem sig := 25
abbrev cc3_sem3_0 : DmaSem sig := 26
abbrev cc3_sem3_1 : DmaSem sig := 27
abbrev cc4_sem0_0 : DmaSem sig := 28
abbrev cc4_sem0_1 : DmaSem sig := 29
abbrev cc4_sem1_0 : DmaSem sig := 30
abbrev cc4_sem2_0 : DmaSem sig := 31
abbrev cc4_sem2_1 : DmaSem sig := 32
abbrev cc4_sem3_0 : DmaSem sig := 33
abbrev cc4_sem3_1 : DmaSem sig := 34
abbrev cc5_sem0_0 : DmaSem sig := 35
abbrev cc5_sem0_1 : DmaSem sig := 36
abbrev cc5_sem1_0 : DmaSem sig := 37
abbrev cc5_sem1_1 : DmaSem sig := 38
abbrev cc5_sem2_0 : DmaSem sig := 39
abbrev cc5_sem3_0 : DmaSem sig := 40
abbrev cc5_sem3_1 : DmaSem sig := 41
abbrev cc6_sem0_0 : DmaSem sig := 42
abbrev cc6_sem1_0 : DmaSem sig := 43
abbrev cc6_sem2_0 : DmaSem sig := 44
abbrev cc6_sem3_0 : DmaSem sig := 45
abbrev cc6_sem4_0 : DmaSem sig := 46
abbrev cc6_sem5_0 : DmaSem sig := 47
abbrev cc6_sem6_0 : DmaSem sig := 48
abbrev cc6_sem7_0 : DmaSem sig := 49
abbrev cc6_sem8_0 : DmaSem sig := 50
abbrev cc6_sem9_0 : DmaSem sig := 51

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S2000x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S2000x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S2000x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S2000x128 .bf16 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S2000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x1 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S1x128 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 2 → Memref sig .tc .vmem S2000x128 .f32 := fun | 0 => Memref.whole cc3_stg3_0 | 1 => Memref.whole cc3_stg3_1 | ⟨_ + 2, h⟩ => absurd h (Nat.not_lt.2 (Nat.le_add_left _ _))
abbrev sem3_3 : Fin 2 → DmaSem sig := fun | 0 => cc3_sem3_0 | 1 => cc3_sem3_1 | ⟨_ + 2, h⟩ => absurd h (Nat.not_lt.2 (Nat.le_add_left _ _))
abbrev reads3_3 : Fin grid3.rank → Bool := ![true]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x256 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S2000x1 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev stage4_3 : Fin 2 → Memref sig .tc .vmem S2000x256 .bf16 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_3 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x256 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x1 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 1 → Memref sig .tc .vmem S1x256 .f32 := fun | 0 => Memref.whole cc5_stg2_0 | ⟨_ + 1, h⟩ => absurd h (Nat.not_lt.2 (Nat.le_add_left _ _))
abbrev sem5_2 : Fin 1 → DmaSem sig := fun | 0 => cc5_sem2_0 | ⟨_ + 1, h⟩ => absurd h (Nat.not_lt.2 (Nat.le_add_left _ _))
abbrev reads5_2 : Fin grid5.rank → Bool := ![false]

abbrev stage5_3 : Fin 2 → Memref sig .tc .vmem S2000x256 .f32 := fun | 0 => Memref.whole cc5_stg3_0 | 1 => Memref.whole cc5_stg3_1 | ⟨_ + 2, h⟩ => absurd h (Nat.not_lt.2 (Nat.le_add_left _ _))
abbrev sem5_3 : Fin 2 → DmaSem sig := fun | 0 => cc5_sem3_0 | 1 => cc5_sem3_1 | ⟨_ + 2, h⟩ => absurd h (Nat.not_lt.2 (Nat.le_add_left _ _))
abbrev reads5_3 : Fin grid5.rank → Bool := ![true]

abbrev grid6 : Pipeline.Grid := ⟨1, ![1], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_1 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_6 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_8 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_9 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 1 → Memref sig .tc .vmem S256x256 .f32 := fun | 0 => Memref.whole cc6_stg0_0 | ⟨_ + 1, h⟩ => absurd h (Nat.not_lt.2 (Nat.le_add_left _ _))
abbrev sem6_0 : Fin 1 → DmaSem sig := fun | 0 => cc6_sem0_0 | ⟨_ + 1, h⟩ => absurd h (Nat.not_lt.2 (Nat.le_add_left _ _))
abbrev reads6_0 : Fin grid6.rank → Bool := ![false]

abbrev stage6_1 : Fin 1 → Memref sig .tc .vmem S256x1 .f32 := fun | 0 => Memref.whole cc6_stg1_0 | ⟨_ + 1, h⟩ => absurd h (Nat.not_lt.2 (Nat.le_add_left _ _))
abbrev sem6_1 : Fin 1 → DmaSem sig := fun | 0 => cc6_sem1_0 | ⟨_ + 1, h⟩ => absurd h (Nat.not_lt.2 (Nat.le_add_left _ _))
abbrev reads6_1 : Fin grid6.rank → Bool := ![false]

abbrev stage6_2 : Fin 1 → Memref sig .tc .vmem S256x128 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x128 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S128x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 1 → Memref sig .tc .vmem S1x64 .f32 := fun | 0 => Memref.whole cc6_stg5_0 | ⟨_ + 1, h⟩ => absurd h (Nat.not_lt.2 (Nat.le_add_left _ _))
abbrev sem6_5 : Fin 1 → DmaSem sig := fun | 0 => cc6_sem5_0 | ⟨_ + 1, h⟩ => absurd h (Nat.not_lt.2 (Nat.le_add_left _ _))
abbrev reads6_5 : Fin grid6.rank → Bool := ![false]

abbrev stage6_6 : Fin 1 → Memref sig .tc .vmem S64x10 .f32 := fun | 0 => Memref.whole cc6_stg6_0 | ⟨_ + 1, h⟩ => absurd h (Nat.not_lt.2 (Nat.le_add_left _ _))
abbrev sem6_6 : Fin 1 → DmaSem sig := fun | 0 => cc6_sem6_0 | ⟨_ + 1, h⟩ => absurd h (Nat.not_lt.2 (Nat.le_add_left _ _))
abbrev reads6_6 : Fin grid6.rank → Bool := ![false]

abbrev stage6_7 : Fin 1 → Memref sig .tc .vmem S1x10 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev stage6_8 : Fin 1 → Memref sig .tc .vmem S256x10 .f32 := fun | 0 => Memref.whole cc6_stg8_0 | ⟨_ + 1, h⟩ => absurd h (Nat.not_lt.2 (Nat.le_add_left _ _))
abbrev sem6_8 : Fin 1 → DmaSem sig := fun | 0 => cc6_sem8_0 | ⟨_ + 1, h⟩ => absurd h (Nat.not_lt.2 (Nat.le_add_left _ _))
abbrev reads6_8 : Fin grid6.rank → Bool := ![false]

abbrev stage6_9 : Fin 1 → Memref sig .tc .vmem S256x64 .f32 := fun | 0 => Memref.whole cc6_stg9_0 | ⟨_ + 1, h⟩ => absurd h (Nat.not_lt.2 (Nat.le_add_left _ _))
abbrev sem6_9 : Fin 1 → DmaSem sig := fun | 0 => cc6_sem9_0 | ⟨_ + 1, h⟩ => absurd h (Nat.not_lt.2 (Nat.le_add_left _ _))
abbrev reads6_9 : Fin grid6.rank → Bool := ![false]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  shapeCasts_S50000_S50000x1 : S50000.ShapeCasts S50000x1
  inb_S2000x128_S2000x128_0_0 : ∀ a, (![0, 0] : Fin 2 → Nat) a + S2000x128.size a ≤ S2000x128.size a
  h_S2000x128 : 0 < S2000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  packedbf16_S2000x128_S2000x128_0_0 : (Rect.unit (s := S2000x128) ![0, 0] S2000x128.size inb_S2000x128_S2000x128_0_0).PackedRows (EltTy.packing .bf16)
  bcast_S_S50000x128 : S_.BroadcastsInDim S50000x128 (![] : Fin 0 → Fin S50000x128.rank)
  shapeCasts_S128_S1x128 : S128.ShapeCasts S1x128
  shapeCasts_S2000x128_S2000x128 : S2000x128.ShapeCasts S2000x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  inb_S128x256_S128x256_0_0 : ∀ a, (![0, 0] : Fin 2 → Nat) a + S128x256.size a ≤ S128x256.size a
  h_S128x256 : 0 < S128x256.numel
  broadcasts_S2000x1_S2000x256 : S2000x1.Broadcasts S2000x256
  inb_S2000x256_S2000x256_0_0 : ∀ a, (![0, 0] : Fin 2 → Nat) a + S2000x256.size a ≤ S2000x256.size a
  h_S2000x256 : 0 < S2000x256.numel
  packedbf16_S2000x256_S2000x256_0_0 : (Rect.unit (s := S2000x256) ![0, 0] S2000x256.size inb_S2000x256_S2000x256_0_0).PackedRows (EltTy.packing .bf16)
  bcast_S_S50000x256 : S_.BroadcastsInDim S50000x256 (![] : Fin 0 → Fin S50000x256.rank)
  shapeCasts_S256_S1x256 : S256.ShapeCasts S1x256
  shapeCasts_S2000x256_S2000x256 : S2000x256.ShapeCasts S2000x256
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  bcast_S_S256x256 : S_.BroadcastsInDim S256x256 (![] : Fin 0 → Fin S256x256.rank)
  bcast_S50000_S50000x1_0 : S50000.BroadcastsInDim S50000x1 (![0] : Fin 1 → Fin S50000x1.rank)
  bcast_S_S256 : S_.BroadcastsInDim S256 (![] : Fin 0 → Fin S256.rank)
  shapeCasts_S256_S256x1 : S256.ShapeCasts S256x1
  shapeCasts_S64_S1x64 : S64.ShapeCasts S1x64
  shapeCasts_S10_S1x10 : S10.ShapeCasts S1x10
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x256_S256x256_0_0 : ∀ a, (![0, 0] : Fin 2 → Nat) a + S256x256.size a ≤ S256x256.size a
  h_S256x256 : 0 < S256x256.numel
  shapeCasts_S256x256_S256x256 : S256x256.ShapeCasts S256x256
  broadcasts_S256x1_S256x256 : S256x1.Broadcasts S256x256
  inb_S256x128_S256x128_0_0 : ∀ a, (![0, 0] : Fin 2 → Nat) a + S256x128.size a ≤ S256x128.size a
  h_S256x128 : 0 < S256x128.numel
  broadcasts_S1x128_S256x128 : S1x128.Broadcasts S256x128
  inb_S128x64_S128x64_0_0 : ∀ a, (![0, 0] : Fin 2 → Nat) a + S128x64.size a ≤ S128x64.size a
  h_S128x64 : 0 < S128x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S256x64 : S1x64.Broadcasts S256x64
  inb_S64x10_S64x10_0_0 : ∀ a, (![0, 0] : Fin 2 → Nat) a + S64x10.size a ≤ S64x10.size a
  h_S64x10 : 0 < S64x10.numel
  inb_S1x10_S1x10_0_0 : ∀ a, (![0, 0] : Fin 2 → Nat) a + S1x10.size a ≤ S1x10.size a
  h_S1x10 : 0 < S1x10.numel
  shapeCasts_S1x10_S1x10 : S1x10.ShapeCasts S1x10
  broadcasts_S1x10_S256x10 : S1x10.Broadcasts S256x10
  inb_S256x64_S256x64_0_0 : ∀ a, (![0, 0] : Fin 2 → Nat) a + S256x64.size a ≤ S256x64.size a
  h_S256x64 : 0 < S256x64.numel
  inb_S256x10_S256x10_0_0 : ∀ a, (![0, 0] : Fin 2 → Nat) a + S256x10.size a ≤ S256x10.size a
  h_S256x10 : 0 < S256x10.numel
  scatter_S50000_S850000x1_S850000_n_0_0_1_wf : ScatterDims.WF S50000 S850000x1 S850000 [] [0] [0] 1
  dot_S2000x128_S128x128_S2000x128_1_0_0_1_n_n_wf : DotDims.WF S2000x128 S128x128 S2000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S2000x128_S128x256_S2000x256_1_0_0_1_n_n_wf : DotDims.WF S2000x128 S128x256 S2000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S2000x1.size a ≤ S50000x1.size a
  hwx0_2 : ∀ i : grid0.Coords, EltTy.bits .f32 = 32 ∨ (Rect.block (s := S50000x1) S2000x1.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x128.size a ≤ S50000x128.size a
  hwx0_3 : ∀ i : grid0.Coords, EltTy.bits .bf16 = 32 ∨ (Rect.block (s := S50000x128) S2000x128.size (cc0_transform_3 i) (hinb0_3 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x1.size a ≤ S50000x1.size a
  hwx1_1 : ∀ i : grid1.Coords, EltTy.bits .f32 = 32 ∨ (Rect.block (s := S50000x1) S2000x1.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x128.size a ≤ S50000x128.size a
  hwx1_3 : ∀ i : grid1.Coords, EltTy.bits .f32 = 32 ∨ (Rect.block (s := S50000x128) S2000x128.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S2000x1.size a ≤ S50000x1.size a
  hwx2_2 : ∀ i : grid2.Coords, EltTy.bits .f32 = 32 ∨ (Rect.block (s := S50000x1) S2000x1.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x128.size a ≤ S50000x128.size a
  hwx2_3 : ∀ i : grid2.Coords, EltTy.bits .bf16 = 32 ∨ (Rect.block (s := S50000x128) S2000x128.size (cc2_transform_3 i) (hinb2_3 i)).WholeWords (EltTy.packing .bf16)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x128.size a ≤ S50000x128.size a
  hwx3_0 : ∀ i : grid3.Coords, EltTy.bits .f32 = 32 ∨ (Rect.block (s := S50000x128) S2000x128.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x1.size a ≤ S50000x1.size a
  hwx3_1 : ∀ i : grid3.Coords, EltTy.bits .f32 = 32 ∨ (Rect.block (s := S50000x1) S2000x1.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S1x128.size a ≤ S1x128.size a
  hwx3_2 : ∀ i : grid3.Coords, EltTy.bits .f32 = 32 ∨ (Rect.block (s := S1x128) S1x128.size (cc3_transform_2 i) (hinb3_2 i)).WholeWords (EltTy.packing .f32)
  hstage3_3 : ∀ j, (stage3_3 j).IsWhole
  nbuf3_3 : grid3.bufCount reads3_3 false = 2
  hreads3_3 : ∀ i i' : grid3.Coords, (∀ a, reads3_3 a = true → i a = i' a) → cc3_transform_3 i = cc3_transform_3 i'
  hinb3_3 : ∀ (i : grid3.Coords) a, (cc3_transform_3 i a + 1) * S2000x128.size a ≤ S50000x128.size a
  hwx3_3 : ∀ i : grid3.Coords, EltTy.bits .f32 = 32 ∨ (Rect.block (s := S50000x128) S2000x128.size (cc3_transform_3 i) (hinb3_3 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x128.size a ≤ S50000x128.size a
  hwx4_0 : ∀ i : grid4.Coords, EltTy.bits .f32 = 32 ∨ (Rect.block (s := S50000x128) S2000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x256.size a ≤ S128x256.size a
  hwx4_1 : ∀ i : grid4.Coords, EltTy.bits .f32 = 32 ∨ (Rect.block (s := S128x256) S128x256.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S2000x1.size a ≤ S50000x1.size a
  hwx4_2 : ∀ i : grid4.Coords, EltTy.bits .f32 = 32 ∨ (Rect.block (s := S50000x1) S2000x1.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x256.size a ≤ S50000x256.size a
  hwx4_3 : ∀ i : grid4.Coords, EltTy.bits .bf16 = 32 ∨ (Rect.block (s := S50000x256) S2000x256.size (cc4_transform_3 i) (hinb4_3 i)).WholeWords (EltTy.packing .bf16)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x256.size a ≤ S50000x256.size a
  hwx5_0 : ∀ i : grid5.Coords, EltTy.bits .f32 = 32 ∨ (Rect.block (s := S50000x256) S2000x256.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x1.size a ≤ S50000x1.size a
  hwx5_1 : ∀ i : grid5.Coords, EltTy.bits .f32 = 32 ∨ (Rect.block (s := S50000x1) S2000x1.size (cc5_transform_1 i) (hinb5_1 i)).WholeWords (EltTy.packing .f32)
  hstage5_2 : ∀ j, (stage5_2 j).IsWhole
  nbuf5_2 : grid5.bufCount reads5_2 true = 1
  hreads5_2 : ∀ i i' : grid5.Coords, (∀ a, reads5_2 a = true → i a = i' a) → cc5_transform_2 i = cc5_transform_2 i'
  hinb5_2 : ∀ (i : grid5.Coords) a, (cc5_transform_2 i a + 1) * S1x256.size a ≤ S1x256.size a
  hwx5_2 : ∀ i : grid5.Coords, EltTy.bits .f32 = 32 ∨ (Rect.block (s := S1x256) S1x256.size (cc5_transform_2 i) (hinb5_2 i)).WholeWords (EltTy.packing .f32)
  hstage5_3 : ∀ j, (stage5_3 j).IsWhole
  nbuf5_3 : grid5.bufCount reads5_3 false = 2
  hreads5_3 : ∀ i i' : grid5.Coords, (∀ a, reads5_3 a = true → i a = i' a) → cc5_transform_3 i = cc5_transform_3 i'
  hinb5_3 : ∀ (i : grid5.Coords) a, (cc5_transform_3 i a + 1) * S2000x256.size a ≤ S50000x256.size a
  hwx5_3 : ∀ i : grid5.Coords, EltTy.bits .f32 = 32 ∨ (Rect.block (s := S50000x256) S2000x256.size (cc5_transform_3 i) (hinb5_3 i)).WholeWords (EltTy.packing .f32)
  hrank6 : 0 < grid6.rank
  hstage6_0 : ∀ j, (stage6_0 j).IsWhole
  nbuf6_0 : grid6.bufCount reads6_0 true = 1
  hreads6_0 : ∀ i i' : grid6.Coords, (∀ a, reads6_0 a = true → i a = i' a) → cc6_transform_0 i = cc6_transform_0 i'
  hinb6_0 : ∀ (i : grid6.Coords) a, (cc6_transform_0 i a + 1) * S256x256.size a ≤ S256x256.size a
  hwx6_0 : ∀ i : grid6.Coords, EltTy.bits .f32 = 32 ∨ (Rect.block (s := S256x256) S256x256.size (cc6_transform_0 i) (hinb6_0 i)).WholeWords (EltTy.packing .f32)
  hstage6_1 : ∀ j, (stage6_1 j).IsWhole
  nbuf6_1 : grid6.bufCount reads6_1 true = 1
  hreads6_1 : ∀ i i' : grid6.Coords, (∀ a, reads6_1 a = true → i a = i' a) → cc6_transform_1 i = cc6_transform_1 i'
  hinb6_1 : ∀ (i : grid6.Coords) a, (cc6_transform_1 i a + 1) * S256x1.size a ≤ S256x1.size a
  hwx6_1 : ∀ i : grid6.Coords, EltTy.bits .f32 = 32 ∨ (Rect.block (s := S256x1) S256x1.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S256x128.size a ≤ S256x128.size a
  hwx6_2 : ∀ i : grid6.Coords, EltTy.bits .f32 = 32 ∨ (Rect.block (s := S256x128) S256x128.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x128.size a ≤ S1x128.size a
  hwx6_3 : ∀ i : grid6.Coords, EltTy.bits .f32 = 32 ∨ (Rect.block (s := S1x128) S1x128.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S128x64.size a ≤ S128x64.size a
  hwx6_4 : ∀ i : grid6.Coords, EltTy.bits .f32 = 32 ∨ (Rect.block (s := S128x64) S128x64.size (cc6_transform_4 i) (hinb6_4 i)).WholeWords (EltTy.packing .f32)
  hstage6_5 : ∀ j, (stage6_5 j).IsWhole
  nbuf6_5 : grid6.bufCount reads6_5 true = 1
  hreads6_5 : ∀ i i' : grid6.Coords, (∀ a, reads6_5 a = true → i a = i' a) → cc6_transform_5 i = cc6_transform_5 i'
  hinb6_5 : ∀ (i : grid6.Coords) a, (cc6_transform_5 i a + 1) * S1x64.size a ≤ S1x64.size a
  hwx6_5 : ∀ i : grid6.Coords, EltTy.bits .f32 = 32 ∨ (Rect.block (s := S1x64) S1x64.size (cc6_transform_5 i) (hinb6_5 i)).WholeWords (EltTy.packing .f32)
  hstage6_6 : ∀ j, (stage6_6 j).IsWhole
  nbuf6_6 : grid6.bufCount reads6_6 true = 1
  hreads6_6 : ∀ i i' : grid6.Coords, (∀ a, reads6_6 a = true → i a = i' a) → cc6_transform_6 i = cc6_transform_6 i'
  hinb6_6 : ∀ (i : grid6.Coords) a, (cc6_transform_6 i a + 1) * S64x10.size a ≤ S64x10.size a
  hwx6_6 : ∀ i : grid6.Coords, EltTy.bits .f32 = 32 ∨ (Rect.block (s := S64x10) S64x10.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S1x10.size a ≤ S1x10.size a
  hwx6_7 : ∀ i : grid6.Coords, EltTy.bits .f32 = 32 ∨ (Rect.block (s := S1x10) S1x10.size (cc6_transform_7 i) (hinb6_7 i)).WholeWords (EltTy.packing .f32)
  hstage6_8 : ∀ j, (stage6_8 j).IsWhole
  nbuf6_8 : grid6.bufCount reads6_8 true = 1
  hreads6_8 : ∀ i i' : grid6.Coords, (∀ a, reads6_8 a = true → i a = i' a) → cc6_transform_8 i = cc6_transform_8 i'
  hinb6_8 : ∀ (i : grid6.Coords) a, (cc6_transform_8 i a + 1) * S256x10.size a ≤ S256x10.size a
  hwx6_8 : ∀ i : grid6.Coords, EltTy.bits .f32 = 32 ∨ (Rect.block (s := S256x10) S256x10.size (cc6_transform_8 i) (hinb6_8 i)).WholeWords (EltTy.packing .f32)
  hstage6_9 : ∀ j, (stage6_9 j).IsWhole
  nbuf6_9 : grid6.bufCount reads6_9 true = 1
  hreads6_9 : ∀ i i' : grid6.Coords, (∀ a, reads6_9 a = true → i a = i' a) → cc6_transform_9 i = cc6_transform_9 i'
  hinb6_9 : ∀ (i : grid6.Coords) a, (cc6_transform_9 i a + 1) * S256x64.size a ≤ S256x64.size a
  hwx6_9 : ∀ i : grid6.Coords, EltTy.bits .f32 = 32 ∨ (Rect.block (s := S256x64) S256x64.size (cc6_transform_9 i) (hinb6_9 i)).WholeWords (EltTy.packing .f32)

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S2000x128_S128x256_S2000x256_1_0_0_1_n_n : DotDims S2000x128 S128x256 S2000x256 where
  lhsContracting := [1]
  rhsContracting := [0]
  lhsNonContracting := [0]
  rhsNonContracting := [1]
  lhsBatch := []
  rhsBatch := []
  wf := dot_S2000x128_S128x256_S2000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

abbrev win0_0 : Pipeline.Window sig grid0 :=
  Pipeline.Window.ofSpec (Memref.whole main_arg0) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v15) S2000x1.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v16) S2000x128.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v27) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S2000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v29) S2000x128.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_v29) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg5) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v15) S2000x1.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v30) S2000x128.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v41) S2000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v15) S2000x1.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_v42) S1x128.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v43) S2000x128.size cc3_transform_3 reads3_3 true false 2 stage3_3 sem3_3
    hrank3 hreads3_3 hinb3_3 nbuf3_3 (Memref.isWhole_whole _) hwx3_3 hstage3_3

abbrev win3 : Fin 4 → Pipeline.Window sig grid3 := fun | 0 => win3_0 | 1 => win3_1 | 2 => win3_2 | 3 => win3_3 | ⟨_ + 4, h⟩ => absurd h (Nat.not_lt.2 (Nat.le_add_left _ _))
abbrev spec3 : Fin 4 → Pipeline.WinSpec sig grid3.rank := fun w => (win3 w).toWinSpec

abbrev win4_0 : Pipeline.Window sig grid4 :=
  Pipeline.Window.ofSpec (Memref.whole main_v43) S2000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg7) S128x256.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v15) S2000x1.size cc4_transform_2 reads4_2 false false 2 stage4_2 sem4_2
    hrank4 hreads4_2 hinb4_2 nbuf4_2 (Memref.isWhole_whole _) hwx4_2 hstage4_2

abbrev win4_3 : Pipeline.Window sig grid4 :=
  Pipeline.Window.ofSpec (Memref.whole main_v44) S2000x256.size cc4_transform_3 reads4_3 true false 2 stage4_3 sem4_3
    hrank4 hreads4_3 hinb4_3 nbuf4_3 (Memref.isWhole_whole _) hwx4_3 hstage4_3

abbrev win4 : Fin 4 → Pipeline.Window sig grid4 := fun | 0 => win4_0 | 1 => win4_1 | 2 => win4_2 | 3 => win4_3 | ⟨_ + 4, h⟩ => absurd h (Nat.not_lt.2 (Nat.le_add_left _ _))
abbrev spec4 : Fin 4 → Pipeline.WinSpec sig grid4.rank := fun w => (win4 w).toWinSpec

abbrev win5_0 : Pipeline.Window sig grid5 :=
  Pipeline.Window.ofSpec (Memref.whole main_v55) S2000x256.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v15) S2000x1.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_v56) S1x256.size cc5_transform_2 reads5_2 false true 1 stage5_2 sem5_2
    hrank5 hreads5_2 hinb5_2 nbuf5_2 (Memref.isWhole_whole _) hwx5_2 hstage5_2

abbrev win5_3 : Pipeline.Window sig grid5 :=
  Pipeline.Window.ofSpec (Memref.whole main_v57) S2000x256.size cc5_transform_3 reads5_3 true false 2 stage5_3 sem5_3
    hrank5 hreads5_3 hinb5_3 nbuf5_3 (Memref.isWhole_whole _) hwx5_3 hstage5_3

abbrev win5 : Fin 4 → Pipeline.Window sig grid5 := fun | 0 => win5_0 | 1 => win5_1 | 2 => win5_2 | 3 => win5_3 | ⟨_ + 4, h⟩ => absurd h (Nat.not_lt.2 (Nat.le_add_left _ _))
abbrev spec5 : Fin 4 → Pipeline.WinSpec sig grid5.rank := fun w => (win5 w).toWinSpec

abbrev win6_0 : Pipeline.Window sig grid6 :=
  Pipeline.Window.ofSpec (Memref.whole main_v60) S256x256.size cc6_transform_0 reads6_0 false true 1 stage6_0 sem6_0
    hrank6 hreads6_0 hinb6_0 nbuf6_0 (Memref.isWhole_whole _) hwx6_0 hstage6_0

abbrev win6_1 : Pipeline.Window sig grid6 :=
  Pipeline.Window.ofSpec (Memref.whole main_v65) S256x1.size cc6_transform_1 reads6_1 false true 1 stage6_1 sem6_1
    hrank6 hreads6_1 hinb6_1 nbuf6_1 (Memref.isWhole_whole _) hwx6_1 hstage6_1

abbrev win6_2 : Pipeline.Window sig grid6 :=
  Pipeline.Window.ofSpec (Memref.whole main_arg9) S256x128.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v66) S1x128.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg11) S128x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v67) S1x64.size cc6_transform_5 reads6_5 false true 1 stage6_5 sem6_5
    hrank6 hreads6_5 hinb6_5 nbuf6_5 (Memref.isWhole_whole _) hwx6_5 hstage6_5

abbrev win6_6 : Pipeline.Window sig grid6 :=
  Pipeline.Window.ofSpec (Memref.whole main_arg13) S64x10.size cc6_transform_6 reads6_6 false true 1 stage6_6 sem6_6
    hrank6 hreads6_6 hinb6_6 nbuf6_6 (Memref.isWhole_whole _) hwx6_6 hstage6_6

abbrev win6_7 : Pipeline.Window sig grid6 :=
  Pipeline.Window.ofSpec (Memref.whole main_v68) S1x10.size cc6_transform_7 reads6_7 false true 1 stage6_7 sem6_7
    hrank6 hreads6_7 hinb6_7 nbuf6_7 (Memref.isWhole_whole _) hwx6_7 hstage6_7

abbrev win6_8 : Pipeline.Window sig grid6 :=
  Pipeline.Window.ofSpec (Memref.whole main_v69_0) S256x10.size cc6_transform_8 reads6_8 true true 1 stage6_8 sem6_8
    hrank6 hreads6_8 hinb6_8 nbuf6_8 (Memref.isWhole_whole _) hwx6_8 hstage6_8

abbrev win6_9 : Pipeline.Window sig grid6 :=
  Pipeline.Window.ofSpec (Memref.whole main_v69_1) S256x64.size cc6_transform_9 reads6_9 true true 1 stage6_9 sem6_9
    hrank6 hreads6_9 hinb6_9 nbuf6_9 (Memref.isWhole_whole _) hwx6_9 hstage6_9

abbrev win6 : Fin 10 → Pipeline.Window sig grid6 := fun | 0 => win6_0 | 1 => win6_1 | 2 => win6_2 | 3 => win6_3 | 4 => win6_4 | 5 => win6_5 | 6 => win6_6 | 7 => win6_7 | 8 => win6_8 | 9 => win6_9 | ⟨_ + 10, h⟩ => absurd h (Nat.not_lt.2 (Nat.le_add_left _ _))
abbrev spec6 : Fin 10 → Pipeline.WinSpec sig grid6.rank := fun w => (win6 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S50000 : Shape := ⟨1, ![50000]⟩
abbrev S128x128 : Shape := ⟨2, ![128, 128]⟩
abbrev S128 : Shape := ⟨1, ![128]⟩
abbrev S128x256 : Shape := ⟨2, ![128, 256]⟩
abbrev S256 : Shape := ⟨1, ![256]⟩
abbrev S256x128 : Shape := ⟨2, ![256, 128]⟩
abbrev S128x64 : Shape := ⟨2, ![128, 64]⟩
abbrev S64 : Shape := ⟨1, ![64]⟩
abbrev S64x10 : Shape := ⟨2, ![64, 10]⟩
abbrev S10 : Shape := ⟨1, ![10]⟩
abbrev S1x800000 : Shape := ⟨2, ![1, 800000]⟩
abbrev S800000 : Shape := ⟨1, ![800000]⟩
abbrev S850000 : Shape := ⟨1, ![850000]⟩
abbrev S_ : Shape := ⟨0, ![]⟩
abbrev S850000x1 : Shape := ⟨2, ![850000, 1]⟩
abbrev S850000x128 : Shape := ⟨2, ![850000, 128]⟩
abbrev S1x128 : Shape := ⟨2, ![1, 128]⟩
abbrev S50000x256 : Shape := ⟨2, ![50000, 256]⟩
abbrev S850000x256 : Shape := ⟨2, ![850000, 256]⟩
abbrev S1x256 : Shape := ⟨2, ![1, 256]⟩
abbrev S256x256 : Shape := ⟨2, ![256, 256]⟩
abbrev S50000x1 : Shape := ⟨2, ![50000, 1]⟩
abbrev S256x1 : Shape := ⟨2, ![256, 1]⟩
abbrev S256x64 : Shape := ⟨2, ![256, 64]⟩
abbrev S1x64 : Shape := ⟨2, ![1, 64]⟩
abbrev S256x10 : Shape := ⟨2, ![256, 10]⟩
abbrev S1x10 : Shape := ⟨2, ![1, 10]⟩

abbrev nBuf : Space → Nat
  | .hbm => 153
  | .vmem => 0
  | .smem => 0
  | _ => 0

abbrev hbmTy0_0 (i : Nat) : BufTy := match i % 128 with
  | 0 => ⟨S50000x128, .f32⟩
  | 1 => ⟨S2x800000, .i32⟩
  | 2 => ⟨S50000, .i32⟩
  | 3 => ⟨S128x128, .f32⟩
  | 4 => ⟨S128, .f32⟩
  | 5 => ⟨S128x128, .f32⟩
  | 6 => ⟨S128, .f32⟩
  | 7 => ⟨S128x256, .f32⟩
  | 8 => ⟨S256, .f32⟩
  | 9 => ⟨S256x128, .f32⟩
  | 10 => ⟨S128, .f32⟩
  | 11 => ⟨S128x64, .f32⟩
  | 12 => ⟨S64, .f32⟩
  | 13 => ⟨S64x10, .f32⟩
  | 14 => ⟨S10, .f32⟩
  | 15 => ⟨S50000, .i32⟩
  | 16 => ⟨S1x800000, .i32⟩
  | 17 => ⟨S800000, .i32⟩
  | 18 => ⟨S850000, .i32⟩
  | 19 => ⟨S1x800000, .i32⟩
  | 20 => ⟨S800000, .i32⟩
  | 21 => ⟨S850000, .i32⟩
  | 22 => ⟨S_, .f32⟩
  | 23 => ⟨S850000, .f32⟩
  | 24 => ⟨S_, .f32⟩
  | 25 => ⟨S50000, .f32⟩
  | 26 => ⟨S850000x1, .i32⟩
  | 27 => ⟨S50000, .f32⟩
  | 28 => ⟨S_, .f32⟩
  | 29 => ⟨S50000, .f32⟩
  | 30 => ⟨S50000, .i1⟩
  | 31 => ⟨S50000, .f32⟩
  | 32 => ⟨S_, .f32⟩
  | 33 => ⟨S_, .f32⟩
  | 34 => ⟨S50000, .f32⟩
  | 35 => ⟨S50000, .f32⟩
  | 36 => ⟨S_, .i32⟩
  | 37 => ⟨S850000, .i32⟩
  | 38 => ⟨S850000, .i1⟩
  | 39 => ⟨S_, .i32⟩
  | 40 => ⟨S850000, .i32⟩
  | 41 => ⟨S850000, .i32⟩
  | 42 => ⟨S850000, .i32⟩
  | 43 => ⟨S850000x1, .i32⟩
  | 44 => ⟨S850000, .f32⟩
  | 45 => ⟨S_, .i32⟩
  | 46 => ⟨S850000, .i32⟩
  | 47 => ⟨S850000, .i1⟩
  | 48 => ⟨S_, .i32⟩
  | 49 => ⟨S850000, .i32⟩
  | 50 => ⟨S850000, .i32⟩
  | 51 => ⟨S850000, .i32⟩
  | 52 => ⟨S850000x1, .i32⟩
  | 53 => ⟨S850000, .f32⟩
  | 54 => ⟨S850000, .f32⟩
  | 55 => ⟨S850000x1, .f32⟩
  | 56 => ⟨S50000x128, .f32⟩
  | 57 => ⟨S_, .i32⟩
  | 58 => ⟨S850000, .i32⟩
  | 59 => ⟨S850000, .i1⟩
  | 60 => ⟨S_, .i32⟩
  | 61 => ⟨S850000, .i32⟩
  | 62 => ⟨S850000, .i32⟩
  | 63 => ⟨S850000, .i32⟩
  | 64 => ⟨S850000x1, .i32⟩
  | 65 => ⟨S850000x128, .f32⟩
  | 66 => ⟨S850000x128, .f32⟩
  | 67 => ⟨S850000x128, .f32⟩
  | 68 => ⟨S_, .f32⟩
  | 69 => ⟨S50000x128, .f32⟩
  | 70 => ⟨S850000x1, .i32⟩
  | 71 => ⟨S50000x128, .f32⟩
  | 72 => ⟨S1x128, .f32⟩
  | 73 => ⟨S50000x128, .f32⟩
  | 74 => ⟨S50000x128, .f32⟩
  | 75 => ⟨S_, .f32⟩
  | 76 => ⟨S50000x128, .f32⟩
  | 77 => ⟨S50000x128, .f32⟩
  | 78 => ⟨S50000x128, .f32⟩
  | 79 => ⟨S_, .i32⟩
  | 80 => ⟨S850000, .i32⟩
  | 81 => ⟨S850000, .i1⟩
  | 82 => ⟨S_, .i32⟩
  | 83 => ⟨S850000, .i32⟩
  | 84 => ⟨S850000, .i32⟩
  | 85 => ⟨S850000, .i32⟩
  | 86 => ⟨S850000x1, .i32⟩
  | 87 => ⟨S850000x128, .f32⟩
  | 88 => ⟨S850000x128, .f32⟩
  | 89 => ⟨S850000x128, .f32⟩
  | 90 => ⟨S_, .f32⟩
  | 91 => ⟨S50000x128, .f32⟩
  | 92 => ⟨S850000x1, .i32⟩
  | 93 => ⟨S50000x128, .f32⟩
  | 94 => ⟨S1x128, .f32⟩
  | 95 => ⟨S50000x128, .f32⟩
  | 96 => ⟨S50000x128, .f32⟩
  | 97 => ⟨S_, .f32⟩
  | 98 => ⟨S50000x128, .f32⟩
  | 99 => ⟨S50000x128, .f32⟩
  | 100 => ⟨S50000x256, .f32⟩
  | 101 => ⟨S_, .i32⟩
  | 102 => ⟨S850000, .i32⟩
  | 103 => ⟨S850000, .i1⟩
  | 104 => ⟨S_, .i32⟩
  | 105 => ⟨S850000, .i32⟩
  | 106 => ⟨S850000, .i32⟩
  | 107 => ⟨S850000, .i32⟩
  | 108 => ⟨S850000x1, .i32⟩
  | 109 => ⟨S850000x256, .f32⟩
  | 110 => ⟨S850000x256, .f32⟩
  | 111 => ⟨S850000x256, .f32⟩
  | 112 => ⟨S_, .f32⟩
  | 113 => ⟨S50000x256, .f32⟩
  | 114 => ⟨S850000x1, .i32⟩
  | 115 => ⟨S50000x256, .f32⟩
  | 116 => ⟨S1x256, .f32⟩
  | 117 => ⟨S50000x256, .f32⟩
  | 118 => ⟨S50000x256, .f32⟩
  | 119 => ⟨S_, .f32⟩
  | 120 => ⟨S256x256, .f32⟩
  | 121 => ⟨S50000x1, .i32⟩
  | 122 => ⟨S256x256, .f32⟩
  | 123 => ⟨S_, .f32⟩
  | 124 => ⟨S50000, .f32⟩
  | 125 => ⟨S_, .f32⟩
  | 126 => ⟨S256, .f32⟩
  | 127 => ⟨S50000x1, .i32⟩
  | _ => ⟨S50000x128, .f32⟩

abbrev hbmTy0_1 (i : Nat) : BufTy := match i % 128 with
  | 0 => ⟨S256, .f32⟩
  | 1 => ⟨S_, .f32⟩
  | 2 => ⟨S256, .f32⟩
  | 3 => ⟨S256, .f32⟩
  | 4 => ⟨S256x1, .f32⟩
  | 5 => ⟨S256x256, .f32⟩
  | 6 => ⟨S256x256, .f32⟩
  | 7 => ⟨S256x128, .f32⟩
  | 8 => ⟨S1x128, .f32⟩
  | 9 => ⟨S256x128, .f32⟩
  | 10 => ⟨S256x128, .f32⟩
  | 11 => ⟨S_, .f32⟩
  | 12 => ⟨S256x128, .f32⟩
  | 13 => ⟨S256x128, .f32⟩
  | 14 => ⟨S256x64, .f32⟩
  | 15 => ⟨S1x64, .f32⟩
  | 16 => ⟨S256x64, .f32⟩
  | 17 => ⟨S256x64, .f32⟩
  | 18 => ⟨S_, .f32⟩
  | 19 => ⟨S256x64, .f32⟩
  | 20 => ⟨S256x64, .f32⟩
  | 21 => ⟨S256x10, .f32⟩
  | 22 => ⟨S1x10, .f32⟩
  | 23 => ⟨S256x10, .f32⟩
  | 24 => ⟨S256x10, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst_1 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_2 : Ref sig .tc := ⟨.hbm, 32, rfl⟩
abbrev main_call0_v0 : Ref sig .tc := ⟨.hbm, 33, rfl⟩
abbrev main_call0_v1 : Ref sig .tc := ⟨.hbm, 34, rfl⟩
abbrev main_v14 : Ref sig .tc := ⟨.hbm, 35, rfl⟩
abbrev main_c : Ref sig .tc := ⟨.hbm, 36, rfl⟩
abbrev main_v15 : Ref sig .tc := ⟨.hbm, 37, rfl⟩
abbrev main_v16 : Ref sig .tc := ⟨.hbm, 38, rfl⟩
abbrev main_c_3 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_c_4 : Ref sig .tc := ⟨.hbm, 45, rfl⟩
abbrev main_v22 : Ref sig .tc := ⟨.hbm, 46, rfl⟩
abbrev main_v23 : Ref sig .tc := ⟨.hbm, 47, rfl⟩
abbrev main_c_5 : Ref sig .tc := ⟨.hbm, 48, rfl⟩
abbrev main_v24 : Ref sig .tc := ⟨.hbm, 49, rfl⟩
abbrev main_v25 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_c_6 : Ref sig .tc := ⟨.hbm, 57, rfl⟩
abbrev main_v32 : Ref sig .tc := ⟨.hbm, 58, rfl⟩
abbrev main_v33 : Ref sig .tc := ⟨.hbm, 59, rfl⟩
abbrev main_c_7 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_v39 : Ref sig .tc := ⟨.hbm, 66, rfl⟩
abbrev main_v40 : Ref sig .tc := ⟨.hbm, 67, rfl⟩
abbrev main_cst_8 : Ref sig .tc := ⟨.hbm, 68, rfl⟩
abbrev main_v41 : Ref sig .tc := ⟨.hbm, 69, rfl⟩
abbrev main_v42 : Ref sig .tc := ⟨.hbm, 70, rfl⟩
abbrev main_v43 : Ref sig .tc := ⟨.hbm, 71, rfl⟩
abbrev main_v44 : Ref sig .tc := ⟨.hbm, 72, rfl⟩
abbrev main_v45 : Ref sig .tc := ⟨.hbm, 73, rfl⟩
abbrev main_v46 : Ref sig .tc := ⟨.hbm, 74, rfl⟩
abbrev main_call1_cst : Ref sig .tc := ⟨.hbm, 75, rfl⟩
abbrev main_call1_v0 : Ref sig .tc := ⟨.hbm, 76, rfl⟩
abbrev main_v47 : Ref sig .tc := ⟨.hbm, 77, rfl⟩
abbrev main_v48 : Ref sig .tc := ⟨.hbm, 78, rfl⟩
abbrev main_c_9 : Ref sig .tc := ⟨.hbm, 79, rfl⟩
abbrev main_v49 : Ref sig .tc := ⟨.hbm, 80, rfl⟩
abbrev main_v50 : Ref sig .tc := ⟨.hbm, 81, rfl⟩
abbrev main_c_10 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_cst_11 : Ref sig .tc := ⟨.hbm, 90, rfl⟩
abbrev main_v58 : Ref sig .tc := ⟨.hbm, 91, rfl⟩
abbrev main_v59 : Ref sig .tc := ⟨.hbm, 92, rfl⟩
abbrev main_v60 : Ref sig .tc := ⟨.hbm, 93, rfl⟩
abbrev main_v61 : Ref sig .tc := ⟨.hbm, 94, rfl⟩
abbrev main_v62 : Ref sig .tc := ⟨.hbm, 95, rfl⟩
abbrev main_v63 : Ref sig .tc := ⟨.hbm, 96, rfl⟩
abbrev main_call2_cst : Ref sig .tc := ⟨.hbm, 97, rfl⟩
abbrev main_call2_v0 : Ref sig .tc := ⟨.hbm, 98, rfl⟩
abbrev main_v64 : Ref sig .tc := ⟨.hbm, 99, rfl⟩
abbrev main_v65 : Ref sig .tc := ⟨.hbm, 100, rfl⟩
abbrev main_c_12 : Ref sig .tc := ⟨.hbm, 101, rfl⟩
abbrev main_v66 : Ref sig .tc := ⟨.hbm, 102, rfl⟩
abbrev main_v67 : Ref sig .tc := ⟨.hbm, 103, rfl⟩
abbrev main_c_13 : Ref sig .tc := ⟨.hbm, 104, rfl⟩
abbrev main_v68 : Ref sig .tc := ⟨.hbm, 105, rfl⟩
abbrev main_v69 : Ref sig .tc := ⟨.hbm, 106, rfl⟩
abbrev main_v70 : Ref sig .tc := ⟨.hbm, 107, rfl⟩
abbrev main_v71 : Ref sig .tc := ⟨.hbm, 108, rfl⟩
abbrev main_v72 : Ref sig .tc := ⟨.hbm, 109, rfl⟩
abbrev main_v73 : Ref sig .tc := ⟨.hbm, 110, rfl⟩
abbrev main_v74 : Ref sig .tc := ⟨.hbm, 111, rfl⟩
abbrev main_cst_14 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_v80 : Ref sig .tc := ⟨.hbm, 118, rfl⟩
abbrev main_cst_15 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_cst_16 : Ref sig .tc := ⟨.hbm, 123, rfl⟩
abbrev main_v84 : Ref sig .tc := ⟨.hbm, 124, rfl⟩
abbrev main_cst_17 : Ref sig .tc := ⟨.hbm, 125, rfl⟩
abbrev main_v85 : Ref sig .tc := ⟨.hbm, 126, rfl⟩
abbrev main_v86 : Ref sig .tc := ⟨.hbm, 127, rfl⟩
abbrev main_v87 : Ref sig .tc := ⟨.hbm, 128, rfl⟩
abbrev main_cst_18 : Ref sig .tc := ⟨.hbm, 129, rfl⟩
abbrev main_v88 : Ref sig .tc := ⟨.hbm, 130, rfl⟩
abbrev main_v89 : Ref sig .tc := ⟨.hbm, 131, rfl⟩
abbrev main_v90 : Ref sig .tc := ⟨.hbm, 132, rfl⟩
abbrev main_v91 : Ref sig .tc := ⟨.hbm, 133, rfl⟩
abbrev main_v92 : Ref sig .tc := ⟨.hbm, 134, rfl⟩
abbrev main_v93 : Ref sig .tc := ⟨.hbm, 135, rfl⟩
abbrev main_v94 : Ref sig .tc := ⟨.hbm, 136, rfl⟩
abbrev main_v95 : Ref sig .tc := ⟨.hbm, 137, rfl⟩
abbrev main_v96 : Ref sig .tc := ⟨.hbm, 138, rfl⟩
abbrev main_call3_cst : Ref sig .tc := ⟨.hbm, 139, rfl⟩
abbrev main_call3_v0 : Ref sig .tc := ⟨.hbm, 140, rfl⟩
abbrev main_v97 : Ref sig .tc := ⟨.hbm, 141, rfl⟩
abbrev main_v98 : Ref sig .tc := ⟨.hbm, 142, rfl⟩
abbrev main_v99 : Ref sig .tc := ⟨.hbm, 143, rfl⟩
abbrev main_v100 : Ref sig .tc := ⟨.hbm, 144, rfl⟩
abbrev main_v101 : Ref sig .tc := ⟨.hbm, 145, rfl⟩
abbrev main_call4_cst : Ref sig .tc := ⟨.hbm, 146, rfl⟩
abbrev main_call4_v0 : Ref sig .tc := ⟨.hbm, 147, rfl⟩
abbrev main_v102 : Ref sig .tc := ⟨.hbm, 148, rfl⟩
abbrev main_v103 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  concatenates_S800000_S50000_S850000_d0 : Shape.Concatenates [S800000, S50000] S850000 0
  slices_S2x800000_S1x800000_1_0 : S2x800000.Slices ![1, 0] S1x800000
  bcast_S_S850000 : S_.BroadcastsInDim S850000 (![] : Fin 0 → Fin S850000.rank)
  bcast_S_S50000 : S_.BroadcastsInDim S50000 (![] : Fin 0 → Fin S50000.rank)
  bcast_S850000_S850000x1_0 : S850000.BroadcastsInDim S850000x1 (![0] : Fin 1 → Fin S850000x1.rank)
  bcast_S850000x1_S850000x128_0_1 : S850000x1.BroadcastsInDim S850000x128 (![0, 1] : Fin 2 → Fin S850000x128.rank)
  bcast_S_S50000x128 : S_.BroadcastsInDim S50000x128 (![] : Fin 0 → Fin S50000x128.rank)
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  bcast_S850000x1_S850000x256_0_1 : S850000x1.BroadcastsInDim S850000x256 (![0, 1] : Fin 2 → Fin S850000x256.rank)
  bcast_S_S50000x256 : S_.BroadcastsInDim S50000x256 (![] : Fin 0 → Fin S50000x256.rank)
  bcast_S256_S1x256_1 : S256.BroadcastsInDim S1x256 (![1] : Fin 1 → Fin S1x256.rank)
  bcast_S1x256_S50000x256_0_1 : S1x256.BroadcastsInDim S50000x256 (![0, 1] : Fin 2 → Fin S50000x256.rank)
  bcast_S_S256x256 : S_.BroadcastsInDim S256x256 (![] : Fin 0 → Fin S256x256.rank)
  bcast_S50000_S50000x1_0 : S50000.BroadcastsInDim S50000x1 (![0] : Fin 1 → Fin S50000x1.rank)
  bcast_S_S256 : S_.BroadcastsInDim S256 (![] : Fin 0 → Fin S256.rank)
  bcast_S256_S256x1_0 : S256.BroadcastsInDim S256x1 (![0] : Fin 1 → Fin S256x1.rank)
  bcast_S256x1_S256x256_0_1 : S256x1.BroadcastsInDim S256x256 (![0, 1] : Fin 2 → Fin S256x256.rank)
  bcast_S1x128_S256x128_0_1 : S1x128.BroadcastsInDim S256x128 (![0, 1] : Fin 2 → Fin S256x128.rank)
  bcast_S_S256x128 : S_.BroadcastsInDim S256x128 (![] : Fin 0 → Fin S256x128.rank)
  bcast_S64_S1x64_1 : S64.BroadcastsInDim S1x64 (![1] : Fin 1 → Fin S1x64.rank)
  bcast_S1x64_S256x64_0_1 : S1x64.BroadcastsInDim S256x64 (![0, 1] : Fin 2 → Fin S256x64.rank)
  bcast_S_S256x64 : S_.BroadcastsInDim S256x64 (![] : Fin 0 → Fin S256x64.rank)
  bcast_S10_S1x10_1 : S10.BroadcastsInDim S1x10 (![1] : Fin 1 → Fin S1x10.rank)
  bcast_S1x10_S256x10_0_1 : S1x10.BroadcastsInDim S256x10 (![0, 1] : Fin 2 → Fin S256x10.rank)
  scatter_S50000_S850000x1_S850000_n_0_0_1_wf : ScatterDims.WF S50000 S850000x1 S850000 [] [0] [0] 1
  gather_S50000_S850000x1_S850000_n_0_n_n_0_1_1_wf : GatherDims.WF S50000 S850000x1 S850000 [] [0] [] [0] [] 1 ![1]
  dot_S50000x128_S128x128_S50000x128_1_0_0_1_n_n_wf : DotDims.WF S50000x128 S128x128 S50000x128 [1] [0] [0] [1] [] []
  gather_S50000x128_S850000x1_S850000x128_1_0_n_n_0_1_1128_wf : GatherDims.WF S50000x128 S850000x1 S850000x128 [1] [0] [] [0] [] 1 ![1, 128]
  scatter_S50000x128_S850000x1_S850000x128_1_0_0_1_wf : ScatterDims.WF S50000x128 S850000x1 S850000x128 [1] [0] [0] 1
  dot_S50000x128_S128x256_S50000x256_1_0_0_1_n_n_wf : DotDims.WF S50000x128 S128x256 S50000x256 [1] [0] [0] [1] [] []
  gather_S50000x256_S850000x1_S850000x256_1_0_n_n_0_1_1256_wf : GatherDims.WF S50000x256 S850000x1 S850000x256 [1] [0] [] [0] [] 1 ![1, 256]
  scatter_S50000x256_S850000x1_S850000x256_1_0_0_1_wf : ScatterDims.WF S50000x256 S850000x1 S850000x256 [1] [0] [0] 1
  scatter_S256x256_S50000x1_S50000x256_1_0_0_1_wf : ScatterDims.WF S256x256 S50000x1 S50000x256 [1] [0] [0] 1
  scatter_S256_S50000x1_S50000_n_0_0_1_wf : ScatterDims.WF S256 S50000x1 S50000 [] [0] [0] 1
  dot_S256x256_S256x128_S256x128_1_0_0_1_n_n_wf : DotDims.WF S256x256 S256x128 S256x128 [1] [0] [0] [1] [] []
  dot_S256x128_S128x64_S256x64_1_0_0_1_n_n_wf : DotDims.WF S256x128 S128x64 S256x64 [1] [0] [0] [1] [] []
  dot_S256x64_S64x10_S256x10_1_0_0_1_n_n_wf : DotDims.WF S256x64 S64x10 S256x10 [1] [0] [0] [1] [] []

variable [Facts₀]

def scatter_S50000_S850000x1_S850000_n_0_0_1 : ScatterDims S50000 S850000x1 S850000 where
  updateWindowDims := []
  insertedWindowDims := [0]
  scatterDimsToOperandDims := [0]
  indexVectorDim := 1
  wf := scatter_S50000_S850000x1_S850000_n_0_0_1_wf
def gather_S50000_S850000x1_S850000_n_0_n_n_0_1_1 : GatherDims S50000 S850000x1 S850000 where
  offsetDims := []
  collapsedSliceDims := [0]
  operandBatchingDims := []
  startIndicesBatchingDims := []
  startIndexMap := [0]
  indexVectorDim := 1
  sliceSizes := ![1]
  wf := gather_S50000_S850000x1_S850000_n_0_n_n_0_1_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def gather_S50000x128_S850000x1_S850000x128_1_0_n_n_0_1_1128 : GatherDims S50000x128 S850000x1 S850000x128 where
  offsetDims := [1]
  collapsedSliceDims := [0]
  operandBatchingDims := []
  startIndicesBatchingDims := []
  startIndexMap := [0]
  indexVectorDim := 1
  sliceSizes := ![1, 128]
  wf := gather_S50000x128_S850000x1_S850000x128_1_0_n_n_0_1_1128_wf
def scatter_S50000x128_S850000x1_S850000x128_1_0_0_1 : ScatterDims S50000x128 S850000x1 S850000x128 where
  updateWindowDims := [1]
  insertedWindowDims := [0]
  scatterDimsToOperandDims := [0]
  indexVectorDim := 1
  wf := scatter_S50000x128_S850000x1_S850000x128_1_0_0_1_wf
def dot_S50000x128_S128x256_S50000x256_1_0_0_1_n_n : DotDims S50000x128 S128x256 S50000x256 where
  lhsContracting := [1]
  rhsContracting := [0]
  lhsNonContracting := [0]
  rhsNonContracting := [1]
  lhsBatch := []
  rhsBatch := []
  wf := dot_S50000x128_S128x256_S50000x256_1_0_0_1_n_n_wf
def gather_S50000x256_S850000x1_S850000x256_1_0_n_n_0_1_1256 : GatherDims S50000x256 S850000x1 S850000x256 where
  offsetDims := [1]
  collapsedSliceDims := [0]
  operandBatchingDims := []
  startIndicesBatchingDims := []
  startIndexMap := [0]
  indexVectorDim := 1
  sliceSizes := ![1, 256]
  wf := gather_S50000x256_S850000x1_S850000x256_1_0_n_n_0_1_1256_wf
def scatter_S50000x256_S850000x1_S850000x256_1_0_0_1 : ScatterDims S50000x256 S850000x1 S850000x256 where
  updateWindowDims := [1]
  insertedWindowDims := [0]
  scatterDimsToOperandDims := [0]
  indexVectorDim := 1
  wf := scatter_S50000x256_S850000x1_S850000x256_1_0_0_1_wf
def scatter_S256x256_S50000x1_S50000x256_1_0_0_1 : ScatterDims S256x256 S50000x1 S50000x256 where
  updateWindowDims := [1]
  insertedWindowDims := [0]
  scatterDimsToOperandDims := [0]
  indexVectorDim := 1
  wf := scatter_S256x256_S50000x1_S50000x256_1_0_0_1_wf
def scatter_S256_S50000x1_S50000_n_0_0_1 : ScatterDims S256 S50000x1 S50000 where
  updateWindowDims := []
  insertedWindowDims := [0]
  scatterDimsToOperandDims := [0]
  indexVectorDim := 1
  wf := scatter_S256_S50000x1_S50000_n_0_0_1_wf
def dot_S256x256_S256x128_S256x128_1_0_0_1_n_n : DotDims S256x256 S256x128 S256x128 where
  lhsContracting := [1]
  rhsContracting := [0]
  lhsNonContracting := [0]
  rhsNonContracting := [1]
  lhsBatch := []
  rhsBatch := []
  wf := dot_S256x256_S256x128_S256x128_1_0_0_1_n_n_wf
def dot_S256x128_S128x64_S256x64_1_0_0_1_n_n : DotDims S256x128 S128x64 S256x64 where
  lhsContracting := [1]
  rhsContracting := [0]
  lhsNonContracting := [0]
  rhsNonContracting := [1]
  lhsBatch := []
  rhsBatch := []
  wf := dot_S256x128_S128x64_S256x64_1_0_0_1_n_n_wf
def dot_S256x64_S64x10_S256x10_1_0_0_1_n_n : DotDims S256x64 S64x10 S256x10 where
  lhsContracting := [1]
  rhsContracting := [0]
  lhsNonContracting := [0]
  rhsNonContracting := [1]
  lhsBatch := []
  rhsBatch := []
  wf := dot_S256x64_S64x10_S256x10_1_0_0_1_n_n_wf

class Facts : Prop extends Facts₀ where

variable [Facts]
-- ==== Proof.KRun.lean ====
/-
  The tiled program's run with its two results named: every weakly fair execution terminates, nothing faulting,
  with the class scores and the hidden features at what the last region's write-backs leave (the contents `W14` of
  the last segment boundary) and every argument array as launched.
-/
import proofs.«141883_j50397146251362_2_alg».proof.Proof.Gen.KernelIdeal.Frame

set_option maxRecDepth 16384

noncomputable section

namespace Cert.Gcn.KRun

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The run, with both result buffers read at the last boundary's contents. -/
theorem run : θ_run defs (onTc (τ := τ) (main (F := F))) ⟨m, fun _ => 0, ρ⟩ (fun r => ∀ c : Dev nD,
      r.2.mem ((c.tc : Thread nD τ).loc main_v69_0) = W14 m ρ c (Proc.devRef .tc main_v69_0)
      ∧ r.2.mem ((c.tc : Thread nD τ).loc main_v69_1) = W14 m ρ c (Proc.devRef .tc main_v69_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W14 m ρ c b)
    (hfin := fun c s' => by
      iintro ⟨⟨Hh, -⟩, HSI⟩
      unfold StableHlo.held
      imodintro
      iapply (pointsTo_read_all (Pipeline.ucRefs τ sig) (fun b => (((c : Thread nD τ)).1, b)) (W14 m ρ c) s')
      isplitl [Hh] <;> iassumption)
    (hQ := fun s h c =>
      ⟨h c _ (mem_uc main_v69_0 (by decide)),
       h c _ (mem_uc main_v69_1 (by decide)),
       (h c _ (mem_uc main_arg0 (by decide))).trans (W14_main_arg0 m ρ c),
       (h c _ (mem_uc main_arg1 (by decide))).trans (W14_main_arg1 m ρ c),
       (h c _ (mem_uc main_arg2 (by decide))).trans (W14_main_arg2 m ρ c),
       (h c _ (mem_uc main_arg3 (by decide))).trans (W14_main_arg3 m ρ c),
       (h c _ (mem_uc main_arg4 (by decide))).trans (W14_main_arg4 m ρ c),
       (h c _ (mem_uc main_arg5 (by decide))).trans (W14_main_arg5 m ρ c),
       (h c _ (mem_uc main_arg6 (by decide))).trans (W14_main_arg6 m ρ c),
       (h c _ (mem_uc main_arg7 (by decide))).trans (W14_main_arg7 m ρ c),
       (h c _ (mem_uc main_arg8 (by decide))).trans (W14_main_arg8 m ρ c),
       (h c _ (mem_uc main_arg9 (by decide))).trans (W14_main_arg9 m ρ c),
       (h c _ (mem_uc main_arg10 (by decide))).trans (W14_main_arg10 m ρ c),
       (h c _ (mem_uc main_arg11 (by decide))).trans (W14_main_arg11 m ρ c),
       (h c _ (mem_uc main_arg12 (by decide))).trans (W14_main_arg12 m ρ c),
       (h c _ (mem_uc main_arg13 (by decide))).trans (W14_main_arg13 m ρ c),
       (h c _ (mem_uc main_arg14 (by decide))).trans (W14_main_arg14 m ρ c)⟩)

end Cert.Gcn.KRun

end
-- ==== Proof.LibMatmul.lean ====
/-
  Plain matrix products read at an index, at the ideal values.  For dimension numbers that contract the
  left operand's axis 1 with the right operand's axis 0, keep the left operand's axis 0 and the right
  operand's axis 1 and have no batch axis, a `tpu.matmul` into the zero accumulator and the host's
  `dot_general` are both, at the output index (p, q), the sum over k of x(p, k) · w(k, q).
-/
import Idealize.ShloMosaic.PureOps.Ideal.Laws
import Idealize.ShloMosaic.Lib.ValueIdx

noncomputable section

open scoped BigOperators

namespace Cert.LibMatmul

open Idealize.ShloMosaic Idealize.ShloMosaic.ValueIdx

/-- The matrix product of two arrays of extended reals, index by index. -/
def MM {A K B : Nat} (x : (⟨2, ![A, K]⟩ : Shape).Idx → EReal) (w : (⟨2, ![K, B]⟩ : Shape).Idx → EReal) :
    (⟨2, ![A, B]⟩ : Shape).Idx → EReal :=
  fun i => ∑ k : Fin K, x (ix2 (i 0) k) * w (ix2 k (i 1))

theorem MM_apply {A K B : Nat} (x : (⟨2, ![A, K]⟩ : Shape).Idx → EReal) (w : (⟨2, ![K, B]⟩ : Shape).Idx → EReal)
    (p : Fin A) (q : Fin B) : MM x w (ix2 p q) = ∑ k : Fin K, x (ix2 p k) * w (ix2 k q) := rfl

section Plain
variable {A K B : Nat} (d : DotDims ⟨2, ![A, K]⟩ ⟨2, ![K, B]⟩ ⟨2, ![A, B]⟩)
  (hlb : d.lhsBatch = []) (hln : d.lhsNonContracting = [0]) (hlc : d.lhsContracting = [1])
  (hrb : d.rhsBatch = []) (hrn : d.rhsNonContracting = [1]) (hrc : d.rhsContracting = [0])

include hlc in
theorem contr_rank : d.contr.rank = 1 := by rw [d.rank_contr, hlc]; rfl

include hlc in
theorem contr_size : d.contr.size ⟨0, by rw [contr_rank d hlc]; exact Nat.one_pos⟩ = K := by
  have hp : 0 < d.lhsContracting.length := by rw [hlc]; exact Nat.one_pos
  have := d.size_contr 0 hp
  simp only [hlc] at this
  exact this

include hlb hln hlc in
/-- The left operand's index at output index `j` and contraction position `k` is (j₀, k). -/
theorem lhsIdx_eq (j : (⟨2, ![A, B]⟩ : Shape).Idx) (k : d.contr.Idx) :
    d.lhsIdx j k = ix2 (j 0) ((contrEquiv1 d K (contr_rank d hlc) (contr_size d hlc)) k) := by
  funext a; apply Fin.ext
  match a with
  | ⟨0, _⟩ =>
    show (d.lhsIdx j k 0).val = (j 0).val
    have h0b : (0 : Fin (⟨2, ![A, K]⟩ : Shape).rank) ∉ d.lhsBatch := by rw [hlb]; exact List.not_mem_nil
    have h0n : (0 : Fin (⟨2, ![A, K]⟩ : Shape).rank) ∈ d.lhsNonContracting := by rw [hln]; exact List.mem_singleton.mpr rfl
    unfold DotDims.lhsIdx
    rw [dif_neg h0b, dif_pos h0n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln])
  | ⟨1, _⟩ =>
    show (d.lhsIdx j k 1).val = _
    rw [d.lhsIdx_val_of_single hlc j k]
    simp [contrEquiv1]

include hrb hrn hrc hlb hln hlc in
/-- The right operand's index at output index `j` and contraction position `k` is (k, j₁). -/
theorem rhsIdx_eq (j : (⟨2, ![A, B]⟩ : Shape).Idx) (k : d.contr.Idx) :
    d.rhsIdx j k = ix2 ((contrEquiv1 d K (contr_rank d hlc) (contr_size d hlc)) k) (j 1) := by
  funext a; apply Fin.ext
  match a with
  | ⟨0, _⟩ =>
    show (d.rhsIdx j k 0).val = _
    rw [d.rhsIdx_val_of_single hrc j k]
    simp [contrEquiv1]
  | ⟨1, _⟩ =>
    show (d.rhsIdx j k 1).val = (j 1).val
    have h1b : (1 : Fin (⟨2, ![K, B]⟩ : Shape).rank) ∉ d.rhsBatch := by rw [hrb]; exact List.not_mem_nil
    have h1n : (1 : Fin (⟨2, ![K, B]⟩ : Shape).rank) ∈ d.rhsNonContracting := by rw [hrn]; exact List.mem_singleton.mpr rfl
    unfold DotDims.rhsIdx
    rw [dif_neg h1b, dif_pos h1n]
    simp only [Fin.val_cast]
    have key : ∀ (p q : Nat) (hp : p < (⟨2, ![A, B]⟩ : Shape).rank) (hq : q < (⟨2, ![A, B]⟩ : Shape).rank), p = q →
        (j ⟨p, hp⟩).val = (j ⟨q, hq⟩).val := fun p q hp hq h => by subst h; rfl
    exact key _ _ _ _ (by simp [hlb, hln, hrn])

include hrb hrn hrc hlb hln hlc in
/-- The contraction's sum is the matrix product at the index. -/
theorem plain_sum (x : (⟨2, ![A, K]⟩ : Shape).Idx → EReal) (w : (⟨2, ![K, B]⟩ : Shape).Idx → EReal)
    (j : (⟨2, ![A, B]⟩ : Shape).Idx) :
    ∑ k : d.contr.Idx, x (d.lhsIdx j k) * w (d.rhsIdx j k) = MM x w j := by
  unfold MM
  rw [← Equiv.sum_comp (contrEquiv1 d K (contr_rank d hlc) (contr_size d hlc)) (fun k' => x (ix2 (j 0) k') * w (ix2 k' (j 1)))]
  refine Finset.sum_congr rfl fun k _ => ?_
  rw [lhsIdx_eq d hlb hln hlc j k, rhsIdx_eq d hlb hln hlc hrb hrn hrc j k]
  rfl

include hrb hrn hrc hlb hln hlc in
/-- A `tpu.matmul` into the zero accumulator is the matrix product. -/
theorem matmul_zero_eq {φ₁ φ₂ : FTy} (prec : Option ContractPrecision) (x : FVec Ideal ⟨2, ![A, K]⟩ φ₁) (w : FVec Ideal ⟨2, ![K, B]⟩ φ₂) :
    FloatOps.matmul d prec x w (constant ⟨2, ![A, B]⟩ .f32 0x00000000#32) = MM x w := by
  funext j
  rw [Ideal.matmul_constant_zero_apply]
  exact plain_sum d hlb hln hlc hrb hrn hrc x w j

include hrb hrn hrc hlb hln hlc in
/-- The host's `dot_general` is the matrix product. -/
theorem dotGeneral_eq {φ₁ φ₂ : FTy} (prec : Option ContractPrecision) (sched : HostSchedule) (x : FVec Ideal ⟨2, ![A, K]⟩ φ₁) (w : FVec Ideal ⟨2, ![K, B]⟩ φ₂) :
    FloatOps.dotGeneral d prec sched x w = MM x w := by
  funext j
  rw [Ideal.dotGeneral_apply]
  exact plain_sum d hlb hln hlc hrb hrn hrc x w j

end Plain

end Cert.LibMatmul

end
-- ==== Proof.Stages.lean ====
/-
  The graph-convolution classifier as pure functions of the argument arrays, at the ideal values (every float an
  extended real, every operation exact).

  A node's degree factor is d = rsqrt(deg) where the in-degree counts self-loops. One convolution layer of the
  tiled program computes, for node j and channel q,
      ((sum over the edges e that land on j of (h W)[src e, q] * d[src e]) * d[j] + b[q])   (then max with 0),
  the first factor applied to the rows of h W before the edges are walked and the second after. The graph
  readout divides each graph's summed node rows by max(count, 1), and three dense layers follow.
  `LS`, `BA`, `BAr`, `Pool`, `Dense`, `Relu` are those steps index by index; `srcK` ... `cK` are the program's host
  steps around them, as terms of the arguments.
-/
import proofs.«141883_j50397146251362_2_alg».proof.Proof.Gen.KernelIdeal
import proofs.«141883_j50397146251362_2_alg».proof.Proof.LibMatmul
import Idealize.ShloMosaic.PureOps.Ideal
import Idealize.ShloMosaic.Lib.ValueIdx

noncomputable section

namespace Cert.Gcn

open Idealize.ShloMosaic Idealize.ShloMosaic.ValueIdx Cert.KernelIdeal Cert.KernelIdeal.Facts₀

/-- The float words of 0.0 and 1.0 at the ideal values. -/
abbrev z0 : EReal := Ideal.ofBits .f32 0x00000000#32
abbrev one : EReal := Ideal.ofBits .f32 0x3F800000#32

/-! ## The steps index by index, for any extents -/

/-- Rows of `x w`, row `p` scaled by the column entry `d (p, 0)`. -/
def LS {A K B : Nat} (x : (⟨2, ![A, K]⟩ : Shape).Idx → EReal) (w : (⟨2, ![K, B]⟩ : Shape).Idx → EReal)
    (d : (⟨2, ![A, 1]⟩ : Shape).Idx → EReal) : (⟨2, ![A, B]⟩ : Shape).Idx → EReal :=
  fun i => Cert.LibMatmul.MM x w i * d (ix2 (i 0) (⟨0, Nat.one_pos⟩ : Fin 1))

/-- Row `p` of `agg` scaled by `d (p, 0)`, plus the bias row. -/
def BA {A B : Nat} (agg : (⟨2, ![A, B]⟩ : Shape).Idx → EReal) (d : (⟨2, ![A, 1]⟩ : Shape).Idx → EReal)
    (b : (⟨2, ![1, B]⟩ : Shape).Idx → EReal) : (⟨2, ![A, B]⟩ : Shape).Idx → EReal :=
  fun i => agg i * d (ix2 (i 0) (⟨0, Nat.one_pos⟩ : Fin 1)) + b (ix2 (⟨0, Nat.one_pos⟩ : Fin 1) (i 1))

/-- The same, then the maximum with 0.0. -/
def BAr {A B : Nat} (agg : (⟨2, ![A, B]⟩ : Shape).Idx → EReal) (d : (⟨2, ![A, 1]⟩ : Shape).Idx → EReal)
    (b : (⟨2, ![1, B]⟩ : Shape).Idx → EReal) : (⟨2, ![A, B]⟩ : Shape).Idx → EReal :=
  fun i => max (BA agg d b i) z0

/-- Each row of the sums divided by max(count, 1.0) of that row. -/
def Pool {G C : Nat} (sums : (⟨2, ![G, C]⟩ : Shape).Idx → EReal) (cnt : (⟨2, ![G, 1]⟩ : Shape).Idx → EReal) :
    (⟨2, ![G, C]⟩ : Shape).Idx → EReal :=
  fun i => Ideal.div (sums i) (max (cnt (ix2 (i 0) (⟨0, Nat.one_pos⟩ : Fin 1))) one)

/-- A dense layer: `x w` plus the bias row. -/
def Dense {A K B : Nat} (x : (⟨2, ![A, K]⟩ : Shape).Idx → EReal) (w : (⟨2, ![K, B]⟩ : Shape).Idx → EReal)
    (b : (⟨2, ![1, B]⟩ : Shape).Idx → EReal) : (⟨2, ![A, B]⟩ : Shape).Idx → EReal :=
  fun i => Cert.LibMatmul.MM x w i + b (ix2 (⟨0, Nat.one_pos⟩ : Fin 1) (i 1))

/-- The maximum with 0.0, entry by entry. -/
def Relu {A B : Nat} (x : (⟨2, ![A, B]⟩ : Shape).Idx → EReal) : (⟨2, ![A, B]⟩ : Shape).Idx → EReal :=
  fun i => max (x i) z0

/-- The two results of the readout head: the hidden features and the class scores. -/
def HeadFeat {G C H1 H2 : Nat} (sums : (⟨2, ![G, C]⟩ : Shape).Idx → EReal) (cnt : (⟨2, ![G, 1]⟩ : Shape).Idx → EReal)
    (w1 : (⟨2, ![C, H1]⟩ : Shape).Idx → EReal) (b1 : (⟨2, ![1, H1]⟩ : Shape).Idx → EReal)
    (w2 : (⟨2, ![H1, H2]⟩ : Shape).Idx → EReal) (b2 : (⟨2, ![1, H2]⟩ : Shape).Idx → EReal) :
    (⟨2, ![G, H2]⟩ : Shape).Idx → EReal :=
  Relu (Dense (Relu (Dense (Pool sums cnt) w1 b1)) w2 b2)

/-! ## The host steps of the tiled program, as terms of the edge list `a1` and the graph ids `a2` -/

/-- Edge sources and targets with one self-loop per node appended. -/
def srcK (a1 : IVec S2x800000 32) : IVec S850000 32 :=
  concatenate S850000 0 [⟨S800000, shapeCast S800000 (extractStridedSlice S1x800000 ![0, 0] a1 slices_S2x800000_S1x800000_0_0) shapeCasts_S1x800000_S800000⟩, ⟨S50000, iotaInDim S50000 32 0⟩] concatenates_S800000_S50000_S850000_d0
def dstK (a1 : IVec S2x800000 32) : IVec S850000 32 :=
  concatenate S850000 0 [⟨S800000, shapeCast S800000 (extractStridedSlice S1x800000 ![1, 0] a1 slices_S2x800000_S1x800000_1_0) shapeCasts_S1x800000_S800000⟩, ⟨S50000, iotaInDim S50000 32 0⟩] concatenates_S800000_S50000_S850000_d0

/-- The targets as a column of scatter indices. -/
def dstIdxK (a1 : IVec S2x800000 32) : IVec S850000x1 32 :=
  broadcastInDim S850000x1 ![0] bcast_S850000_S850000x1_0 (dstK a1)

/-- The sources, a negative one wrapped by the node count, as a column of gather indices. -/
def srcIdxK (a1 : IVec S2x800000 32) : IVec S850000x1 32 :=
  broadcastInDim S850000x1 ![0] bcast_S850000_S850000x1_0
    (select (cmpi .slt (srcK a1) (broadcastInDim S850000 ![] bcast_S_S850000 (constantI S_ 32 0#32)))
      (addi (srcK a1) (broadcastInDim S850000 ![] bcast_S_S850000 (constantI S_ 32 50000#32))) (srcK a1))

/-- In-degrees (self-loops counted): ones scattered onto the targets. -/
def degK (a1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32)) (dstIdxK a1)
    (broadcastInDim S850000 ![] bcast_S_S850000 (constant (F := Ideal) S_ .f32 0x3F800000#32))

/-- The degree factor: rsqrt of a positive degree, 0.0 otherwise. -/
def disK (a1 : IVec S2x800000 32) : FVec Ideal S50000 .f32 :=
  select (cmpf (F := Ideal) .ogt (degK a1) (broadcastInDim S50000 ![] bcast_S_S50000 (constant (F := Ideal) S_ .f32 0x00000000#32)))
    (Host.rsqrt (F := Ideal) (degK a1))
    (broadcastInDim S50000 ![] bcast_S_S50000 (id (constant (F := Ideal) S_ .f32 0x00000000#32)))

/-- The degree factor kept as a column. -/
def d2dK (a1 : IVec S2x800000 32) : FVec Ideal S50000x1 .f32 :=
  shapeCast S50000x1 (disK a1) shapeCasts_S50000_S50000x1

/-- Rows gathered at the edge sources and summed onto the edge targets, 128 and 256 channels. -/
def aggK128 (hs : FVec Ideal S50000x128 .bf16) (a1 : IVec S2x800000 32) : FVec Ideal S50000x128 .f32 :=
  Host.scatterAdd (F := Ideal) scatter_S50000x128_S850000x1_S850000x128_1_0_0_1
    (broadcastInDim S50000x128 ![] bcast_S_S50000x128 (constant (F := Ideal) S_ .f32 0x00000000#32)) (dstIdxK a1)
    (extf .f32 (Host.gather gather_S50000x128_S850000x1_S850000x128_1_0_n_n_0_1_1128 hs (srcIdxK a1)) bitsLt_bf16_f32)
def aggK256 (hs : FVec Ideal S50000x256 .bf16) (a1 : IVec S2x800000 32) : FVec Ideal S50000x256 .f32 :=
  Host.scatterAdd (F := Ideal) scatter_S50000x256_S850000x1_S850000x256_1_0_0_1
    (broadcastInDim S50000x256 ![] bcast_S_S50000x256 (constant (F := Ideal) S_ .f32 0x00000000#32)) (dstIdxK a1)
    (extf .f32 (Host.gather gather_S50000x256_S850000x1_S850000x256_1_0_n_n_0_1_1256 hs (srcIdxK a1)) bitsLt_bf16_f32)

/-- Node rows summed per graph, and the node count per graph kept as a column. -/
def sumsK (h : FVec Ideal S50000x256 .f32) (a2 : IVec S50000 32) : FVec Ideal S256x256 .f32 :=
  Host.scatterAdd (F := Ideal) scatter_S256x256_S50000x1_S50000x256_1_0_0_1
    (broadcastInDim S256x256 ![] bcast_S_S256x256 (constant (F := Ideal) S_ .f32 0x00000000#32))
    (broadcastInDim S50000x1 ![0] bcast_S50000_S50000x1_0 a2) h
def cntK (a2 : IVec S50000 32) : FVec Ideal S256 .f32 :=
  Host.scatterAdd (F := Ideal) scatter_S256_S50000x1_S50000_n_0_0_1
    (broadcastInDim S256 ![] bcast_S_S256 (constant (F := Ideal) S_ .f32 0x00000000#32))
    (broadcastInDim S50000x1 ![0] bcast_S50000_S50000x1_0 a2)
    (broadcastInDim S50000 ![] bcast_S_S50000 (constant (F := Ideal) S_ .f32 0x3F800000#32))
def cnt2dK (a2 : IVec S50000 32) : FVec Ideal S256x1 .f32 :=
  shapeCast S256x1 (cntK a2) shapeCasts_S256_S256x1

/-- A bias vector recast as one row. -/
def row128 (b : FVec Ideal S128 .f32) : FVec Ideal S1x128 .f32 := shapeCast S1x128 b shapeCasts_S128_S1x128
def row256 (b : FVec Ideal S256 .f32) : FVec Ideal S1x256 .f32 := shapeCast S1x256 b shapeCasts_S256_S1x256
def row64 (b : FVec Ideal S64 .f32) : FVec Ideal S1x64 .f32 := shapeCast S1x64 b shapeCasts_S64_S1x64
def row10 (b : FVec Ideal S10 .f32) : FVec Ideal S1x10 .f32 := shapeCast S1x10 b shapeCasts_S10_S1x10

/-! ## The tiled program's value, layer by layer -/

/-- One convolution layer of the tiled program, 128 -> 128 channels with the maximum with 0.0. -/
def layerK128 (h : FVec Ideal S50000x128 .f32) (w : FVec Ideal S128x128 .f32) (b : FVec Ideal S128 .f32)
    (a1 : IVec S2x800000 32) : FVec Ideal S50000x128 .f32 :=
  BAr (A := 50000) (B := 128) (aggK128 (LS (A := 50000) (K := 128) (B := 128) h w (d2dK a1)) a1) (d2dK a1) (row128 b)

/-- The last convolution layer, 128 -> 256 channels, no maximum. -/
def layerK256 (h : FVec Ideal S50000x128 .f32) (w : FVec Ideal S128x256 .f32) (b : FVec Ideal S256 .f32)
    (a1 : IVec S2x800000 32) : FVec Ideal S50000x256 .f32 :=
  BA (A := 50000) (B := 256) (aggK256 (LS (A := 50000) (K := 128) (B := 256) h w (d2dK a1)) a1) (d2dK a1) (row256 b)

/-- The hidden features of the readout head from the last layer's node rows. -/
def featOfK (h3 : FVec Ideal S50000x256 .f32) (a2 : IVec S50000 32) (w1 : FVec Ideal S256x128 .f32) (b1 : FVec Ideal S128 .f32)
    (w2 : FVec Ideal S128x64 .f32) (b2 : FVec Ideal S64 .f32) : FVec Ideal S256x64 .f32 :=
  HeadFeat (G := 256) (C := 256) (H1 := 128) (H2 := 64) (sumsK h3 a2) (cnt2dK a2) w1 (row128 b1) w2 (row64 b2)

/-- The class scores from the hidden features. -/
def scoresOfK (feat : FVec Ideal S256x64 .f32) (w3 : FVec Ideal S64x10 .f32) (b3 : FVec Ideal S10 .f32) : FVec Ideal S256x10 .f32 :=
  Dense (A := 256) (K := 64) (B := 10) feat w3 (row10 b3)

end Cert.Gcn

end
-- ==== Proof.KHost.lean ====
/-
  The tiled program's buffers between its regions, read as values: what each stretch of host operations leaves in
  the buffers the next region reads, and which buffers keep their contents across a stretch or a region.
-/
import proofs.«141883_j50397146251362_2_alg».proof.Proof.Gen.KernelIdeal.Frame
import proofs.«141883_j50397146251362_2_alg».proof.Proof.Stages

set_option maxRecDepth 16384

noncomputable section

namespace Cert.Gcn.KHost

open Cert.KernelIdeal Cert.KernelIdeal.Gen Idealize.ShloMosaic Idealize.ShloMosaic.TcCoe Idealize.SL.Sem
open Idealize.ShloMosaic.StableHlo

variable (m : (ℓ : Loc nD τ sig) → Buf (Elt Ideal) ℓ) (ρ : Dev nD → PrngReg)

/-- A buffer that no operation of a stretch writes keeps its contents across the stretch. -/
macro "keep_host" ops:ident : term =>
  `(StableHlo.after_of_forall_not_mem _ _ (List.forall_iff_forall_mem.mp (by
      simp only [$ops:ident, List.flatten_cons, List.flatten_nil, List.append_nil, List.cons_append,
        List.nil_append, List.Forall, StableHlo.nullary_writes, StableHlo.unary_writes, StableHlo.binary_writes, StableHlo.ternary_writes, StableHlo.quaternary_writes, StableHlo.reshape_writes, StableHlo.binaryIndexed_writes, Finset.mem_singleton]
      repeat' apply And.intro
      all_goals exact StableHlo.devRef_ne_of_ne (by decide))))

/-! ## Region 0's entry: the arguments as launched, the edge lists and the degree factor -/

theorem W3_arg0 (c : Dev nD) : W3 m ρ c (Proc.devRef .tc main_arg0) = m ((c : Thread nD τ).loc main_arg0) :=
  (keep_host hostOps0_2).trans ((keep_host hostOps0_1).trans ((keep_host hostOps0).trans rfl))

theorem W1_v3 (c : Dev nD) : W1 m ρ c (Proc.devRef .tc main_v3) = srcK (m ((c : Thread nD τ).loc main_arg1)) := by
  show StableHlo.after hostOps0 (W0 m ρ c) (Proc.devRef .tc main_v3) = _
  after_results
  rfl

theorem W1_v6 (c : Dev nD) : W1 m ρ c (Proc.devRef .tc main_v6) = dstK (m ((c : Thread nD τ).loc main_arg1)) := by
  show StableHlo.after hostOps0 (W0 m ρ c) (Proc.devRef .tc main_v6) = _
  after_results
  rfl

/-- The three stretches before region 0, one result buffer each, from any contents `W`. -/
theorem after0_2_v15 (W : Valuation τ sig (Elt Ideal)) :
    StableHlo.after hostOps0_2 W (Proc.devRef .tc main_v15) = shapeCast S50000x1 (W (Proc.devRef .tc main_v14)) shapeCasts_S50000_S50000x1 := by
  after_results
  rfl

theorem after0_1_v14 (W : Valuation τ sig (Elt Ideal)) :
    StableHlo.after hostOps0_1 W (Proc.devRef .tc main_v14)
      = select (W (Proc.devRef .tc main_v12)) (W (Proc.devRef .tc main_v13)) (broadcastInDim S50000 ![] bcast_S_S50000 (id (W (Proc.devRef .tc main_cst_2)))) := by
  after_results
  rfl

theorem W1_v12 (c : Dev nD) : W1 m ρ c (Proc.devRef .tc main_v12)
    = cmpf (F := Ideal) .ogt (degK (m ((c : Thread nD τ).loc main_arg1))) (broadcastInDim S50000 ![] bcast_S_S50000 (constant (F := Ideal) S_ .f32 0x00000000#32)) := by
  show StableHlo.after hostOps0 (W0 m ρ c) (Proc.devRef .tc main_v12) = _
  after_results
  rfl

theorem W1_v13 (c : Dev nD) : W1 m ρ c (Proc.devRef .tc main_v13) = Host.rsqrt (F := Ideal) (degK (m ((c : Thread nD τ).loc main_arg1))) := by
  show StableHlo.after hostOps0 (W0 m ρ c) (Proc.devRef .tc main_v13) = _
  after_results
  rfl

theorem W1_cst2 (c : Dev nD) : W1 m ρ c (Proc.devRef .tc main_cst_2) = constant (F := Ideal) S_ .f32 0x00000000#32 := by
  show StableHlo.after hostOps0 (W0 m ρ c) (Proc.devRef .tc main_cst_2) = _
  after_results

theorem W3_v15 (c : Dev nD) : W3 m ρ c (Proc.devRef .tc main_v15) = d2dK (m ((c : Thread nD τ).loc main_arg1)) := by
  show StableHlo.after hostOps0_2 (W2 m ρ c) (Proc.devRef .tc main_v15) = _
  rw [after0_2_v15]
  show shapeCast S50000x1 (StableHlo.after hostOps0_1 (W1 m ρ c) (Proc.devRef .tc main_v14)) shapeCasts_S50000_S50000x1 = _
  rw [after0_1_v14, W1_v12, W1_v13, W1_cst2]
  rfl

/-! ## Buffers nothing rewrites after region 0's entry: the arguments, the edge lists, the degree column -/

def keepList : List (Ref sig .tc) :=
  [main_arg0, main_arg1, main_arg2, main_arg3, main_arg4, main_arg5, main_arg6, main_arg7, main_arg8, main_arg9, main_arg10,
   main_arg11, main_arg12, main_arg13, main_arg14, main_v3, main_v6, main_v15]

theorem keep4 (c : Dev nD) (b : Ref sig .tc) (hb : b ∈ keepList) :
    W4 m ρ c (Proc.devRef .tc b) = W3 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W4_of_ne m ρ c _ (by decide)
    | exact (W4_arr m ρ c 0).trans (((dat0 (V3 m ρ) c).arrAt_in 0 rfl _).trans (A_eq0 (V3 m ρ) c 0))
    | exact (W4_arr m ρ c 1).trans (((dat0 (V3 m ρ) c).arrAt_in 1 rfl _).trans (A_eq0 (V3 m ρ) c 1))
    | exact (W4_arr m ρ c 2).trans (((dat0 (V3 m ρ) c).arrAt_in 2 rfl _).trans (A_eq0 (V3 m ρ) c 2))

theorem keep5 (c : Dev nD) (b : Ref sig .tc) (hb : b ∈ keepList) :
    W5 m ρ c (Proc.devRef .tc b) = W4 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals exact keep_host hostOps1

theorem keep6 (c : Dev nD) (b : Ref sig .tc) (hb : b ∈ keepList) :
    W6 m ρ c (Proc.devRef .tc b) = W5 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W6_of_ne m ρ c _ (by decide)
    | exact (W6_arr m ρ c 0).trans (((dat1 (V5 m ρ) c).arrAt_in 0 rfl _).trans (A_eq1 (V5 m ρ) c 0))
    | exact (W6_arr m ρ c 1).trans (((dat1 (V5 m ρ) c).arrAt_in 1 rfl _).trans (A_eq1 (V5 m ρ) c 1))
    | exact (W6_arr m ρ c 2).trans (((dat1 (V5 m ρ) c).arrAt_in 2 rfl _).trans (A_eq1 (V5 m ρ) c 2))

theorem keep7 (c : Dev nD) (b : Ref sig .tc) (hb : b ∈ keepList) :
    W7 m ρ c (Proc.devRef .tc b) = W6 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W7_of_ne m ρ c _ (by decide)
    | exact (W7_arr m ρ c 0).trans (((dat2 (V6 m ρ) c).arrAt_in 0 rfl _).trans (A_eq2 (V6 m ρ) c 0))
    | exact (W7_arr m ρ c 1).trans (((dat2 (V6 m ρ) c).arrAt_in 1 rfl _).trans (A_eq2 (V6 m ρ) c 1))
    | exact (W7_arr m ρ c 2).trans (((dat2 (V6 m ρ) c).arrAt_in 2 rfl _).trans (A_eq2 (V6 m ρ) c 2))

theorem keep8 (c : Dev nD) (b : Ref sig .tc) (hb : b ∈ keepList) :
    W8 m ρ c (Proc.devRef .tc b) = W7 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals exact keep_host hostOps3

theorem keep9 (c : Dev nD) (b : Ref sig .tc) (hb : b ∈ keepList) :
    W9 m ρ c (Proc.devRef .tc b) = W8 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W9_of_ne m ρ c _ (by decide)
    | exact (W9_arr m ρ c 0).trans (((dat3 (V8 m ρ) c).arrAt_in 0 rfl _).trans (A_eq3 (V8 m ρ) c 0))
    | exact (W9_arr m ρ c 1).trans (((dat3 (V8 m ρ) c).arrAt_in 1 rfl _).trans (A_eq3 (V8 m ρ) c 1))
    | exact (W9_arr m ρ c 2).trans (((dat3 (V8 m ρ) c).arrAt_in 2 rfl _).trans (A_eq3 (V8 m ρ) c 2))

theorem keep10 (c : Dev nD) (b : Ref sig .tc) (hb : b ∈ keepList) :
    W10 m ρ c (Proc.devRef .tc b) = W9 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W10_of_ne m ρ c _ (by decide)
    | exact (W10_arr m ρ c 0).trans (((dat4 (V9 m ρ) c).arrAt_in 0 rfl _).trans (A_eq4 (V9 m ρ) c 0))
    | exact (W10_arr m ρ c 1).trans (((dat4 (V9 m ρ) c).arrAt_in 1 rfl _).trans (A_eq4 (V9 m ρ) c 1))
    | exact (W10_arr m ρ c 2).trans (((dat4 (V9 m ρ) c).arrAt_in 2 rfl _).trans (A_eq4 (V9 m ρ) c 2))

theorem keep11 (c : Dev nD) (b : Ref sig .tc) (hb : b ∈ keepList) :
    W11 m ρ c (Proc.devRef .tc b) = W10 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals exact keep_host hostOps5

theorem keep12 (c : Dev nD) (b : Ref sig .tc) (hb : b ∈ keepList) :
    W12 m ρ c (Proc.devRef .tc b) = W11 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals first
    | exact W12_of_ne m ρ c _ (by decide)
    | exact (W12_arr m ρ c 0).trans (((dat5 (V11 m ρ) c).arrAt_in 0 rfl _).trans (A_eq5 (V11 m ρ) c 0))
    | exact (W12_arr m ρ c 1).trans (((dat5 (V11 m ρ) c).arrAt_in 1 rfl _).trans (A_eq5 (V11 m ρ) c 1))
    | exact (W12_arr m ρ c 2).trans (((dat5 (V11 m ρ) c).arrAt_in 2 rfl _).trans (A_eq5 (V11 m ρ) c 2))

theorem keep13 (c : Dev nD) (b : Ref sig .tc) (hb : b ∈ keepList) :
    W13 m ρ c (Proc.devRef .tc b) = W12 m ρ c (Proc.devRef .tc b) := by
  simp only [keepList, List.mem_cons, List.not_mem_nil, or_false] at hb
  rcases hb with rfl | rfl | rfl | rfl | rfl | rfl | rfl | rfl | rfl | rfl | rfl | rfl | rfl | rfl | rfl | rfl | rfl | rfl
  all_goals exact keep_host hostOps6

/-! ## What each later stretch leaves in the buffers the next region reads, from any contents `W` -/

set_option maxHeartbeats 4000000 in
theorem hostOps1_v27 (W : Valuation τ sig (Elt Ideal)) (a1 : IVec S2x800000 32)
    (h3 : W (Proc.devRef .tc main_v3) = srcK a1) (h6 : W (Proc.devRef .tc main_v6) = dstK a1) :
    StableHlo.after hostOps1 W (Proc.devRef .tc main_v27) = aggK128 (W (Proc.devRef .tc main_v16)) a1 := by
  after_results_simp
  rw [h3, h6]
  rfl

theorem hostOps1_v28 (W : Valuation τ sig (Elt Ideal)) :
    StableHlo.after hostOps1 W (Proc.devRef .tc main_v28) = row128 (W (Proc.devRef .tc main_arg4)) := by
  after_results
  rfl

set_option maxHeartbeats 4000000 in
theorem hostOps3_v41 (W : Valuation τ sig (Elt Ideal)) (a1 : IVec S2x800000 32)
    (h3 : W (Proc.devRef .tc main_v3) = srcK a1) (h6 : W (Proc.devRef .tc main_v6) = dstK a1) :
    StableHlo.after hostOps3 W (Proc.devRef .tc main_v41) = aggK128 (W (Proc.devRef .tc main_v30)) a1 := by
  after_results_simp
  rw [h3, h6]
  rfl

theorem hostOps3_v42 (W : Valuation τ sig (Elt Ideal)) :
    StableHlo.after hostOps3 W (Proc.devRef .tc main_v42) = row128 (W (Proc.devRef .tc main_arg6)) := by
  after_results
  rfl

set_option maxHeartbeats 4000000 in
theorem hostOps5_v55 (W : Valuation τ sig (Elt Ideal)) (a1 : IVec S2x800000 32)
    (h3 : W (Proc.devRef .tc main_v3) = srcK a1) (h6 : W (Proc.devRef .tc main_v6) = dstK a1) :
    StableHlo.after hostOps5 W (Proc.devRef .tc main_v55) = aggK256 (W (Proc.devRef .tc main_v44)) a1 := by
  after_results_simp
  rw [h3, h6]
  rfl

theorem hostOps5_v56 (W : Valuation τ sig (Elt Ideal)) :
    StableHlo.after hostOps5 W (Proc.devRef .tc main_v56) = row256 (W (Proc.devRef .tc main_arg8)) := by
  after_results
  rfl

theorem hostOps6_v60 (W : Valuation τ sig (Elt Ideal)) :
    StableHlo.after hostOps6 W (Proc.devRef .tc main_v60) = sumsK (W (Proc.devRef .tc main_v57)) (W (Proc.devRef .tc main_arg2)) := by
  after_results
  rfl
theorem hostOps6_v65 (W : Valuation τ sig (Elt Ideal)) :
    StableHlo.after hostOps6 W (Proc.devRef .tc main_v65) = cnt2dK (W (Proc.devRef .tc main_arg2)) := by
  after_results
  rfl

theorem hostOps6_v66 (W : Valuation τ sig (Elt Ideal)) :
    StableHlo.after hostOps6 W (Proc.devRef .tc main_v66) = row128 (W (Proc.devRef .tc main_arg10)) := by
  after_results
  rfl

theorem hostOps6_v67 (W : Valuation τ sig (Elt Ideal)) :
    StableHlo.after hostOps6 W (Proc.devRef .tc main_v67) = row64 (W (Proc.devRef .tc main_arg12)) := by
  after_results
  rfl

theorem hostOps6_v68 (W : Valuation τ sig (Elt Ideal)) :
    StableHlo.after hostOps6 W (Proc.devRef .tc main_v68) = row10 (W (Proc.devRef .tc main_arg14)) := by
  after_results
  rfl

/-! ## The arguments and the edge lists at region 0's entry -/

def argList : List (Ref sig .tc) :=
  [main_arg0, main_arg1, main_arg2, main_arg3, main_arg4, main_arg5, main_arg6, main_arg7, main_arg8, main_arg9, main_arg10,
   main_arg11, main_arg12, main_arg13, main_arg14]

theorem W3_arg (c : Dev nD) (b : Ref sig .tc) (hb : b ∈ argList) :
    W3 m ρ c (Proc.devRef .tc b) = m ((c : Thread nD τ).loc b) := by
  simp only [argList, List.mem_cons, List.not_mem_nil, or_false] at hb
  rcases hb with rfl | rfl | rfl | rfl | rfl | rfl | rfl | rfl | rfl | rfl | rfl | rfl | rfl | rfl | rfl
  all_goals exact (keep_host hostOps0_2).trans ((keep_host hostOps0_1).trans ((keep_host hostOps0).trans rfl))

theorem W3_v3 (c : Dev nD) : W3 m ρ c (Proc.devRef .tc main_v3) = srcK (m ((c : Thread nD τ).loc main_arg1)) :=
  (keep_host hostOps0_2).trans ((keep_host hostOps0_1).trans (W1_v3 m ρ c))

theorem W3_v6 (c : Dev nD) : W3 m ρ c (Proc.devRef .tc main_v6) = dstK (m ((c : Thread nD τ).loc main_arg1)) :=
  (keep_host hostOps0_2).trans ((keep_host hostOps0_1).trans (W1_v6 m ρ c))

end Cert.Gcn.KHost

end
-- ==== Proof.RegLS0.lean ====
/-
  Region 0 of the tiled program (rows of h W scaled by the degree factor): the array its write-backs leave, as one function
  of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value

set_option maxRecDepth 16384

noncomputable section

namespace Cert.Gcn.RegLS0

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's stored value at an index of its block -/

/-- At (p, q): row p of the block of h times the weights, at q, times the block's degree factor of row p
    (rounding to the narrow float is the identity at the ideal values). -/
theorem pay_apply (x0 : Vec Ideal S2000x128 .f32) (x1 : Vec Ideal S128x128 .f32) (x2 : Vec Ideal S2000x1 .f32) (p : Fin 2000) (q : Fin 128) :
    k0_pay1 (F := Ideal) x0 x1 x2 (ix2 p q)
      = Cert.LibMatmul.MM (A := 2000) (K := 128) (B := 128) x0 x1 (ix2 p q) * x2 (ix2 p (⟨0, Nat.one_pos⟩ : Fin 1)) := by
  unfold k0_pay1
  rw [truncf_apply, mulf_apply]
  simp only [shapeCast_self]
  have hm : matmul dot_S2000x128_S128x128_S2000x128_1_0_0_1_n_n none (truncf (F := Ideal) .bf16 x0 bitsLt_bf16_f32)
      (truncf (F := Ideal) .bf16 x1 bitsLt_bf16_f32) (constant (F := Ideal) S2000x128 .f32 0x00000000#32)
        = Cert.LibMatmul.MM (A := 2000) (K := 128) (B := 128) x0 x1 :=
    Cert.LibMatmul.matmul_zero_eq dot_S2000x128_S128x128_S2000x128_1_0_0_1_n_n rfl rfl rfl rfl rfl rfl none _ _
  rw [hm]
  refine congrArg (fun z => Cert.LibMatmul.MM (A := 2000) (K := 128) (B := 128) x0 x1 (ix2 p q) * z) ?_
  refine broadcastTo_apply x2 broadcasts_S2000x1_S2000x128 (ix2 p q) (ix2 p (⟨0, Nat.one_pos⟩ : Fin 1)) fun a => ?_
  match a with
  | ⟨0, _⟩ => rfl
  | ⟨1, _⟩ => rfl

/-- When row p of the block of h is row r of h, the block of the weights is the weights, and row p of the block of d
    is row r of d, the stored value at (p, q) is `LS` of the whole arrays at (r, q): a row of a product depends only
    on that row of the left factor. -/
theorem pay_eq_LS (x0 : Vec Ideal S2000x128 .f32) (x1 : Vec Ideal S128x128 .f32) (x2 : Vec Ideal S2000x1 .f32)
    (h : S50000x128.Idx → EReal) (w : S128x128.Idx → EReal) (d : S50000x1.Idx → EReal)
    (p : Fin 2000) (q : Fin 128) (r : Fin 50000)
    (h0 : ∀ k : Fin 128, x0 (ix2 p k) = h (ix2 r k)) (h1 : ∀ k : Fin 128, x1 (ix2 k q) = w (ix2 k q))
    (h2 : x2 (ix2 p (⟨0, Nat.one_pos⟩ : Fin 1)) = d (ix2 r (⟨0, Nat.one_pos⟩ : Fin 1))) :
    k0_pay1 (F := Ideal) x0 x1 x2 (ix2 p q) = Cert.Gcn.LS (A := 50000) (K := 128) (B := 128) h w d (ix2 r q) := by
  rw [pay_apply]
  show (∑ k : Fin 128, x0 (ix2 p k) * x1 (ix2 k q)) * x2 (ix2 p (⟨0, Nat.one_pos⟩ : Fin 1))
      = (∑ k : Fin 128, h (ix2 r k) * w (ix2 k q)) * d (ix2 r (⟨0, Nat.one_pos⟩ : Fin 1))
  rw [h2]
  refine congrArg (fun z => z * d (ix2 r (⟨0, Nat.one_pos⟩ : Fin 1))) ?_
  refine Finset.sum_congr rfl fun k _ => ?_
  rw [h0 k, h1 k]

/-! ## From the blocks to the array -/

section Blocks
variable (V : (c : Dev nD) → (b : Ref sig .tc) → Buf (Elt Ideal) ((c : Thread nD τ).loc b))

/-- The index maps, decided over the grid: point t's block of h, of d and of the output is block row t, the weights'
    block is the whole array. -/
theorem idx_facts : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = t.val ∧ win0_3.index t (1 : Fin 2) = 0 :=
  (by decide +kernel : ∀ t : Fin grid0.N, _)

/-- Point t's block of h is rows 2000 t … 2000 t + 1999 of the array. -/
theorem blk0_apply (c : Dev nD) (t : Fin cfg0.N) (x : S2000x128.Idx) (k : S50000x128.Idx)
    (hk0 : (k 0).val = 2000 * t.val + (x 0).val) (hk1 : (k 1).val = (x 1).val) :
    (iblk0 (F := Ideal) V c 0 t : Vec Ideal S2000x128 .f32) x = (V c main_arg0 : S50000x128.Idx → EReal) k := by
  obtain ⟨e0, e1, -⟩ := idx_facts t
  unfold iblk0
  rw [View.read_apply]
  show V c main_arg0 _ = V c main_arg0 _
  refine congrArg _ ?_
  funext a; apply Fin.ext
  match a with
  | ⟨0, _⟩ => show win0_0.index t (0 : Fin 2) * 2000 + 1 * (x 0).val = (k 0).val; rw [e0, hk0]; omega
  | ⟨1, _⟩ => show win0_0.index t (1 : Fin 2) * 128 + 1 * (x 1).val = (k 1).val; rw [e1, hk1]; omega

/-- The weights' block is the whole array at every point. -/
theorem blk1_apply (c : Dev nD) (t : Fin cfg0.N) (x : S128x128.Idx) :
    (iblk0 (F := Ideal) V c 1 t : Vec Ideal S128x128 .f32) x = (V c main_arg3 : S128x128.Idx → EReal) x := by
  obtain ⟨-, -, e0, e1, -⟩ := idx_facts t
  unfold iblk0
  rw [View.read_apply]
  show V c main_arg3 _ = V c main_arg3 _
  refine congrArg _ ?_
  funext a; apply Fin.ext
  match a with
  | ⟨0, _⟩ => show win0_1.index t (0 : Fin 2) * 128 + 1 * (x 0).val = (x 0).val; rw [e0]; omega
  | ⟨1, _⟩ => show win0_1.index t (1 : Fin 2) * 128 + 1 * (x 1).val = (x 1).val; rw [e1]; omega

/-- Point t's block of the degree factor is rows 2000 t … 2000 t + 1999 of the column. -/
theorem blk2_apply (c : Dev nD) (t : Fin cfg0.N) (x : S2000x1.Idx) (k : S50000x1.Idx)
    (hk0 : (k 0).val = 2000 * t.val + (x 0).val) (hk1 : (k 1).val = (x 1).val) :
    (iblk0 (F := Ideal) V c 2 t : Vec Ideal S2000x1 .f32) x = (V c main_v15 : S50000x1.Idx → EReal) k := by
  obtain ⟨-, -, -, -, e0, e1, -⟩ := idx_facts t
  unfold iblk0
  rw [View.read_apply]
  show V c main_v15 _ = V c main_v15 _
  refine congrArg _ ?_
  funext a; apply Fin.ext
  match a with
  | ⟨0, _⟩ => show win0_2.index t (0 : Fin 2) * 2000 + 1 * (x 0).val = (k 0).val; rw [e0, hk0]; omega
  | ⟨1, _⟩ => show win0_2.index t (1 : Fin 2) * 1 + 1 * (x 1).val = (k 1).val; rw [e1, hk1]; omega

/-- What point t's body stores at (y0, q) of its block is `LS` of the whole arrays at (2000 t + y0, q). -/
theorem point_eq (c : Dev nD) (t : Fin cfg0.N) (j : S2000x128.Idx) (i : S50000x128.Idx)
    (hi0 : (i 0).val = 2000 * t.val + (j 0).val) (hi1 : (i 1).val = (j 1).val) :
    k0_pay1 (F := Ideal) (iblk0 V c 0 t) (iblk0 V c 1 t) (iblk0 V c 2 t) j
      = Cert.Gcn.LS (A := 50000) (K := 128) (B := 128) (V c main_arg0) (V c main_arg3) (V c main_v15) i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have h0 : r.val = 2000 * t.val + p.val := hi0
  obtain rfl : s = q := Fin.ext hi1
  exact pay_eq_LS (iblk0 V c 0 t) (iblk0 V c 1 t) (iblk0 V c 2 t) (V c main_arg0) (V c main_arg3) (V c main_v15) p s r
    (fun k => blk0_apply V c t (ix2 p k) (ix2 r k) h0 rfl) (fun k => blk1_apply V c t (ix2 k s))
    (blk2_apply V c t (ix2 p (⟨0, Nat.one_pos⟩ : Fin 1)) (ix2 r (⟨0, Nat.one_pos⟩ : Fin 1)) h0 rfl)

/-- What point t writes back is block t of `LS` of the arrays as entered. -/
theorem flushed_eq (c : Dev nD) (t : Fin cfg0.N) :
    (dat0 (F := Ideal) V c).flushed 3 t
      = ((cfg0.win 3).blk t).view.read (Elt Ideal)
          (Cert.Gcn.LS (A := 50000) (K := 128) (B := 128) (V c main_arg0) (V c main_arg3) (V c main_v15)) := by
  show (cfg0.win 3).cut (grid0.coords t) ((dat0 (F := Ideal) V c).after 3 t) = _
  rw [after0_3]
  unfold out0_3
  rw [View.canon_unit_zero hz]
  simp only [View.ld_unit_zero (S := S2000x128) hz, View.ld_unit_zero (S := S128x128) hz, View.ld_unit_zero (S := S2000x1) hz]
  obtain ⟨-, -, -, -, -, -, e0, e1⟩ := idx_facts t
  funext j
  show k0_pay1 (F := Ideal) (iblk0 V c 0 t) (iblk0 V c 1 t) (iblk0 V c 2 t) j
      = Cert.Gcn.LS (A := 50000) (K := 128) (B := 128) (V c main_arg0) (V c main_arg3) (V c main_v15) (((cfg0.win 3).blk t).view.emb j)
  refine point_eq V c t j _ ?_ ?_
  · show win0_3.index t (0 : Fin 2) * 2000 + 1 * (j 0).val = 2000 * t.val + (j 0).val
    rw [e0]; omega
  · show win0_3.index t (1 : Fin 2) * 128 + 1 * (j 1).val = (j 1).val
    rw [e1]; omega

end Blocks

/-- An index of the array is in point t's block iff each coordinate is in the block's range on its axis. -/
theorem mem_blk (t : Fin cfg0.N) (i : S50000x128.Idx) :
    i ∈ ((cfg0.win 3).blk t).view.set ↔ ∀ a : Fin 2, win0_3.index t a * S2000x128.size a ≤ (i a).val ∧ (i a).val < win0_3.index t a * S2000x128.size a + S2000x128.size a := by
  show i ∈ ((View.whole main_v16).slice (win0_3.rect t)).set ↔ _
  rw [View.set_slice_whole, Rect.mem_set_unit]
  exact Iff.rfl

/-- The 25 blocks cover the array: row r is in the block of point r / 2000. -/
theorem cover (i : S50000x128.Idx) : ∃ t : Fin cfg0.N, (cfg0.win 3).flush t = true ∧ i ∈ ((cfg0.win 3).blk t).view.set := by
  have hi0 : (i 0).val < 50000 := idx2_lt0 i
  have hi1 : (i 1).val < 128 := idx2_lt1 i
  have hN : cfg0.N = 25 := N_0
  have ht : (i 0).val / 2000 < cfg0.N := by rw [hN]; omega
  obtain ⟨-, -, -, -, -, -, e0, e1⟩ := idx_facts ⟨(i 0).val / 2000, ht⟩
  have e0' : win0_3.index ⟨(i 0).val / 2000, ht⟩ (0 : Fin 2) = (i 0).val / 2000 := e0
  refine ⟨⟨(i 0).val / 2000, ht⟩, flush0_3 _, ?_⟩
  rw [mem_blk]
  intro a
  match a with
  | ⟨0, _⟩ =>
    show win0_3.index ⟨(i 0).val / 2000, ht⟩ (0 : Fin 2) * 2000 ≤ (i 0).val ∧ (i 0).val < win0_3.index ⟨(i 0).val / 2000, ht⟩ (0 : Fin 2) * 2000 + 2000
    rw [e0']; omega
  | ⟨1, _⟩ =>
    show win0_3.index ⟨(i 0).val / 2000, ht⟩ (1 : Fin 2) * 128 ≤ (i 1).val ∧ (i 1).val < win0_3.index ⟨(i 0).val / 2000, ht⟩ (1 : Fin 2) * 128 + 128
    rw [e1]; omega

/-- After the region's 25 grid points the output array is `LS` of the input arrays as entered. -/
theorem final (V : (c : Dev nD) → (b : Ref sig .tc) → Buf (Elt Ideal) ((c : Thread nD τ).loc b)) (c : Dev nD) :
    (dat0 (F := Ideal) V c).arrAt 3 cfg0.N
      = Cert.Gcn.LS (A := 50000) (K := 128) (B := 128) (V c main_arg0) (V c main_arg3) (V c main_v15) := by
  exact (dat0 (F := Ideal) V c).arrAt_eq_of_cover 3
    (Cert.Gcn.LS (A := 50000) (K := 128) (B := 128) (V c main_arg0) (V c main_arg3) (V c main_v15))
    (fun t _ => flushed_eq V c t) cover

end Cert.Gcn.RegLS0

end
-- ==== Proof.RegLS2.lean ====
/-
  Region 2 of the tiled program (rows of h W scaled by the degree factor): the array its write-backs leave, as one function
  of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value

set_option maxRecDepth 16384

noncomputable section

namespace Cert.Gcn.RegLS2

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's stored value at an index of its block -/

/-- At (p, q): row p of the block of h times the weights, at q, times the block's degree factor of row p
    (rounding to the narrow float is the identity at the ideal values). -/
theorem pay_apply (x0 : Vec Ideal S2000x128 .f32) (x1 : Vec Ideal S128x128 .f32) (x2 : Vec Ideal S2000x1 .f32) (p : Fin 2000) (q : Fin 128) :
    k2_pay1 (F := Ideal) x0 x1 x2 (ix2 p q)
      = Cert.LibMatmul.MM (A := 2000) (K := 128) (B := 128) x0 x1 (ix2 p q) * x2 (ix2 p (⟨0, Nat.one_pos⟩ : Fin 1)) := by
  unfold k2_pay1
  rw [truncf_apply, mulf_apply]
  simp only [shapeCast_self]
  have hm : matmul dot_S2000x128_S128x128_S2000x128_1_0_0_1_n_n none (truncf (F := Ideal) .bf16 x0 bitsLt_bf16_f32)
      (truncf (F := Ideal) .bf16 x1 bitsLt_bf16_f32) (constant (F := Ideal) S2000x128 .f32 0x00000000#32)
        = Cert.LibMatmul.MM (A := 2000) (K := 128) (B := 128) x0 x1 :=
    Cert.LibMatmul.matmul_zero_eq dot_S2000x128_S128x128_S2000x128_1_0_0_1_n_n rfl rfl rfl rfl rfl rfl none _ _
  rw [hm]
  refine congrArg (fun z => Cert.LibMatmul.MM (A := 2000) (K := 128) (B := 128) x0 x1 (ix2 p q) * z) ?_
  refine broadcastTo_apply x2 broadcasts_S2000x1_S2000x128 (ix2 p q) (ix2 p (⟨0, Nat.one_pos⟩ : Fin 1)) fun a => ?_
  match a with
  | ⟨0, _⟩ => rfl
  | ⟨1, _⟩ => rfl

/-- When row p of the block of h is row r of h, the block of the weights is the weights, and row p of the block of d
    is row r of d, the stored value at (p, q) is `LS` of the whole arrays at (r, q): a row of a product depends only
    on that row of the left factor. -/
theorem pay_eq_LS (x0 : Vec Ideal S2000x128 .f32) (x1 : Vec Ideal S128x128 .f32) (x2 : Vec Ideal S2000x1 .f32)
    (h : S50000x128.Idx → EReal) (w : S128x128.Idx → EReal) (d : S50000x1.Idx → EReal)
    (p : Fin 2000) (q : Fin 128) (r : Fin 50000)
    (h0 : ∀ k : Fin 128, x0 (ix2 p k) = h (ix2 r k)) (h1 : ∀ k : Fin 128, x1 (ix2 k q) = w (ix2 k q))
    (h2 : x2 (ix2 p (⟨0, Nat.one_pos⟩ : Fin 1)) = d (ix2 r (⟨0, Nat.one_pos⟩ : Fin 1))) :
    k2_pay1 (F := Ideal) x0 x1 x2 (ix2 p q) = Cert.Gcn.LS (A := 50000) (K := 128) (B := 128) h w d (ix2 r q) := by
  rw [pay_apply]
  show (∑ k : Fin 128, x0 (ix2 p k) * x1 (ix2 k q)) * x2 (ix2 p (⟨0, Nat.one_pos⟩ : Fin 1))
      = (∑ k : Fin 128, h (ix2 r k) * w (ix2 k q)) * d (ix2 r (⟨0, Nat.one_pos⟩ : Fin 1))
  rw [h2]
  refine congrArg (fun z => z * d (ix2 r (⟨0, Nat.one_pos⟩ : Fin 1))) ?_
  refine Finset.sum_congr rfl fun k _ => ?_
  rw [h0 k, h1 k]

/-! ## From the blocks to the array -/

section Blocks
variable (V : (c : Dev nD) → (b : Ref sig .tc) → Buf (Elt Ideal) ((c : Thread nD τ).loc b))

/-- The index maps, decided over the grid: point t's block of h, of d and of the output is block row t, the weights'
    block is the whole array. -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0 :=
  (by decide +kernel : ∀ t : Fin grid2.N, _)

/-- Point t's block of h is rows 2000 t … 2000 t + 1999 of the array. -/
theorem blk0_apply (c : Dev nD) (t : Fin cfg2.N) (x : S2000x128.Idx) (k : S50000x128.Idx)
    (hk0 : (k 0).val = 2000 * t.val + (x 0).val) (hk1 : (k 1).val = (x 1).val) :
    (iblk2 (F := Ideal) V c 0 t : Vec Ideal S2000x128 .f32) x = (V c main_v29 : S50000x128.Idx → EReal) k := by
  obtain ⟨e0, e1, -⟩ := idx_facts t
  unfold iblk2
  rw [View.read_apply]
  show V c main_v29 _ = V c main_v29 _
  refine congrArg _ ?_
  funext a; apply Fin.ext
  match a with
  | ⟨0, _⟩ => show win2_0.index t (0 : Fin 2) * 2000 + 1 * (x 0).val = (k 0).val; rw [e0, hk0]; omega
  | ⟨1, _⟩ => show win2_0.index t (1 : Fin 2) * 128 + 1 * (x 1).val = (k 1).val; rw [e1, hk1]; omega

/-- The weights' block is the whole array at every point. -/
theorem blk1_apply (c : Dev nD) (t : Fin cfg2.N) (x : S128x128.Idx) :
    (iblk2 (F := Ideal) V c 1 t : Vec Ideal S128x128 .f32) x = (V c main_arg5 : S128x128.Idx → EReal) x := by
  obtain ⟨-, -, e0, e1, -⟩ := idx_facts t
  unfold iblk2
  rw [View.read_apply]
  show V c main_arg5 _ = V c main_arg5 _
  refine congrArg _ ?_
  funext a; apply Fin.ext
  match a with
  | ⟨0, _⟩ => show win2_1.index t (0 : Fin 2) * 128 + 1 * (x 0).val = (x 0).val; rw [e0]; omega
  | ⟨1, _⟩ => show win2_1.index t (1 : Fin 2) * 128 + 1 * (x 1).val = (x 1).val; rw [e1]; omega

/-- Point t's block of the degree factor is rows 2000 t … 2000 t + 1999 of the column. -/
theorem blk2_apply (c : Dev nD) (t : Fin cfg2.N) (x : S2000x1.Idx) (k : S50000x1.Idx)
    (hk0 : (k 0).val = 2000 * t.val + (x 0).val) (hk1 : (k 1).val = (x 1).val) :
    (iblk2 (F := Ideal) V c 2 t : Vec Ideal S2000x1 .f32) x = (V c main_v15 : S50000x1.Idx → EReal) k := by
  obtain ⟨-, -, -, -, e0, e1, -⟩ := idx_facts t
  unfold iblk2
  rw [View.read_apply]
  show V c main_v15 _ = V c main_v15 _
  refine congrArg _ ?_
  funext a; apply Fin.ext
  match a with
  | ⟨0, _⟩ => show win2_2.index t (0 : Fin 2) * 2000 + 1 * (x 0).val = (k 0).val; rw [e0, hk0]; omega
  | ⟨1, _⟩ => show win2_2.index t (1 : Fin 2) * 1 + 1 * (x 1).val = (k 1).val; rw [e1, hk1]; omega

/-- What point t's body stores at (y0, q) of its block is `LS` of the whole arrays at (2000 t + y0, q). -/
theorem point_eq (c : Dev nD) (t : Fin cfg2.N) (j : S2000x128.Idx) (i : S50000x128.Idx)
    (hi0 : (i 0).val = 2000 * t.val + (j 0).val) (hi1 : (i 1).val = (j 1).val) :
    k2_pay1 (F := Ideal) (iblk2 V c 0 t) (iblk2 V c 1 t) (iblk2 V c 2 t) j
      = Cert.Gcn.LS (A := 50000) (K := 128) (B := 128) (V c main_v29) (V c main_arg5) (V c main_v15) i := by
  obtain ⟨p, q, rfl⟩ : ∃ (p : Fin 2000) (q : Fin 128), j = ix2 p q := ⟨j 0, j 1, eq_ix2 j⟩
  obtain ⟨r, s, rfl⟩ : ∃ (r : Fin 50000) (s : Fin 128), i = ix2 r s := ⟨i 0, i 1, eq_ix2 i⟩
  have h0 : r.val = 2000 * t.val + p.val := hi0
  obtain rfl : s = q := Fin.ext hi1
  exact pay_eq_LS (iblk2 V c 0 t) (iblk2 V c 1 t) (iblk2 V c 2 t) (V c main_v29) (V c main_arg5) (V c main_v15) p s r
    (fun k => blk0_apply V c t (ix2 p k) (ix2 r k) h0 rfl) (fun k => blk1_apply V c t (ix2 k s))
    (blk2_apply V c t (ix2 p (⟨0, Nat.one_pos⟩ : Fin 1)) (ix2 r (⟨0, Nat.one_pos⟩ : Fin 1)) h0 rfl)

/-- What point t writes back is block t of `LS` of the arrays as entered. -/
theorem flushed_eq (c : Dev nD) (t : Fin cfg2.N) :
    (dat2 (F := Ideal) V c).flushed 3 t
      = ((cfg2.win 3).blk t).view.read (Elt Ideal)
          (Cert.Gcn.LS (A := 50000) (K := 128) (B := 128) (V c main_v29) (V c main_arg5) (V c main_v15)) := by
  show (cfg2.win 3).cut (grid2.coords t) ((dat2 (F := Ideal) V c).after 3 t) = _
  rw [after2_3]
  unfold out2_3
  rw [View.canon_unit_zero hz]
  simp only [View.ld_unit_zero (S := S2000x128) hz, View.ld_unit_zero (S := S128x128) hz, View.ld_unit_zero (S := S2000x1) hz]
  obtain ⟨-, -, -, -, -, -, e0, e1⟩ := idx_facts t
  funext j
  show k2_pay1 (F := Ideal) (iblk2 V c 0 t) (iblk2 V c 1 t) (iblk2 V c 2 t) j
      = Cert.Gcn.LS (A := 50000) (K := 128) (B := 128) (V c main_v29) (V c main_arg5) (V c main_v15) (((cfg2.win 3).blk t).view.emb j)
  refine point_eq V c t j _ ?_ ?_
  · show win2_3.index t (0 : Fin 2) * 2000 + 1 * (j 0).val = 2000 * t.val + (j 0).val
    rw [e0]; omega
  · show win2_3.index t (1 : Fin 2) * 128 + 1 * (j 1).val = (j 1).val
    rw [e1]; omega

end Blocks

/-- An index of the array is in point t's block iff each coordinate is in the block's range on its axis. -/
theorem mem_blk (t : Fin cfg2.N) (i : S50000x128.Idx) :
    i ∈ ((cfg2.win 3).blk t).view.set ↔ ∀ a : Fin 2, win2_3.index t a * S2000x128.size a ≤ (i a).val ∧ (i a).val < win2_3.index t a * S2000x128.size a + S2000x128.size a := by
  show i ∈ ((View.whole main_v30).slice (win2_3.rect t)).set ↔ _
  rw [View.set_slice_whole, Rect.mem_set_unit]
  exact Iff.rfl

/-- The 25 blocks cover the array: row r is in the block of point r / 2000. -/
theorem cover (i : S50000x128.Idx) : ∃ t : Fin cfg2.N, (cfg2.win 3).flush t = true ∧ i ∈ ((cfg2.win 3).blk t).view.set := by
  have hi0 : (i 0).val < 50000 := idx2_lt0 i
  have hi1 : (i 1).val < 128 := idx2_lt1 i
  have hN : cfg2.N = 25 := N_2
  have ht : (i 0).val / 2000 < cfg2.N := by rw [hN]; omega
  obtain ⟨-, -, -, -, -, -, e0, e1⟩ := idx_facts ⟨(i 0).val / 2000, ht⟩
  have e0' : win2_3.index ⟨(i 0).val / 2000, ht⟩ (0 : Fin 2) = (i 0).val / 2000 := e0
  refine ⟨⟨(i 0).val / 2000, ht⟩, flush2_3 _, ?_⟩
  rw [mem_blk]
  intro a
  match a with
  | ⟨0, _⟩ =>
    show win2_3.index ⟨(i 0).val / 2000, ht⟩ (0 : Fin 2) * 2000 ≤ (i 0).val ∧ (i 0).val < win2_3.index ⟨(i 0).val / 2000, ht⟩ (0 : Fin 2) * 2000 + 2000
    rw [e0']; omega
  | ⟨1, _⟩ =>
    show win2_3.index ⟨(i 0).val / 2000, ht⟩ (1 : Fin 2) * 128 ≤ (i 1).val ∧ (i 1).val < win2_3.index ⟨(i 0).val / 2000, ht⟩ (1 : Fin 2) * 128 + 128
    rw [e1]; omega

/-- After the region's 25 grid points the output array is `LS` of the input arrays as entered. -/
theorem final (V : (c : Dev nD) → (b : Ref sig .tc) → Buf (Elt Ideal) ((c : Thread nD τ).loc b)) (c : Dev nD) :
    (dat2 (F := Ideal) V c).arrAt 3 cfg2.N
      = Cert.Gcn.LS (A := 50000) (K := 128) (B := 128) (V c main_v29) (V c main_arg5) (V c main_v15) := by
  exact (dat2 (F := Ideal) V c).arrAt_eq_of_cover 3
    (Cert.Gcn.LS (A := 50000) (K := 128) (B := 128) (V c main_v29) (V c main_arg5) (V c main_v15))
    (fun t _ => flushed_eq V c t) cover

end Cert.Gcn.RegLS2

end
-- ==== Proof.RegLS4.lean ====
/-
  Region 4 of the tiled program (rows of h W scaled by the degree factor): the array its write-backs leave, as one function
  of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value

set_option maxRecDepth 16384

noncomputable section

namespace Cert.Gcn.RegLS4

open Cert.KernelIdeal Cert.KernelIdeal.Gen Idealize.ShloMosaic Idealize.ShloMosaic.TcCoe Idealize.SL.Sem Idealize.ShloMosaic.ValueIdx
open Idealize.ShloMosaic.Pipeline (Dat)

theorem hz : (![0, 0] : Fin 2 → Nat) = fun _ => 0 := funext fun a => by fin_cases a <;> rfl

/-! ## The body's stored value at an index of its block -/

/-- At (p, q): row p of the block of h times the weights, at q, times the block's degree factor of row p
    (rounding to the narrow float is the identity at the ideal values). -/
theorem pay_apply (x0 : Vec Ideal S2000x128 .f32) (x1 : Vec Ideal S128x256 .f32) (x2 : Vec Ideal S2000x1 .f32) (p : Fin 2000) (q : Fin 256) :
    k4_pay1 (F := Ideal) x0 x1 x2 (ix2 p q)
      = Cert.LibMatmul.MM (A := 2000) (K := 128) (B := 256) x0 x1 (ix2 p q) * x2 (ix2 p (⟨0, Nat.one_pos⟩ : Fin 1)) := by
  unfold k4_pay1
  rw [truncf_apply, mulf_apply]
  simp only [shapeCast_self]
  have hm : matmul dot_S2000x128_S128x256_S2000x256_1_0_0_1_n_n none (truncf (F := Ideal) .bf16 x0 bitsLt_bf16_f32)
      (truncf (F := Ideal) .bf16 x1 bitsLt_bf16_f32) (constant (F := Ideal) S2000x256 .f32 0x00000000#32)
        = Cert.LibMatmul.MM (A := 2000) (K := 128) (B := 256) x0 x1 :=
    Cert.LibMatmul.matmul_zero_eq dot_S2000x128_S128x256_S2000x256_1_0_0_1_n_n rfl rfl rfl rfl rfl rfl none _ _
  rw [hm]
  refine congrArg (fun z => Cert.LibMatmul.MM (A := 2000) (K := 128) (B := 256) x0 x1 (ix2 p q) * z) ?_
  refine broadcastTo_apply x2 broadcasts_S2000x1_S2000x256 (ix2 p q) (ix2 p (⟨0, Nat.one_pos⟩ : Fin 1)) fun a => ?_
  match a with
  | ⟨0, _⟩ => rfl
  | ⟨1, _⟩ => rfl

/-- When row p of the block of h is row r of h, the block of the weights is the weights, and row p of the block of d
    is row r of d, the stored value at (p, q) is `LS` of the whole arrays at (r, q): a row of a product depends only
    on that row of the left factor. -/
theorem pay_eq_LS (x0 : Vec Ideal S2000x128 .f32) (x1 : Vec Ideal S128x256 .f32) (x2 : Vec Ideal S2000x1 .f32)
    (h : S50000x128.Idx → EReal) (w : S128x256.Idx → EReal) (d : S50000x1.Idx → EReal)
    (p : Fin 2000) (q : Fin 256) (r : Fin 50000)
    (h0 : ∀ k : Fin 128, x0 (ix2 p k) = h (ix2 r k)) (h1 : ∀ k : Fin 128, x1 (ix2 k q) = w (ix2 k q))
    (h2 : x2 (ix2 p (⟨0, Nat.one_pos⟩ : Fin 1)) = d (ix2 r (⟨0, Nat.one_pos⟩ : Fin 1))) :
    k4_pay1 (F := Ideal) x0 x1 x2 (ix2 p q) = Cert.Gcn.LS (A := 50000) (K := 128) (B := 256) h w d (ix2 r q) := by
  rw [pay_apply]
  show (∑ k : Fin 128, x0 (ix2 p k) * x1 (ix2 k q)) * x2 (ix2 p (⟨0, Nat.one_pos⟩ : Fin 1))
      = (∑ k : Fin 128, h (ix2 r k) * w (ix2 k q)) * d (ix2 r (⟨0, Nat.one_pos⟩ : Fin 1))
  rw [h2]
  refine congrArg (fun z => z * d (ix2 r (⟨0, Nat.one_pos⟩ : Fin 1))) ?_
  refine Finset.sum_congr rfl fun k _ => ?_
  rw [h0 k, h1 k]

/-! ## From the blocks to the array -/

section Blocks
variable (V : (c : Dev nD) → (b : Ref sig .tc) → Buf (Elt Ideal) ((c : Thread nD τ).loc b))

/-- The index maps, decided over the grid: point t's block of h, of d and of the output is block row t, the weights'
    block is the whole array. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0
    ∧ win4_3.index t (0 : Fin 2) = t.val ∧ win4_3.index t (1 : Fin 2) = 0 :=
  (by decide +kernel : ∀ t : Fin grid4.N, _)

/-- Point t's block of h is rows 2000 t … 2000 t + 1999 of the array. -/
theorem blk0_apply (c : Dev nD) (t : Fin cfg4.N) (x : S2000x128.Idx) (k : S50000x128.Idx)
    (hk0 : (k 0).val = 2000 * t.val + (x 0).val) (hk1 : (k 1).val = (x 1).val) :
    (iblk4 (F := Ideal) V c 0 t : Vec Ideal S2000x128 .f32) x = (V c main_v43 : S50000x128.Idx → EReal) k := by
  obtain ⟨e0, e1, -⟩ := idx_facts t
  unfold iblk4
  rw [View.read_apply]
  show V c main_v43 _ = V c main_v43 _
  refine congrArg _ ?_
  funext a; apply Fin.ext
  match a with
  | ⟨0, _⟩ => show win4_0.index t (0 : Fin 2) * 2000 + 1 * (x 0).val = (k 0).val; rw [e0, hk0]; omega
  | ⟨1, _⟩ => show win4_0.index t (1 : Fin 2) * 128 + 1 * (x 1).val = (k 1).val; rw [e1, hk1]; omega

/-- The weights' block is the whole array at every point. -/
theorem blk1_apply (c : Dev nD) (t : Fin cfg4.N) (x : S128x256.Idx) :
    (iblk4 (F := Ideal) V c 1 t : Vec Ideal S128x256 .f32) x = (V c main_arg7 : S128x256.Idx → EReal) x := by
  obtain ⟨-, -, e0, e1, -⟩ := idx_facts t
  unfold iblk4
  rw [View.read_apply]
  show V c main_arg7 _ = V c main_arg7 _
  refine congrArg _ ?_
  funext a; apply Fin.ext
  match a with
  | ⟨0, _⟩ => show win4_1.index t (0 : Fin 2) * 128 + 1 * (x 0).val = (x 0).val; rw [e0]; omega
  | ⟨1, _⟩ => show win4_1.index t (1 : Fin 2) * 256 + 1 * (x 1).val = (x 1).val; rw [e1]; omega

/-- Point t's block of the degree factor is rows 2000 t … 2000 t + 1999 of the column. -/
theorem blk2_apply (c : Dev nD) (t : Fin cfg4.N) (x : S2000x1.Idx) (k : S50000x1.Idx)
    (hk0 : (k 0).val = 2000 * t.val + (x 0).val) (hk1 : (k 1).val = (x 1).val) :
    (iblk4 (F := Ideal) V c 2 t : Vec Ideal S2000x1 .f32) x = (V c main_v15 : S50000x1.Idx → EReal) k := by
  obtain ⟨-, -, -, -, e0, e1, -⟩ := idx_facts t
  unfold iblk4
  rw [View.read_apply]
  show V c main_v15 _ = V c main_v15 _
  refine congrArg _ ?_
  funext a; apply Fin.ext
  match a with
  | ⟨0, _⟩ => show win4_2.index t (0 : Fin 2) * 2000 + 1 * (x 0).val = (k 0).val; rw [e0, hk0]; omega
  | ⟨1, _⟩ => show win4_2.index t (1 : Fin 2) * 1 + 1 * (x 1).val = (k 1).val; rw [e1, hk1]; omega

/-- What point t's body stores at (y0, q) of its block is `LS` of the whole arrays at (2000 t + y0, q). -/
theorem point_eq (c : Dev nD) (t : Fin cfg4.N) (j : S2000x256.Idx) (i : S50000x256.Idx)
    (hi0 : (i 0).val = 2000 * t.val + (j 0).val) (hi1 : (i 1).val = (j 1).val) :
    k4_pay1 (F := Ideal) (iblk4 V c 0 t) (iblk4 V c 1 t) (iblk4 V c 2 t) j
      = Cert.Gcn.LS (A := 50000) (K := 128) (B := 256) (V c main_v43) (V c main_arg7) (V c main_v15) i := by
  obtain ⟨p, q, rfl⟩ : ∃ (p : Fin 2000) (q : Fin 256), j = ix2 p q := ⟨j 0, j 1, eq_ix2 j⟩
  obtain ⟨r, s, rfl⟩ : ∃ (r : Fin 50000) (s : Fin 256), i = ix2 r s := ⟨i 0, i 1, eq_ix2 i⟩
  have h0 : r.val = 2000 * t.val + p.val := hi0
  obtain rfl : s = q := Fin.ext hi1
  exact pay_eq_LS (iblk4 V c 0 t) (iblk4 V c 1 t) (iblk4 V c 2 t) (V c main_v43) (V c main_arg7) (V c main_v15) p s r
    (fun k => blk0_apply V c t (ix2 p k) (ix2 r k) h0 rfl) (fun k => blk1_apply V c t (ix2 k s))
    (blk2_apply V c t (ix2 p (⟨0, Nat.one_pos⟩ : Fin 1)) (ix2 r (⟨0, Nat.one_pos⟩ : Fin 1)) h0 rfl)

/-- What point t writes back is block t of `LS` of the arrays as entered. -/
theorem flushed_eq (c : Dev nD) (t : Fin cfg4.N) :
    (dat4 (F := Ideal) V c).flushed 3 t
      = ((cfg4.win 3).blk t).view.read (Elt Ideal)
          (Cert.Gcn.LS (A := 50000) (K := 128) (B := 256) (V c main_v43) (V c main_arg7) (V c main_v15)) := by
  show (cfg4.win 3).cut (grid4.coords t) ((dat4 (F := Ideal) V c).after 3 t) = _
  rw [after4_3]
  unfold out4_3
  rw [View.canon_unit_zero hz]
  simp only [View.ld_unit_zero (S := S2000x128) hz, View.ld_unit_zero (S := S128x256) hz, View.ld_unit_zero (S := S2000x1) hz]
  obtain ⟨-, -, -, -, -, -, e0, e1⟩ := idx_facts t
  funext j
  show k4_pay1 (F := Ideal) (iblk4 V c 0 t) (iblk4 V c 1 t) (iblk4 V c 2 t) j
      = Cert.Gcn.LS (A := 50000) (K := 128) (B := 256) (V c main_v43) (V c main_arg7) (V c main_v15) (((cfg4.win 3).blk t).view.emb j)
  refine point_eq V c t j _ ?_ ?_
  · show win4_3.index t (0 : Fin 2) * 2000 + 1 * (j 0).val = 2000 * t.val + (j 0).val
    rw [e0]; omega
  · show win4_3.index t (1 : Fin 2) * 256 + 1 * (j 1).val = (j 1).val
    rw [e1]; omega

end Blocks

/-- An index of the array is in point t's block iff each coordinate is in the block's range on its axis. -/
theorem mem_blk (t : Fin cfg4.N) (i : S50000x256.Idx) :
    i ∈ ((cfg4.win 3).blk t).view.set ↔ ∀ a : Fin 2, win4_3.index t a * S2000x256.size a ≤ (i a).val ∧ (i a).val < win4_3.index t a * S2000x256.size a + S2000x256.size a := by
  show i ∈ ((View.whole main_v44).slice (win4_3.rect t)).set ↔ _
  rw [View.set_slice_whole, Rect.mem_set_unit]
  exact Iff.rfl

/-- The 25 blocks cover the array: row r is in the block of point r / 2000. -/
theorem cover (i : S50000x256.Idx) : ∃ t : Fin cfg4.N, (cfg4.win 3).flush t = true ∧ i ∈ ((cfg4.win 3).blk t).view.set := by
  have hi0 : (i 0).val < 50000 := idx2_lt0 i
  have hi1 : (i 1).val < 256 := idx2_lt1 i
  have hN : cfg4.N = 25 := N_4
  have ht : (i 0).val / 2000 < cfg4.N := by rw [hN]; omega
  obtain ⟨-, -, -, -, -, -, e0, e1⟩ := idx_facts ⟨(i 0).val / 2000, ht⟩
  have e0' : win4_3.index ⟨(i 0).val / 2000, ht⟩ (0 : Fin 2) = (i 0).val / 2000 := e0
  refine ⟨⟨(i 0).val / 2000, ht⟩, flush4_3 _, ?_⟩
  rw [mem_blk]
  intro a
  match a with
  | ⟨0, _⟩ =>
    show win4_3.index ⟨(i 0).val / 2000, ht⟩ (0 : Fin 2) * 2000 ≤ (i 0).val ∧ (i 0).val < win4_3.index ⟨(i 0).val / 2000, ht⟩ (0 : Fin 2) * 2000 + 2000
    rw [e0']; omega
  | ⟨1, _⟩ =>
    show win4_3.index ⟨(i 0).val / 2000, ht⟩ (1 : Fin 2) * 256 ≤ (i 1).val ∧ (i 1).val < win4_3.index ⟨(i 0).val / 2000, ht⟩ (1 : Fin 2) * 256 + 256
    rw [e1]; omega

/-- After the region's 25 grid points the output array is `LS` of the input arrays as entered. -/
theorem final (V : (c : Dev nD) → (b : Ref sig .tc) → Buf (Elt Ideal) ((c : Thread nD τ).loc b)) (c : Dev nD) :
    (dat4 (F := Ideal) V c).arrAt 3 cfg4.N
      = Cert.Gcn.LS (A := 50000) (K := 128) (B := 256) (V c main_v43) (V c main_arg7) (V c main_v15) := by
  exact (dat4 (F := Ideal) V c).arrAt_eq_of_cover 3
    (Cert.Gcn.LS (A := 50000) (K := 128) (B := 256) (V c main_v43) (V c main_arg7) (V c main_v15))
    (fun t _ => flushed_eq V c t) cover

end Cert.Gcn.RegLS4

end
-- ==== Proof.RegBA1.lean ====
/-
  Region 1 of the tiled program (aggregated rows scaled by the degree factor, plus the bias row, then max with 0): the array its
  write-backs leave, as one function of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value
import Idealize.ShloMosaic.Lib.ValueIdx

set_option maxRecDepth 16384

noncomputable section

namespace Cert.Gcn.RegBA1

open Cert.KernelIdeal Cert.KernelIdeal.Gen Idealize.ShloMosaic Idealize.ShloMosaic.TcCoe Idealize.SL.Sem Idealize.ShloMosaic.ValueIdx
open Idealize.ShloMosaic.Pipeline (Dat)

/-- The body's loads and its store start at the origin of their buffers. -/
theorem origin_zero : (![0, 0] : Fin 2 → Nat) = fun _ => 0 := funext fun a => by fin_cases a <;> rfl

/-- The body's value at entry `j` of a block: the aggregated entry times the degree factor of its row (the column block
    read at `(j 0, 0)`) plus the bias of its channel (the bias row read at `(0, j 1)`), then the maximum with 0.0. -/
theorem pay_apply (x0 : Vec Ideal S2000x128 .f32) (x1 : Vec Ideal S2000x1 .f32) (x2 : Vec Ideal S1x128 .f32)
    (j : S2000x128.Idx) (k1 : S2000x1.Idx) (k2 : S1x128.Idx)
    (h10 : (k1 0).val = (j 0).val) (h11 : (k1 1).val = 0) (h20 : (k2 0).val = 0) (h21 : (k2 1).val = (j 1).val) :
    k1_pay1 x0 x1 x2 j = max (x0 j * x1 k1 + x2 k2) Cert.Gcn.z0 := by
  unfold k1_pay1
  simp only [shapeCast_self]
  have b1 : broadcastTo S2000x128 x1 broadcasts_S2000x1_S2000x128 j = x1 k1 :=
    broadcastTo_apply x1 _ j k1 fun a => match a with
      | ⟨0, _⟩ => by show (k1 0).val = if (2000 : Nat) = 1 then 0 else (j 0).val; rw [h10]; rfl
      | ⟨1, _⟩ => by show (k1 1).val = if (1 : Nat) = 1 then 0 else (j 1).val; rw [h11]; rfl
  have b2 : broadcastTo S2000x128 x2 broadcasts_S1x128_S2000x128 j = x2 k2 :=
    broadcastTo_apply x2 _ j k2 fun a => match a with
      | ⟨0, _⟩ => by show (k2 0).val = if (1 : Nat) = 1 then 0 else (j 0).val; rw [h20]; rfl
      | ⟨1, _⟩ => by show (k2 1).val = if (128 : Nat) = 1 then 0 else (j 1).val; rw [h21]; rfl
  rw [maximumf_apply, addf_apply, mulf_apply, broadcast_apply, b1, b2]
  rfl

/-- So when the three blocks are the arrays read at row `k 0` and channel `k 1`, the body's value at `j` is `BAr` at `k`. -/
theorem pay_point (x0 : Vec Ideal S2000x128 .f32) (x1 : Vec Ideal S2000x1 .f32) (x2 : Vec Ideal S1x128 .f32)
    (agg : S50000x128.Idx → EReal) (d : S50000x1.Idx → EReal) (b : S1x128.Idx → EReal)
    (j : S2000x128.Idx) (k : S50000x128.Idx) (h0 : x0 j = agg k)
    (h1 : x1 (ix2 (j 0) (⟨0, Nat.one_pos⟩ : Fin 1)) = d (ix2 (k 0) (⟨0, Nat.one_pos⟩ : Fin 1)))
    (h2 : x2 (ix2 (⟨0, Nat.one_pos⟩ : Fin 1) (j 1)) = b (ix2 (⟨0, Nat.one_pos⟩ : Fin 1) (k 1))) :
    k1_pay1 x0 x1 x2 j = Cert.Gcn.BAr (A := 50000) (B := 128) agg d b k := by
  rw [pay_apply x0 x1 x2 j (ix2 (j 0) (⟨0, Nat.one_pos⟩ : Fin 1)) (ix2 (⟨0, Nat.one_pos⟩ : Fin 1) (j 1)) rfl rfl rfl rfl, h0, h1, h2]
  rfl

/-- The printed index maps, decided over the grid: the aggregated rows, the degree column and the output move together,
    point `t` at block row `t`; the bias row stays at its one block. -/
theorem idx_facts : ∀ t : Fin cfg1.N, win1_0.index t (0 : Fin 2) = t.val ∧ win1_0.index t (1 : Fin 2) = 0
    ∧ win1_1.index t (0 : Fin 2) = t.val ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0 :=
  (by decide +kernel : ∀ t : Fin grid1.N, _)

section
variable (V : (c : Dev nD) → (b : Ref sig .tc) → Buf (Elt Ideal) ((c : Thread nD τ).loc b)) (c : Dev nD)

/-- The block of aggregated rows at point `t`, entry `x`, is the array's entry `(2000 t + x 0, x 1)`. -/
theorem agg_blk_apply (t : Fin cfg1.N) (x : S2000x128.Idx) (k : S50000x128.Idx)
    (hk0 : (k 0).val = 2000 * t.val + (x 0).val) (hk1 : (k 1).val = (x 1).val) :
    (iblk1 V c 0 t : Vec Ideal S2000x128 .f32) x = (V c main_v27 : S50000x128.Idx → Elt Ideal .f32) k := by
  obtain ⟨e0, e1, -, -, -, -, -, -⟩ := idx_facts t
  unfold iblk1
  rw [View.read_apply]
  show V c main_v27 _ = V c main_v27 _
  congr 1
  funext a
  apply Fin.ext
  match a with
  | ⟨0, _⟩ => show win1_0.index t (0 : Fin 2) * 2000 + 1 * (x 0).val = (k 0).val; rw [e0, hk0]; omega
  | ⟨1, _⟩ => show win1_0.index t (1 : Fin 2) * 128 + 1 * (x 1).val = (k 1).val; rw [e1, hk1]; omega

/-- The block of the degree column at point `t`, entry `x`, is the column's entry `(2000 t + x 0, 0)`. -/
theorem deg_blk_apply (t : Fin cfg1.N) (x : S2000x1.Idx) (k : S50000x1.Idx)
    (hk0 : (k 0).val = 2000 * t.val + (x 0).val) :
    (iblk1 V c 1 t : Vec Ideal S2000x1 .f32) x = (V c main_v15 : S50000x1.Idx → Elt Ideal .f32) k := by
  obtain ⟨-, -, e2, e3, -, -, -, -⟩ := idx_facts t
  unfold iblk1
  rw [View.read_apply]
  show V c main_v15 _ = V c main_v15 _
  congr 1
  funext a
  apply Fin.ext
  have hx1 : (x 1).val < 1 := (x 1).isLt
  have hk1 : (k 1).val < 1 := (k 1).isLt
  match a with
  | ⟨0, _⟩ => show win1_1.index t (0 : Fin 2) * 2000 + 1 * (x 0).val = (k 0).val; rw [e2, hk0]; omega
  | ⟨1, _⟩ => show win1_1.index t (1 : Fin 2) * 1 + 1 * (x 1).val = (k 1).val; rw [e3]; omega

/-- The bias row's one block at any point is the bias row. -/
theorem bias_blk_apply (t : Fin cfg1.N) (x : S1x128.Idx) (k : S1x128.Idx) (hk1 : (k 1).val = (x 1).val) :
    (iblk1 V c 2 t : Vec Ideal S1x128 .f32) x = (V c main_v28 : S1x128.Idx → Elt Ideal .f32) k := by
  obtain ⟨-, -, -, -, e4, e5, -, -⟩ := idx_facts t
  unfold iblk1
  rw [View.read_apply]
  show V c main_v28 _ = V c main_v28 _
  congr 1
  funext a
  apply Fin.ext
  have hx0 : (x 0).val < 1 := (x 0).isLt
  have hk0 : (k 0).val < 1 := (k 0).isLt
  match a with
  | ⟨0, _⟩ => show win1_2.index t (0 : Fin 2) * 1 + 1 * (x 0).val = (k 0).val; rw [e4]; omega
  | ⟨1, _⟩ => show win1_2.index t (1 : Fin 2) * 128 + 1 * (x 1).val = (k 1).val; rw [e5, hk1]; omega

/-- What point `t` writes back is block `t` of `BAr` of the three arrays as the region finds them. -/
theorem flushed_eq (t : Fin cfg1.N) :
    (dat1 (F := Ideal) V c).flushed 3 t = ((cfg1.win 3).blk t).view.read (Elt Ideal)
      (Cert.Gcn.BAr (A := 50000) (B := 128) (V c main_v27) (V c main_v15) (V c main_v28)) := by
  show (cfg1.win 3).cut (grid1.coords t) ((dat1 V c).after 3 t) = _
  rw [after1_3]
  unfold out1_3
  rw [View.canon_unit_zero origin_zero]
  simp only [View.ld_unit_zero (S := S2000x128) origin_zero, View.ld_unit_zero (S := S2000x1) origin_zero,
    View.ld_unit_zero (S := S1x128) origin_zero]
  obtain ⟨-, -, -, -, -, -, e6, e7⟩ := idx_facts t
  funext j
  have hj0 : ((j : S2000x128.Idx) 0).val < 2000 := (j 0).isLt
  have hj1 : ((j : S2000x128.Idx) 1).val < 128 := (j 1).isLt
  have hr0 : ((((cfg1.win 3).blk t).view.emb j : S50000x128.Idx) 0).val = 2000 * t.val + ((j : S2000x128.Idx) 0).val := by
    show win1_3.index t (0 : Fin 2) * 2000 + 1 * (j 0).val = _; rw [e6]; omega
  have hr1 : ((((cfg1.win 3).blk t).view.emb j : S50000x128.Idx) 1).val = ((j : S2000x128.Idx) 1).val := by
    show win1_3.index t (1 : Fin 2) * 128 + 1 * (j 1).val = _; rw [e7]; omega
  show k1_pay1 (iblk1 V c 0 t) (iblk1 V c 1 t) (iblk1 V c 2 t) j
      = Cert.Gcn.BAr (A := 50000) (B := 128) (V c main_v27) (V c main_v15) (V c main_v28) (((cfg1.win 3).blk t).view.emb j)
  exact pay_point _ _ _ _ _ _ j _ (agg_blk_apply V c t j _ hr0 hr1) (deg_blk_apply V c t _ _ hr0)
    (bias_blk_apply V c t _ _ hr1)

/-- An index of the array is in point `t`'s block iff each coordinate is in the block's range on its axis. -/
theorem mem_blk (t : Fin cfg1.N) (i : S50000x128.Idx) :
    i ∈ ((cfg1.win 3).blk t).view.set ↔ ∀ a : Fin 2, win1_3.index t a * S2000x128.size a ≤ (i a).val ∧ (i a).val < win1_3.index t a * S2000x128.size a + S2000x128.size a := by
  show i ∈ ((View.whole main_v29).slice (win1_3.rect t)).set ↔ _
  rw [View.set_slice_whole, Rect.mem_set_unit]
  exact Iff.rfl

/-- Every row is in the block of the point its number divided by 2000 names: the 25 blocks cover the array. -/
theorem cover (i : S50000x128.Idx) :
    ∃ t : Fin cfg1.N, (cfg1.win 3).flush t = true ∧ i ∈ ((cfg1.win 3).blk t).view.set := by
  have hN : cfg1.N = 25 := N_1
  have hi0 : (i 0).val < 50000 := (i 0).isLt
  have hi1 : (i 1).val < 128 := (i 1).isLt
  refine ⟨⟨(i 0).val / 2000, by rw [hN]; omega⟩, flush1_3 _, ?_⟩
  obtain ⟨-, -, -, -, -, -, e6, e7⟩ := idx_facts ⟨(i 0).val / 2000, by rw [hN]; omega⟩
  rw [mem_blk]
  intro a
  match a with
  | ⟨0, _⟩ =>
    show win1_3.index _ (0 : Fin 2) * 2000 ≤ (i 0).val ∧ (i 0).val < win1_3.index _ (0 : Fin 2) * 2000 + 2000
    rw [e6]; show (i 0).val / 2000 * 2000 ≤ (i 0).val ∧ (i 0).val < (i 0).val / 2000 * 2000 + 2000; omega
  | ⟨1, _⟩ =>
    show win1_3.index _ (1 : Fin 2) * 128 ≤ (i 1).val ∧ (i 1).val < win1_3.index _ (1 : Fin 2) * 128 + 128
    rw [e7]; omega

end

/-- After the region's 25 grid points the output array is `BAr` of the input arrays as entered. -/
theorem final (V : (c : Dev nD) → (b : Ref sig .tc) → Buf (Elt Ideal) ((c : Thread nD τ).loc b)) (c : Dev nD) :
    (dat1 (F := Ideal) V c).arrAt 3 cfg1.N
      = Cert.Gcn.BAr (A := 50000) (B := 128) (V c main_v27) (V c main_v15) (V c main_v28) :=
  (dat1 (F := Ideal) V c).arrAt_eq_of_cover 3 (Cert.Gcn.BAr (A := 50000) (B := 128) (V c main_v27) (V c main_v15) (V c main_v28))
    (fun t _ => flushed_eq V c t) (cover)

end Cert.Gcn.RegBA1

end
-- ==== Proof.RegBA3.lean ====
/-
  Region 3 of the tiled program (aggregated rows scaled by the degree factor, plus the bias row, then max with 0): the array its
  write-backs leave, as one function of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value
import Idealize.ShloMosaic.Lib.ValueIdx

set_option maxRecDepth 16384

noncomputable section

namespace Cert.Gcn.RegBA3

open Cert.KernelIdeal Cert.KernelIdeal.Gen Idealize.ShloMosaic Idealize.ShloMosaic.TcCoe Idealize.SL.Sem Idealize.ShloMosaic.ValueIdx
open Idealize.ShloMosaic.Pipeline (Dat)

/-- The body's loads and its store start at the origin of their buffers. -/
theorem origin_zero : (![0, 0] : Fin 2 → Nat) = fun _ => 0 := funext fun a => by fin_cases a <;> rfl

/-- The body's value at entry `j` of a block: the aggregated entry times the degree factor of its row (the column block
    read at `(j 0, 0)`) plus the bias of its channel (the bias row read at `(0, j 1)`), then the maximum with 0.0. -/
theorem pay_apply (x0 : Vec Ideal S2000x128 .f32) (x1 : Vec Ideal S2000x1 .f32) (x2 : Vec Ideal S1x128 .f32)
    (j : S2000x128.Idx) (k1 : S2000x1.Idx) (k2 : S1x128.Idx)
    (h10 : (k1 0).val = (j 0).val) (h11 : (k1 1).val = 0) (h20 : (k2 0).val = 0) (h21 : (k2 1).val = (j 1).val) :
    k3_pay1 x0 x1 x2 j = max (x0 j * x1 k1 + x2 k2) Cert.Gcn.z0 := by
  unfold k3_pay1
  simp only [shapeCast_self]
  have b1 : broadcastTo S2000x128 x1 broadcasts_S2000x1_S2000x128 j = x1 k1 :=
    broadcastTo_apply x1 _ j k1 fun a => match a with
      | ⟨0, _⟩ => by show (k1 0).val = if (2000 : Nat) = 1 then 0 else (j 0).val; rw [h10]; rfl
      | ⟨1, _⟩ => by show (k1 1).val = if (1 : Nat) = 1 then 0 else (j 1).val; rw [h11]; rfl
  have b2 : broadcastTo S2000x128 x2 broadcasts_S1x128_S2000x128 j = x2 k2 :=
    broadcastTo_apply x2 _ j k2 fun a => match a with
      | ⟨0, _⟩ => by show (k2 0).val = if (1 : Nat) = 1 then 0 else (j 0).val; rw [h20]; rfl
      | ⟨1, _⟩ => by show (k2 1).val = if (128 : Nat) = 1 then 0 else (j 1).val; rw [h21]; rfl
  rw [maximumf_apply, addf_apply, mulf_apply, broadcast_apply, b1, b2]
  rfl

/-- So when the three blocks are the arrays read at row `k 0` and channel `k 1`, the body's value at `j` is `BAr` at `k`. -/
theorem pay_point (x0 : Vec Ideal S2000x128 .f32) (x1 : Vec Ideal S2000x1 .f32) (x2 : Vec Ideal S1x128 .f32)
    (agg : S50000x128.Idx → EReal) (d : S50000x1.Idx → EReal) (b : S1x128.Idx → EReal)
    (j : S2000x128.Idx) (k : S50000x128.Idx) (h0 : x0 j = agg k)
    (h1 : x1 (ix2 (j 0) (⟨0, Nat.one_pos⟩ : Fin 1)) = d (ix2 (k 0) (⟨0, Nat.one_pos⟩ : Fin 1)))
    (h2 : x2 (ix2 (⟨0, Nat.one_pos⟩ : Fin 1) (j 1)) = b (ix2 (⟨0, Nat.one_pos⟩ : Fin 1) (k 1))) :
    k3_pay1 x0 x1 x2 j = Cert.Gcn.BAr (A := 50000) (B := 128) agg d b k := by
  rw [pay_apply x0 x1 x2 j (ix2 (j 0) (⟨0, Nat.one_pos⟩ : Fin 1)) (ix2 (⟨0, Nat.one_pos⟩ : Fin 1) (j 1)) rfl rfl rfl rfl, h0, h1, h2]
  rfl

/-- The printed index maps, decided over the grid: the aggregated rows, the degree column and the output move together,
    point `t` at block row `t`; the bias row stays at its one block. -/
theorem idx_facts : ∀ t : Fin cfg3.N, win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = t.val ∧ win3_3.index t (1 : Fin 2) = 0 :=
  (by decide +kernel : ∀ t : Fin grid3.N, _)

section
variable (V : (c : Dev nD) → (b : Ref sig .tc) → Buf (Elt Ideal) ((c : Thread nD τ).loc b)) (c : Dev nD)

/-- The block of aggregated rows at point `t`, entry `x`, is the array's entry `(2000 t + x 0, x 1)`. -/
theorem agg_blk_apply (t : Fin cfg3.N) (x : S2000x128.Idx) (k : S50000x128.Idx)
    (hk0 : (k 0).val = 2000 * t.val + (x 0).val) (hk1 : (k 1).val = (x 1).val) :
    (iblk3 V c 0 t : Vec Ideal S2000x128 .f32) x = (V c main_v41 : S50000x128.Idx → Elt Ideal .f32) k := by
  obtain ⟨e0, e1, -, -, -, -, -, -⟩ := idx_facts t
  unfold iblk3
  rw [View.read_apply]
  show V c main_v41 _ = V c main_v41 _
  congr 1
  funext a
  apply Fin.ext
  match a with
  | ⟨0, _⟩ => show win3_0.index t (0 : Fin 2) * 2000 + 1 * (x 0).val = (k 0).val; rw [e0, hk0]; omega
  | ⟨1, _⟩ => show win3_0.index t (1 : Fin 2) * 128 + 1 * (x 1).val = (k 1).val; rw [e1, hk1]; omega

/-- The block of the degree column at point `t`, entry `x`, is the column's entry `(2000 t + x 0, 0)`. -/
theorem deg_blk_apply (t : Fin cfg3.N) (x : S2000x1.Idx) (k : S50000x1.Idx)
    (hk0 : (k 0).val = 2000 * t.val + (x 0).val) :
    (iblk3 V c 1 t : Vec Ideal S2000x1 .f32) x = (V c main_v15 : S50000x1.Idx → Elt Ideal .f32) k := by
  obtain ⟨-, -, e2, e3, -, -, -, -⟩ := idx_facts t
  unfold iblk3
  rw [View.read_apply]
  show V c main_v15 _ = V c main_v15 _
  congr 1
  funext a
  apply Fin.ext
  have hx1 : (x 1).val < 1 := (x 1).isLt
  have hk1 : (k 1).val < 1 := (k 1).isLt
  match a with
  | ⟨0, _⟩ => show win3_1.index t (0 : Fin 2) * 2000 + 1 * (x 0).val = (k 0).val; rw [e2, hk0]; omega
  | ⟨1, _⟩ => show win3_1.index t (1 : Fin 2) * 1 + 1 * (x 1).val = (k 1).val; rw [e3]; omega

/-- The bias row's one block at any point is the bias row. -/
theorem bias_blk_apply (t : Fin cfg3.N) (x : S1x128.Idx) (k : S1x128.Idx) (hk1 : (k 1).val = (x 1).val) :
    (iblk3 V c 2 t : Vec Ideal S1x128 .f32) x = (V c main_v42 : S1x128.Idx → Elt Ideal .f32) k := by
  obtain ⟨-, -, -, -, e4, e5, -, -⟩ := idx_facts t
  unfold iblk3
  rw [View.read_apply]
  show V c main_v42 _ = V c main_v42 _
  congr 1
  funext a
  apply Fin.ext
  have hx0 : (x 0).val < 1 := (x 0).isLt
  have hk0 : (k 0).val < 1 := (k 0).isLt
  match a with
  | ⟨0, _⟩ => show win3_2.index t (0 : Fin 2) * 1 + 1 * (x 0).val = (k 0).val; rw [e4]; omega
  | ⟨1, _⟩ => show win3_2.index t (1 : Fin 2) * 128 + 1 * (x 1).val = (k 1).val; rw [e5, hk1]; omega

/-- What point `t` writes back is block `t` of `BAr` of the three arrays as the region finds them. -/
theorem flushed_eq (t : Fin cfg3.N) :
    (dat3 (F := Ideal) V c).flushed 3 t = ((cfg3.win 3).blk t).view.read (Elt Ideal)
      (Cert.Gcn.BAr (A := 50000) (B := 128) (V c main_v41) (V c main_v15) (V c main_v42)) := by
  show (cfg3.win 3).cut (grid3.coords t) ((dat3 V c).after 3 t) = _
  rw [after3_3]
  unfold out3_3
  rw [View.canon_unit_zero origin_zero]
  simp only [View.ld_unit_zero (S := S2000x128) origin_zero, View.ld_unit_zero (S := S2000x1) origin_zero,
    View.ld_unit_zero (S := S1x128) origin_zero]
  obtain ⟨-, -, -, -, -, -, e6, e7⟩ := idx_facts t
  funext j
  have hj0 : ((j : S2000x128.Idx) 0).val < 2000 := (j 0).isLt
  have hj1 : ((j : S2000x128.Idx) 1).val < 128 := (j 1).isLt
  have hr0 : ((((cfg3.win 3).blk t).view.emb j : S50000x128.Idx) 0).val = 2000 * t.val + ((j : S2000x128.Idx) 0).val := by
    show win3_3.index t (0 : Fin 2) * 2000 + 1 * (j 0).val = _; rw [e6]; omega
  have hr1 : ((((cfg3.win 3).blk t).view.emb j : S50000x128.Idx) 1).val = ((j : S2000x128.Idx) 1).val := by
    show win3_3.index t (1 : Fin 2) * 128 + 1 * (j 1).val = _; rw [e7]; omega
  show k3_pay1 (iblk3 V c 0 t) (iblk3 V c 1 t) (iblk3 V c 2 t) j
      = Cert.Gcn.BAr (A := 50000) (B := 128) (V c main_v41) (V c main_v15) (V c main_v42) (((cfg3.win 3).blk t).view.emb j)
  exact pay_point _ _ _ _ _ _ j _ (agg_blk_apply V c t j _ hr0 hr1) (deg_blk_apply V c t _ _ hr0)
    (bias_blk_apply V c t _ _ hr1)

/-- An index of the array is in point `t`'s block iff each coordinate is in the block's range on its axis. -/
theorem mem_blk (t : Fin cfg3.N) (i : S50000x128.Idx) :
    i ∈ ((cfg3.win 3).blk t).view.set ↔ ∀ a : Fin 2, win3_3.index t a * S2000x128.size a ≤ (i a).val ∧ (i a).val < win3_3.index t a * S2000x128.size a + S2000x128.size a := by
  show i ∈ ((View.whole main_v43).slice (win3_3.rect t)).set ↔ _
  rw [View.set_slice_whole, Rect.mem_set_unit]
  exact Iff.rfl

/-- Every row is in the block of the point its number divided by 2000 names: the 25 blocks cover the array. -/
theorem cover (i : S50000x128.Idx) :
    ∃ t : Fin cfg3.N, (cfg3.win 3).flush t = true ∧ i ∈ ((cfg3.win 3).blk t).view.set := by
  have hN : cfg3.N = 25 := N_3
  have hi0 : (i 0).val < 50000 := (i 0).isLt
  have hi1 : (i 1).val < 128 := (i 1).isLt
  refine ⟨⟨(i 0).val / 2000, by rw [hN]; omega⟩, flush3_3 _, ?_⟩
  obtain ⟨-, -, -, -, -, -, e6, e7⟩ := idx_facts ⟨(i 0).val / 2000, by rw [hN]; omega⟩
  rw [mem_blk]
  intro a
  match a with
  | ⟨0, _⟩ =>
    show win3_3.index _ (0 : Fin 2) * 2000 ≤ (i 0).val ∧ (i 0).val < win3_3.index _ (0 : Fin 2) * 2000 + 2000
    rw [e6]; show (i 0).val / 2000 * 2000 ≤ (i 0).val ∧ (i 0).val < (i 0).val / 2000 * 2000 + 2000; omega
  | ⟨1, _⟩ =>
    show win3_3.index _ (1 : Fin 2) * 128 ≤ (i 1).val ∧ (i 1).val < win3_3.index _ (1 : Fin 2) * 128 + 128
    rw [e7]; omega

end

/-- After the region's 25 grid points the output array is `BAr` of the input arrays as entered. -/
theorem final (V : (c : Dev nD) → (b : Ref sig .tc) → Buf (Elt Ideal) ((c : Thread nD τ).loc b)) (c : Dev nD) :
    (dat3 (F := Ideal) V c).arrAt 3 cfg3.N
      = Cert.Gcn.BAr (A := 50000) (B := 128) (V c main_v41) (V c main_v15) (V c main_v42) :=
  (dat3 (F := Ideal) V c).arrAt_eq_of_cover 3 (Cert.Gcn.BAr (A := 50000) (B := 128) (V c main_v41) (V c main_v15) (V c main_v42))
    (fun t _ => flushed_eq V c t) (cover)

end Cert.Gcn.RegBA3

end
-- ==== Proof.RegBA5.lean ====
/-
  Region 5 of the tiled program (aggregated rows scaled by the degree factor, plus the bias row): the array its
  write-backs leave, as one function of the three arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value
import Idealize.ShloMosaic.Lib.ValueIdx

set_option maxRecDepth 16384

noncomputable section

namespace Cert.Gcn.RegBA5

open Cert.KernelIdeal Cert.KernelIdeal.Gen Idealize.ShloMosaic Idealize.ShloMosaic.TcCoe Idealize.SL.Sem Idealize.ShloMosaic.ValueIdx
open Idealize.ShloMosaic.Pipeline (Dat)

/-- The body's loads and its store start at the origin of their buffers. -/
theorem origin_zero : (![0, 0] : Fin 2 → Nat) = fun _ => 0 := funext fun a => by fin_cases a <;> rfl

/-- The body's value at entry `j` of a block: the aggregated entry times the degree factor of its row (the column block
    read at `(j 0, 0)`) plus the bias of its channel (the bias row read at `(0, j 1)`). -/
theorem pay_apply (x0 : Vec Ideal S2000x256 .f32) (x1 : Vec Ideal S2000x1 .f32) (x2 : Vec Ideal S1x256 .f32)
    (j : S2000x256.Idx) (k1 : S2000x1.Idx) (k2 : S1x256.Idx)
    (h10 : (k1 0).val = (j 0).val) (h11 : (k1 1).val = 0) (h20 : (k2 0).val = 0) (h21 : (k2 1).val = (j 1).val) :
    k5_pay1 x0 x1 x2 j = x0 j * x1 k1 + x2 k2 := by
  unfold k5_pay1
  simp only [shapeCast_self]
  have b1 : broadcastTo S2000x256 x1 broadcasts_S2000x1_S2000x256 j = x1 k1 :=
    broadcastTo_apply x1 _ j k1 fun a => match a with
      | ⟨0, _⟩ => by show (k1 0).val = if (2000 : Nat) = 1 then 0 else (j 0).val; rw [h10]; rfl
      | ⟨1, _⟩ => by show (k1 1).val = if (1 : Nat) = 1 then 0 else (j 1).val; rw [h11]; rfl
  have b2 : broadcastTo S2000x256 x2 broadcasts_S1x256_S2000x256 j = x2 k2 :=
    broadcastTo_apply x2 _ j k2 fun a => match a with
      | ⟨0, _⟩ => by show (k2 0).val = if (1 : Nat) = 1 then 0 else (j 0).val; rw [h20]; rfl
      | ⟨1, _⟩ => by show (k2 1).val = if (256 : Nat) = 1 then 0 else (j 1).val; rw [h21]; rfl
  rw [addf_apply, mulf_apply, b1, b2]

/-- So when the three blocks are the arrays read at row `k 0` and channel `k 1`, the body's value at `j` is `BA` at `k`. -/
theorem pay_point (x0 : Vec Ideal S2000x256 .f32) (x1 : Vec Ideal S2000x1 .f32) (x2 : Vec Ideal S1x256 .f32)
    (agg : S50000x256.Idx → EReal) (d : S50000x1.Idx → EReal) (b : S1x256.Idx → EReal)
    (j : S2000x256.Idx) (k : S50000x256.Idx) (h0 : x0 j = agg k)
    (h1 : x1 (ix2 (j 0) (⟨0, Nat.one_pos⟩ : Fin 1)) = d (ix2 (k 0) (⟨0, Nat.one_pos⟩ : Fin 1)))
    (h2 : x2 (ix2 (⟨0, Nat.one_pos⟩ : Fin 1) (j 1)) = b (ix2 (⟨0, Nat.one_pos⟩ : Fin 1) (k 1))) :
    k5_pay1 x0 x1 x2 j = Cert.Gcn.BA (A := 50000) (B := 256) agg d b k := by
  rw [pay_apply x0 x1 x2 j (ix2 (j 0) (⟨0, Nat.one_pos⟩ : Fin 1)) (ix2 (⟨0, Nat.one_pos⟩ : Fin 1) (j 1)) rfl rfl rfl rfl, h0, h1, h2]
  rfl

/-- The printed index maps, decided over the grid: the aggregated rows, the degree column and the output move together,
    point `t` at block row `t`; the bias row stays at its one block. -/
theorem idx_facts : ∀ t : Fin cfg5.N, win5_0.index t (0 : Fin 2) = t.val ∧ win5_0.index t (1 : Fin 2) = 0
    ∧ win5_1.index t (0 : Fin 2) = t.val ∧ win5_1.index t (1 : Fin 2) = 0
    ∧ win5_2.index t (0 : Fin 2) = 0 ∧ win5_2.index t (1 : Fin 2) = 0
    ∧ win5_3.index t (0 : Fin 2) = t.val ∧ win5_3.index t (1 : Fin 2) = 0 :=
  (by decide +kernel : ∀ t : Fin grid5.N, _)

section
variable (V : (c : Dev nD) → (b : Ref sig .tc) → Buf (Elt Ideal) ((c : Thread nD τ).loc b)) (c : Dev nD)

/-- The block of aggregated rows at point `t`, entry `x`, is the array's entry `(2000 t + x 0, x 1)`. -/
theorem agg_blk_apply (t : Fin cfg5.N) (x : S2000x256.Idx) (k : S50000x256.Idx)
    (hk0 : (k 0).val = 2000 * t.val + (x 0).val) (hk1 : (k 1).val = (x 1).val) :
    (iblk5 V c 0 t : Vec Ideal S2000x256 .f32) x = (V c main_v55 : S50000x256.Idx → Elt Ideal .f32) k := by
  obtain ⟨e0, e1, -, -, -, -, -, -⟩ := idx_facts t
  unfold iblk5
  rw [View.read_apply]
  show V c main_v55 _ = V c main_v55 _
  congr 1
  funext a
  apply Fin.ext
  match a with
  | ⟨0, _⟩ => show win5_0.index t (0 : Fin 2) * 2000 + 1 * (x 0).val = (k 0).val; rw [e0, hk0]; omega
  | ⟨1, _⟩ => show win5_0.index t (1 : Fin 2) * 256 + 1 * (x 1).val = (k 1).val; rw [e1, hk1]; omega

/-- The block of the degree column at point `t`, entry `x`, is the column's entry `(2000 t + x 0, 0)`. -/
theorem deg_blk_apply (t : Fin cfg5.N) (x : S2000x1.Idx) (k : S50000x1.Idx)
    (hk0 : (k 0).val = 2000 * t.val + (x 0).val) :
    (iblk5 V c 1 t : Vec Ideal S2000x1 .f32) x = (V c main_v15 : S50000x1.Idx → Elt Ideal .f32) k := by
  obtain ⟨-, -, e2, e3, -, -, -, -⟩ := idx_facts t
  unfold iblk5
  rw [View.read_apply]
  show V c main_v15 _ = V c main_v15 _
  congr 1
  funext a
  apply Fin.ext
  have hx1 : (x 1).val < 1 := (x 1).isLt
  have hk1 : (k 1).val < 1 := (k 1).isLt
  match a with
  | ⟨0, _⟩ => show win5_1.index t (0 : Fin 2) * 2000 + 1 * (x 0).val = (k 0).val; rw [e2, hk0]; omega
  | ⟨1, _⟩ => show win5_1.index t (1 : Fin 2) * 1 + 1 * (x 1).val = (k 1).val; rw [e3]; omega

/-- The bias row's one block at any point is the bias row. -/
theorem bias_blk_apply (t : Fin cfg5.N) (x : S1x256.Idx) (k : S1x256.Idx) (hk1 : (k 1).val = (x 1).val) :
    (iblk5 V c 2 t : Vec Ideal S1x256 .f32) x = (V c main_v56 : S1x256.Idx → Elt Ideal .f32) k := by
  obtain ⟨-, -, -, -, e4, e5, -, -⟩ := idx_facts t
  unfold iblk5
  rw [View.read_apply]
  show V c main_v56 _ = V c main_v56 _
  congr 1
  funext a
  apply Fin.ext
  have hx0 : (x 0).val < 1 := (x 0).isLt
  have hk0 : (k 0).val < 1 := (k 0).isLt
  match a with
  | ⟨0, _⟩ => show win5_2.index t (0 : Fin 2) * 1 + 1 * (x 0).val = (k 0).val; rw [e4]; omega
  | ⟨1, _⟩ => show win5_2.index t (1 : Fin 2) * 256 + 1 * (x 1).val = (k 1).val; rw [e5, hk1]; omega

/-- What point `t` writes back is block `t` of `BA` of the three arrays as the region finds them. -/
theorem flushed_eq (t : Fin cfg5.N) :
    (dat5 (F := Ideal) V c).flushed 3 t = ((cfg5.win 3).blk t).view.read (Elt Ideal)
      (Cert.Gcn.BA (A := 50000) (B := 256) (V c main_v55) (V c main_v15) (V c main_v56)) := by
  show (cfg5.win 3).cut (grid5.coords t) ((dat5 V c).after 3 t) = _
  rw [after5_3]
  unfold out5_3
  rw [View.canon_unit_zero origin_zero]
  simp only [View.ld_unit_zero (S := S2000x256) origin_zero, View.ld_unit_zero (S := S2000x1) origin_zero,
    View.ld_unit_zero (S := S1x256) origin_zero]
  obtain ⟨-, -, -, -, -, -, e6, e7⟩ := idx_facts t
  funext j
  have hj0 : ((j : S2000x256.Idx) 0).val < 2000 := (j 0).isLt
  have hj1 : ((j : S2000x256.Idx) 1).val < 256 := (j 1).isLt
  have hr0 : ((((cfg5.win 3).blk t).view.emb j : S50000x256.Idx) 0).val = 2000 * t.val + ((j : S2000x256.Idx) 0).val := by
    show win5_3.index t (0 : Fin 2) * 2000 + 1 * (j 0).val = _; rw [e6]; omega
  have hr1 : ((((cfg5.win 3).blk t).view.emb j : S50000x256.Idx) 1).val = ((j : S2000x256.Idx) 1).val := by
    show win5_3.index t (1 : Fin 2) * 256 + 1 * (j 1).val = _; rw [e7]; omega
  show k5_pay1 (iblk5 V c 0 t) (iblk5 V c 1 t) (iblk5 V c 2 t) j
      = Cert.Gcn.BA (A := 50000) (B := 256) (V c main_v55) (V c main_v15) (V c main_v56) (((cfg5.win 3).blk t).view.emb j)
  exact pay_point _ _ _ _ _ _ j _ (agg_blk_apply V c t j _ hr0 hr1) (deg_blk_apply V c t _ _ hr0)
    (bias_blk_apply V c t _ _ hr1)

/-- An index of the array is in point `t`'s block iff each coordinate is in the block's range on its axis. -/
theorem mem_blk (t : Fin cfg5.N) (i : S50000x256.Idx) :
    i ∈ ((cfg5.win 3).blk t).view.set ↔ ∀ a : Fin 2, win5_3.index t a * S2000x256.size a ≤ (i a).val ∧ (i a).val < win5_3.index t a * S2000x256.size a + S2000x256.size a := by
  show i ∈ ((View.whole main_v57).slice (win5_3.rect t)).set ↔ _
  rw [View.set_slice_whole, Rect.mem_set_unit]
  exact Iff.rfl

/-- Every row is in the block of the point its number divided by 2000 names: the 25 blocks cover the array. -/
theorem cover (i : S50000x256.Idx) :
    ∃ t : Fin cfg5.N, (cfg5.win 3).flush t = true ∧ i ∈ ((cfg5.win 3).blk t).view.set := by
  have hN : cfg5.N = 25 := N_5
  have hi0 : (i 0).val < 50000 := (i 0).isLt
  have hi1 : (i 1).val < 256 := (i 1).isLt
  refine ⟨⟨(i 0).val / 2000, by rw [hN]; omega⟩, flush5_3 _, ?_⟩
  obtain ⟨-, -, -, -, -, -, e6, e7⟩ := idx_facts ⟨(i 0).val / 2000, by rw [hN]; omega⟩
  rw [mem_blk]
  intro a
  match a with
  | ⟨0, _⟩ =>
    show win5_3.index _ (0 : Fin 2) * 2000 ≤ (i 0).val ∧ (i 0).val < win5_3.index _ (0 : Fin 2) * 2000 + 2000
    rw [e6]; show (i 0).val / 2000 * 2000 ≤ (i 0).val ∧ (i 0).val < (i 0).val / 2000 * 2000 + 2000; omega
  | ⟨1, _⟩ =>
    show win5_3.index _ (1 : Fin 2) * 256 ≤ (i 1).val ∧ (i 1).val < win5_3.index _ (1 : Fin 2) * 256 + 256
    rw [e7]; omega

end

/-- After the region's 25 grid points the output array is `BA` of the input arrays as entered. -/
theorem final (V : (c : Dev nD) → (b : Ref sig .tc) → Buf (Elt Ideal) ((c : Thread nD τ).loc b)) (c : Dev nD) :
    (dat5 (F := Ideal) V c).arrAt 3 cfg5.N
      = Cert.Gcn.BA (A := 50000) (B := 256) (V c main_v55) (V c main_v15) (V c main_v56) :=
  (dat5 (F := Ideal) V c).arrAt_eq_of_cover 3 (Cert.Gcn.BA (A := 50000) (B := 256) (V c main_v55) (V c main_v15) (V c main_v56))
    (fun t _ => flushed_eq V c t) (cover)

end Cert.Gcn.RegBA5

end
-- ==== Proof.RegHead.lean ====
/-
  Region 6 of the tiled program (the readout head, one grid point, every block a whole array): the two arrays its
  write-backs leave, as functions of the eight arrays it reads, whatever the buffers hold when the region is entered.
-/
import proofs.«141883_j50397146251362_2_alg».proof.Proof.Gen.KernelIdeal.Frame
import proofs.«141883_j50397146251362_2_alg».proof.Proof.Stages
import Idealize.ShloMosaic.Lib.Pipeline.Value
import Idealize.ShloMosaic.Lib.ValueLayout

set_option maxRecDepth 16384

noncomputable section

namespace Cert.Gcn.RegHead

open Cert.KernelIdeal Cert.KernelIdeal.Gen Idealize.ShloMosaic Idealize.ShloMosaic.TcCoe Idealize.SL.Sem Idealize.ShloMosaic.ValueIdx
open Idealize.ShloMosaic.Pipeline (Dat)

/-! ## The body's two values as functions of the eight arrays it loads -/

/-- A column [A, 1] broadcast across C columns reads, at (p, q), the column's entry in row p. -/
theorem bcast_col {A C : Nat} (d : (⟨2, ![A, 1]⟩ : Shape).Idx → EReal)
    (h : (⟨2, ![A, 1]⟩ : Shape).Broadcasts ⟨2, ![A, C]⟩) (p : Fin A) (q : Fin C) :
    broadcastTo ⟨2, ![A, C]⟩ d h (ix2 p q) = d (ix2 p (⟨0, Nat.one_pos⟩ : Fin 1)) := by
  refine broadcastTo_apply d h (ix2 p q) (ix2 p (⟨0, Nat.one_pos⟩ : Fin 1)) (fun a => ?_)
  match a with
  | ⟨0, _⟩ =>
    show p.val = if A = 1 then 0 else p.val
    split
    · have := p.isLt; omega
    · rfl
  | ⟨1, _⟩ => rfl

/-- Rows divided by the maximum of the counts column and 1.0, broadcast across the columns. -/
theorem pool_eq {G C : Nat} (x : FVec Ideal ⟨2, ![G, C]⟩ .f32) (cnt : FVec Ideal ⟨2, ![G, 1]⟩ .f32)
    (h : (⟨2, ![G, 1]⟩ : Shape).Broadcasts ⟨2, ![G, C]⟩) :
    divf x (broadcastTo ⟨2, ![G, C]⟩ (maximumf cnt (broadcast ⟨2, ![G, 1]⟩ (FloatOps.ofBits (F := Ideal) .f32 0x3F800000#32))) h)
      = Cert.Gcn.Pool x cnt := by
  funext j
  obtain ⟨p, q, rfl⟩ : ∃ (p : Fin G) (q : Fin C), j = ix2 p q := ⟨j 0, j 1, eq_ix2 j⟩
  show Ideal.div (x (ix2 p q)) (broadcastTo ⟨2, ![G, C]⟩ (maximumf cnt (broadcast ⟨2, ![G, 1]⟩ (FloatOps.ofBits (F := Ideal) .f32 0x3F800000#32))) h (ix2 p q)) = _
  rw [bcast_col _ h p q]
  rfl

/-- A matrix product plus a bias row broadcast down the rows is the dense layer. -/
theorem dense_eq {A K B : Nat} (x : (⟨2, ![A, K]⟩ : Shape).Idx → EReal) (w : (⟨2, ![K, B]⟩ : Shape).Idx → EReal)
    (b : FVec Ideal ⟨2, ![1, B]⟩ .f32) (h : (⟨2, ![1, B]⟩ : Shape).Broadcasts ⟨2, ![A, B]⟩) :
    addf (F := Ideal) (φ := .f32) (Cert.LibMatmul.MM x w) (broadcastTo ⟨2, ![A, B]⟩ b h) = Cert.Gcn.Dense x w b := by
  funext j
  obtain ⟨p, q, rfl⟩ : ∃ (p : Fin A) (q : Fin B), j = ix2 p q := ⟨j 0, j 1, eq_ix2 j⟩
  show Cert.LibMatmul.MM x w (ix2 p q) + broadcastTo ⟨2, ![A, B]⟩ b h (ix2 p q) = _
  rw [broadcastTo_1b_ab_apply _ h p q]
  rfl

/-- The maximum with the broadcast float word 0.0, entry by entry. -/
theorem relu_eq {A B : Nat} (y : FVec Ideal ⟨2, ![A, B]⟩ .f32) :
    maximumf y (broadcast ⟨2, ![A, B]⟩ (FloatOps.ofBits (F := Ideal) .f32 0x00000000#32)) = Cert.Gcn.Relu y := rfl

/-- At the ideal values a change of float format leaves a vector as it is. -/
theorem truncf_vec {s : Shape} {φ ψ : FTy} (a : FVec Ideal s φ) (h : ψ.bits < φ.bits) :
    (truncf ψ a h : FVec Ideal s ψ) = a := rfl

/-- The hidden features the body stores, of the arrays it loads. -/
theorem pay1_eq (x0 : FVec Ideal S256x256 .f32) (x1 : FVec Ideal S256x1 .f32) (x2 : FVec Ideal S256x128 .f32)
    (x3 : FVec Ideal S1x128 .f32) (x4 : FVec Ideal S128x64 .f32) (x5 : FVec Ideal S1x64 .f32) :
    k6_pay1 (F := Ideal) x1 x0 x2 x3 x4 x5
      = Cert.Gcn.HeadFeat (G := 256) (C := 256) (H1 := 128) (H2 := 64) x0 x1 x2 x3 x4 x5 := by
  unfold k6_pay1
  dsimp only
  simp only [shapeCast_self, truncf_vec, Idealize.ShloMosaic.matmul]
  rw [pool_eq,
    Cert.LibMatmul.matmul_zero_eq (A := 256) (K := 256) (B := 128) dot_S256x256_S256x128_S256x128_1_0_0_1_n_n rfl rfl rfl rfl rfl rfl,
    dense_eq, relu_eq,
    Cert.LibMatmul.matmul_zero_eq (A := 256) (K := 128) (B := 64) dot_S256x128_S128x64_S256x64_1_0_0_1_n_n rfl rfl rfl rfl rfl rfl,
    dense_eq, relu_eq]
  rfl

/-- The class scores the body stores, of the arrays it loads. -/
theorem pay2_eq (x0 : FVec Ideal S256x256 .f32) (x1 : FVec Ideal S256x1 .f32) (x2 : FVec Ideal S256x128 .f32)
    (x3 : FVec Ideal S1x128 .f32) (x4 : FVec Ideal S128x64 .f32) (x5 : FVec Ideal S1x64 .f32)
    (x6 : FVec Ideal S64x10 .f32) (x7 : FVec Ideal S1x10 .f32) :
    k6_pay2 (F := Ideal) x1 x0 x2 x3 x4 x5 x6 x7
      = Cert.Gcn.Dense (A := 256) (K := 64) (B := 10)
          (Cert.Gcn.HeadFeat (G := 256) (C := 256) (H1 := 128) (H2 := 64) x0 x1 x2 x3 x4 x5) x6 x7 := by
  unfold k6_pay2
  dsimp only
  simp only [shapeCast_self, truncf_vec, Idealize.ShloMosaic.matmul]
  rw [pay1_eq,
    Cert.LibMatmul.matmul_zero_eq (A := 256) (K := 64) (B := 10) dot_S256x64_S64x10_S256x10_1_0_0_1_n_n rfl rfl rfl rfl rfl rfl,
    dense_eq]

/-! ## From the one point's blocks to the arrays -/

theorem hz : (![0, 0] : Fin 2 → Nat) = fun _ => 0 := funext fun a => by fin_cases a <;> rfl

/-- The printed index maps, decided over the one-point grid: every window's block index is 0 on both axes. -/
theorem idx_facts : ∀ t : Fin cfg6.N,
      win6_0.index t (0 : Fin 2) = 0 ∧ win6_0.index t (1 : Fin 2) = 0
    ∧ win6_1.index t (0 : Fin 2) = 0 ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = 0 ∧ win6_5.index t (1 : Fin 2) = 0
    ∧ win6_6.index t (0 : Fin 2) = 0 ∧ win6_6.index t (1 : Fin 2) = 0
    ∧ win6_7.index t (0 : Fin 2) = 0 ∧ win6_7.index t (1 : Fin 2) = 0
    ∧ win6_8.index t (0 : Fin 2) = 0 ∧ win6_8.index t (1 : Fin 2) = 0
    ∧ win6_9.index t (0 : Fin 2) = 0 ∧ win6_9.index t (1 : Fin 2) = 0 :=
  (by decide +kernel : ∀ t : Fin grid6.N, _)

section Blocks
variable (V : (c : Dev nD) → (b : Ref sig .tc) → Buf (Elt Ideal) ((c : Thread nD τ).loc b)) (c : Dev nD) (t : Fin cfg6.N)

/-- Input window 0's block (the sums) is its whole array. -/
theorem blk0_eq : iblk6 (F := Ideal) V c 0 t = V c main_v60 := by
  funext y
  show V c main_v60 (((cfg6.win 0).blk t).view.emb y) = V c main_v60 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_0.index t (0 : Fin 2) * 256 + 1 * (y 0).val = (y 0).val; omega
  | ⟨1, _⟩ => show win6_0.index t (1 : Fin 2) * 256 + 1 * (y 1).val = (y 1).val; omega

/-- Input window 1's block (the counts column) is its whole array. -/
theorem blk1_eq : iblk6 (F := Ideal) V c 1 t = V c main_v65 := by
  funext y
  show V c main_v65 (((cfg6.win 1).blk t).view.emb y) = V c main_v65 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_1.index t (0 : Fin 2) * 256 + 1 * (y 0).val = (y 0).val; omega
  | ⟨1, _⟩ => show win6_1.index t (1 : Fin 2) * 1 + 1 * (y 1).val = (y 1).val; omega

/-- Input window 2's block (the first weights) is its whole array. -/
theorem blk2_eq : iblk6 (F := Ideal) V c 2 t = V c main_arg9 := by
  funext y
  show V c main_arg9 (((cfg6.win 2).blk t).view.emb y) = V c main_arg9 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_2.index t (0 : Fin 2) * 256 + 1 * (y 0).val = (y 0).val; omega
  | ⟨1, _⟩ => show win6_2.index t (1 : Fin 2) * 128 + 1 * (y 1).val = (y 1).val; omega

/-- Input window 3's block (the first bias row) is its whole array. -/
theorem blk3_eq : iblk6 (F := Ideal) V c 3 t = V c main_v66 := by
  funext y
  show V c main_v66 (((cfg6.win 3).blk t).view.emb y) = V c main_v66 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_3.index t (0 : Fin 2) * 1 + 1 * (y 0).val = (y 0).val; omega
  | ⟨1, _⟩ => show win6_3.index t (1 : Fin 2) * 128 + 1 * (y 1).val = (y 1).val; omega

/-- Input window 4's block (the second weights) is its whole array. -/
theorem blk4_eq : iblk6 (F := Ideal) V c 4 t = V c main_arg11 := by
  funext y
  show V c main_arg11 (((cfg6.win 4).blk t).view.emb y) = V c main_arg11 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_4.index t (0 : Fin 2) * 128 + 1 * (y 0).val = (y 0).val; omega
  | ⟨1, _⟩ => show win6_4.index t (1 : Fin 2) * 64 + 1 * (y 1).val = (y 1).val; omega

/-- Input window 5's block (the second bias row) is its whole array. -/
theorem blk5_eq : iblk6 (F := Ideal) V c 5 t = V c main_v67 := by
  funext y
  show V c main_v67 (((cfg6.win 5).blk t).view.emb y) = V c main_v67 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_5.index t (0 : Fin 2) * 1 + 1 * (y 0).val = (y 0).val; omega
  | ⟨1, _⟩ => show win6_5.index t (1 : Fin 2) * 64 + 1 * (y 1).val = (y 1).val; omega

/-- Input window 6's block (the third weights) is its whole array. -/
theorem blk6_eq : iblk6 (F := Ideal) V c 6 t = V c main_arg13 := by
  funext y
  show V c main_arg13 (((cfg6.win 6).blk t).view.emb y) = V c main_arg13 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_6.index t (0 : Fin 2) * 64 + 1 * (y 0).val = (y 0).val; omega
  | ⟨1, _⟩ => show win6_6.index t (1 : Fin 2) * 10 + 1 * (y 1).val = (y 1).val; omega

/-- Input window 7's block (the third bias row) is its whole array. -/
theorem blk7_eq : iblk6 (F := Ideal) V c 7 t = V c main_v68 := by
  funext y
  show V c main_v68 (((cfg6.win 7).blk t).view.emb y) = V c main_v68 y
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show win6_7.index t (0 : Fin 2) * 1 + 1 * (y 0).val = (y 0).val; omega
  | ⟨1, _⟩ => show win6_7.index t (1 : Fin 2) * 10 + 1 * (y 1).val = (y 1).val; omega

/-- What the one point writes back through output window 9 is its block of the function of the arrays. -/
theorem flushed9_eq :
    (dat6 (F := Ideal) V c).flushed 9 t = ((cfg6.win 9).blk t).view.read (Elt Ideal)
        (Cert.Gcn.HeadFeat (G := 256) (C := 256) (H1 := 128) (H2 := 64) (V c main_v60) (V c main_v65) (V c main_arg9) (V c main_v66)
          (V c main_arg11) (V c main_v67)) := by
  show (cfg6.win 9).cut (grid6.coords t) ((dat6 V c).after 9 t) = _
  rw [after6_9, blk0_eq, blk1_eq, blk2_eq, blk3_eq, blk4_eq, blk5_eq]
  unfold out6_9
  rw [View.canon_unit_zero hz]
  simp only [View.ld_unit_zero (S := S256x1) hz, View.ld_unit_zero (S := S256x256) hz, View.ld_unit_zero (S := S256x128) hz, View.ld_unit_zero (S := S1x128) hz, View.ld_unit_zero (S := S128x64) hz, View.ld_unit_zero (S := S1x64) hz]
  rw [pay1_eq]
  funext j
  show (Cert.Gcn.HeadFeat (G := 256) (C := 256) (H1 := 128) (H2 := 64) (V c main_v60) (V c main_v65) (V c main_arg9) (V c main_v66)
          (V c main_arg11) (V c main_v67)) j
      = (Cert.Gcn.HeadFeat (G := 256) (C := 256) (H1 := 128) (H2 := 64) (V c main_v60) (V c main_v65) (V c main_arg9) (V c main_v66)
          (V c main_arg11) (V c main_v67)) (((cfg6.win 9).blk t).view.emb j)
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show (j 0).val = win6_9.index t (0 : Fin 2) * 256 + 1 * (j 0).val; omega
  | ⟨1, _⟩ => show (j 1).val = win6_9.index t (1 : Fin 2) * 64 + 1 * (j 1).val; omega

/-- An index of the array is in the point's block iff each coordinate is in the block's range on its axis. -/
theorem mem_blk9 (i : S256x64.Idx) :
    i ∈ ((cfg6.win 9).blk t).view.set ↔ ∀ a : Fin 2, win6_9.index t a * S256x64.size a ≤ (i a).val ∧ (i a).val < win6_9.index t a * S256x64.size a + S256x64.size a := by
  show i ∈ ((View.whole main_v69_1).slice (win6_9.rect t)).set ↔ _
  rw [View.set_slice_whole, Rect.mem_set_unit]
  exact Iff.rfl

/-- What the one point writes back through output window 8 is its block of the function of the arrays. -/
theorem flushed8_eq :
    (dat6 (F := Ideal) V c).flushed 8 t = ((cfg6.win 8).blk t).view.read (Elt Ideal)
        (Cert.Gcn.Dense (A := 256) (K := 64) (B := 10)
          (Cert.Gcn.HeadFeat (G := 256) (C := 256) (H1 := 128) (H2 := 64) (V c main_v60) (V c main_v65) (V c main_arg9) (V c main_v66)
          (V c main_arg11) (V c main_v67))
          (V c main_arg13) (V c main_v68)) := by
  show (cfg6.win 8).cut (grid6.coords t) ((dat6 V c).after 8 t) = _
  rw [after6_8, blk0_eq, blk1_eq, blk2_eq, blk3_eq, blk4_eq, blk5_eq, blk6_eq, blk7_eq]
  unfold out6_8
  rw [View.canon_unit_zero hz]
  simp only [View.ld_unit_zero (S := S256x1) hz, View.ld_unit_zero (S := S256x256) hz, View.ld_unit_zero (S := S256x128) hz, View.ld_unit_zero (S := S1x128) hz, View.ld_unit_zero (S := S128x64) hz, View.ld_unit_zero (S := S1x64) hz, View.ld_unit_zero (S := S64x10) hz, View.ld_unit_zero (S := S1x10) hz]
  rw [pay2_eq]
  funext j
  show (Cert.Gcn.Dense (A := 256) (K := 64) (B := 10)
          (Cert.Gcn.HeadFeat (G := 256) (C := 256) (H1 := 128) (H2 := 64) (V c main_v60) (V c main_v65) (V c main_arg9) (V c main_v66)
          (V c main_arg11) (V c main_v67))
          (V c main_arg13) (V c main_v68)) j
      = (Cert.Gcn.Dense (A := 256) (K := 64) (B := 10)
          (Cert.Gcn.HeadFeat (G := 256) (C := 256) (H1 := 128) (H2 := 64) (V c main_v60) (V c main_v65) (V c main_arg9) (V c main_v66)
          (V c main_arg11) (V c main_v67))
          (V c main_arg13) (V c main_v68)) (((cfg6.win 8).blk t).view.emb j)
  refine congrArg _ (funext fun a => Fin.ext ?_)
  obtain ⟨e00, e01, e10, e11, e20, e21, e30, e31, e40, e41, e50, e51, e60, e61, e70, e71, e80, e81, e90, e91⟩ := idx_facts t
  match a with
  | ⟨0, _⟩ => show (j 0).val = win6_8.index t (0 : Fin 2) * 256 + 1 * (j 0).val; omega
  | ⟨1, _⟩ => show (j 1).val = win6_8.index t (1 : Fin 2) * 10 + 1 * (j 1).val; omega

/-- An index of the array is in the point's block iff each coordinate is in the block's range on its axis. -/
theorem mem_blk8 (i : S256x10.Idx) :
    i ∈ ((cfg6.win 8).blk t).view.set ↔ ∀ a : Fin 2, win6_8.index t a * S256x10.size a ≤ (i a).val ∧ (i a).val < win6_8.index t a * S256x10.size a + S256x10.size a := by
  show i ∈ ((View.whole main_v69_0).slice (win6_8.rect t)).set ↔ _
  rw [View.set_slice_whole, Rect.mem_set_unit]
  exact Iff.rfl

end Blocks

/-- Every index of output window 9's array lies in the one point's block. -/
theorem cover9 (i : S256x64.Idx) : ∃ t : Fin cfg6.N, (cfg6.win 9).flush t = true ∧ i ∈ ((cfg6.win 9).blk t).view.set := by
  refine ⟨t6_0, flush6_9 t6_0, ?_⟩
  rw [mem_blk9]
  obtain ⟨e00, e01, e10, e11, e20, e21, e30, e31, e40, e41, e50, e51, e60, e61, e70, e71, e80, e81, e90, e91⟩ := idx_facts t6_0
  have hi0 : (i 0).val < 256 := (i 0).isLt
  have hi1 : (i 1).val < 64 := (i 1).isLt
  intro a
  match a with
  | ⟨0, _⟩ => show win6_9.index t6_0 (0 : Fin 2) * 256 ≤ (i 0).val ∧ (i 0).val < win6_9.index t6_0 (0 : Fin 2) * 256 + 256; omega
  | ⟨1, _⟩ => show win6_9.index t6_0 (1 : Fin 2) * 64 ≤ (i 1).val ∧ (i 1).val < win6_9.index t6_0 (1 : Fin 2) * 64 + 64; omega

/-- Every index of output window 8's array lies in the one point's block. -/
theorem cover8 (i : S256x10.Idx) : ∃ t : Fin cfg6.N, (cfg6.win 8).flush t = true ∧ i ∈ ((cfg6.win 8).blk t).view.set := by
  refine ⟨t6_0, flush6_8 t6_0, ?_⟩
  rw [mem_blk8]
  obtain ⟨e00, e01, e10, e11, e20, e21, e30, e31, e40, e41, e50, e51, e60, e61, e70, e71, e80, e81, e90, e91⟩ := idx_facts t6_0
  have hi0 : (i 0).val < 256 := (i 0).isLt
  have hi1 : (i 1).val < 10 := (i 1).isLt
  intro a
  match a with
  | ⟨0, _⟩ => show win6_8.index t6_0 (0 : Fin 2) * 256 ≤ (i 0).val ∧ (i 0).val < win6_8.index t6_0 (0 : Fin 2) * 256 + 256; omega
  | ⟨1, _⟩ => show win6_8.index t6_0 (1 : Fin 2) * 10 ≤ (i 1).val ∧ (i 1).val < win6_8.index t6_0 (1 : Fin 2) * 10 + 10; omega

/-- The hidden features (output window 9). -/
theorem final_feat (V : (c : Dev nD) → (b : Ref sig .tc) → Buf (Elt Ideal) ((c : Thread nD τ).loc b)) (c : Dev nD) :
    (dat6 (F := Ideal) V c).arrAt 9 cfg6.N
      = Cert.Gcn.HeadFeat (G := 256) (C := 256) (H1 := 128) (H2 := 64) (V c main_v60) (V c main_v65) (V c main_arg9) (V c main_v66)
          (V c main_arg11) (V c main_v67) :=
  (dat6 (F := Ideal) V c).arrAt_eq_of_cover 9 _ (fun t _ => flushed9_eq V c t) (fun i => cover9 i)

/-- The class scores (output window 8). -/
theorem final_scores (V : (c : Dev nD) → (b : Ref sig .tc) → Buf (Elt Ideal) ((c : Thread nD τ).loc b)) (c : Dev nD) :
    (dat6 (F := Ideal) V c).arrAt 8 cfg6.N
      = Cert.Gcn.Dense (A := 256) (K := 64) (B := 10)
          (Cert.Gcn.HeadFeat (G := 256) (C := 256) (H1 := 128) (H2 := 64) (V c main_v60) (V c main_v65) (V c main_arg9) (V c main_v66)
            (V c main_arg11) (V c main_v67))
          (V c main_arg13) (V c main_v68) :=
  (dat6 (F := Ideal) V c).arrAt_eq_of_cover 8 _ (fun t _ => flushed8_eq V c t) (fun i => cover8 i)

end Cert.Gcn.RegHead

end
-- ==== Proof.KValue.lean ====
/-
  The tiled program's two results as functions of its arguments: walking its segments from the launch memory, each
  region's output array is that region's function of the arrays it reads, each host stretch's result its operations'
  term, and nothing in between rewrites the arguments, the edge lists or the degree column. The class scores end at
  `scoresOfK` and the hidden features at `featOfK` of three layers `layerK128`, `layerK128`, `layerK256` of the arguments.
-/
import proofs.«141883_j50397146251362_2_alg».proof.Proof.KHost
import proofs.«141883_j50397146251362_2_alg».proof.Proof.RegLS0
import proofs.«141883_j50397146251362_2_alg».proof.Proof.RegLS2
import proofs.«141883_j50397146251362_2_alg».proof.Proof.RegLS4
import proofs.«141883_j50397146251362_2_alg».proof.Proof.RegBA1
import proofs.«141883_j50397146251362_2_alg».proof.Proof.RegBA3
import proofs.«141883_j50397146251362_2_alg».proof.Proof.RegBA5
import proofs.«141883_j50397146251362_2_alg».proof.Proof.RegHead

set_option maxRecDepth 16384

noncomputable section

namespace Cert.Gcn.KValue

open Cert.KernelIdeal Cert.KernelIdeal.Gen Idealize.ShloMosaic Idealize.ShloMosaic.TcCoe Idealize.SL.Sem
open Idealize.ShloMosaic.StableHlo Cert.Gcn.KHost

variable (m : (ℓ : Loc nD τ sig) → Buf (Elt Ideal) ℓ) (ρ : Dev nD → PrngReg) (c : Dev nD)

/-! ## A kept buffer at every later boundary holds what it held at region 0's entry -/

theorem k4 (b : Ref sig .tc) (hb : b ∈ keepList) : W4 m ρ c (Proc.devRef .tc b) = W3 m ρ c (Proc.devRef .tc b) := keep4 m ρ c b hb
theorem k5 (b : Ref sig .tc) (hb : b ∈ keepList) : W5 m ρ c (Proc.devRef .tc b) = W3 m ρ c (Proc.devRef .tc b) := (keep5 m ρ c b hb).trans (k4 m ρ c b hb)
theorem k6 (b : Ref sig .tc) (hb : b ∈ keepList) : W6 m ρ c (Proc.devRef .tc b) = W3 m ρ c (Proc.devRef .tc b) := (keep6 m ρ c b hb).trans (k5 m ρ c b hb)
theorem k7 (b : Ref sig .tc) (hb : b ∈ keepList) : W7 m ρ c (Proc.devRef .tc b) = W3 m ρ c (Proc.devRef .tc b) := (keep7 m ρ c b hb).trans (k6 m ρ c b hb)
theorem k8 (b : Ref sig .tc) (hb : b ∈ keepList) : W8 m ρ c (Proc.devRef .tc b) = W3 m ρ c (Proc.devRef .tc b) := (keep8 m ρ c b hb).trans (k7 m ρ c b hb)
theorem k9 (b : Ref sig .tc) (hb : b ∈ keepList) : W9 m ρ c (Proc.devRef .tc b) = W3 m ρ c (Proc.devRef .tc b) := (keep9 m ρ c b hb).trans (k8 m ρ c b hb)
theorem k10 (b : Ref sig .tc) (hb : b ∈ keepList) : W10 m ρ c (Proc.devRef .tc b) = W3 m ρ c (Proc.devRef .tc b) := (keep10 m ρ c b hb).trans (k9 m ρ c b hb)
theorem k11 (b : Ref sig .tc) (hb : b ∈ keepList) : W11 m ρ c (Proc.devRef .tc b) = W3 m ρ c (Proc.devRef .tc b) := (keep11 m ρ c b hb).trans (k10 m ρ c b hb)
theorem k12 (b : Ref sig .tc) (hb : b ∈ keepList) : W12 m ρ c (Proc.devRef .tc b) = W3 m ρ c (Proc.devRef .tc b) := (keep12 m ρ c b hb).trans (k11 m ρ c b hb)
theorem k13 (b : Ref sig .tc) (hb : b ∈ keepList) : W13 m ρ c (Proc.devRef .tc b) = W3 m ρ c (Proc.devRef .tc b) := (keep13 m ρ c b hb).trans (k12 m ρ c b hb)

/-! ## Layer 1 -/

theorem v16 : W4 m ρ c (Proc.devRef .tc main_v16)
    = LS (A := 50000) (K := 128) (B := 128) (m ((c : Thread nD τ).loc main_arg0)) (m ((c : Thread nD τ).loc main_arg3)) (d2dK (m ((c : Thread nD τ).loc main_arg1))) := by
  refine (W4_arr m ρ c 3).trans ((Cert.Gcn.RegLS0.final (V3 m ρ) c).trans ?_)
  show LS (A := 50000) (K := 128) (B := 128) (W3 m ρ c (Proc.devRef .tc main_arg0)) (W3 m ρ c (Proc.devRef .tc main_arg3)) (W3 m ρ c (Proc.devRef .tc main_v15)) = _
  rw [W3_arg m ρ c main_arg0 (by decide), W3_arg m ρ c main_arg3 (by decide), W3_v15 m ρ c]

theorem h1 : W6 m ρ c (Proc.devRef .tc main_v29) = (layerK128 (m ((c : Thread nD τ).loc main_arg0)) (m ((c : Thread nD τ).loc main_arg3)) (m ((c : Thread nD τ).loc main_arg4)) (m ((c : Thread nD τ).loc main_arg1))) := by
  refine (W6_arr m ρ c 3).trans ((Cert.Gcn.RegBA1.final (V5 m ρ) c).trans ?_)
  show BAr (A := 50000) (B := 128) (StableHlo.after hostOps1 (W4 m ρ c) (Proc.devRef .tc main_v27)) (W5 m ρ c (Proc.devRef .tc main_v15))
      (StableHlo.after hostOps1 (W4 m ρ c) (Proc.devRef .tc main_v28)) = _
  rw [hostOps1_v27 (W4 m ρ c) (m ((c : Thread nD τ).loc main_arg1)) ((k4 m ρ c main_v3 (by decide)).trans (W3_v3 m ρ c)) ((k4 m ρ c main_v6 (by decide)).trans (W3_v6 m ρ c)),
    hostOps1_v28, v16 m ρ c, k5 m ρ c main_v15 (by decide), W3_v15 m ρ c, k4 m ρ c main_arg4 (by decide), W3_arg m ρ c main_arg4 (by decide)]
  rfl

/-! ## Layer 2 -/

theorem v30 : W7 m ρ c (Proc.devRef .tc main_v30)
    = LS (A := 50000) (K := 128) (B := 128) (layerK128 (m ((c : Thread nD τ).loc main_arg0)) (m ((c : Thread nD τ).loc main_arg3)) (m ((c : Thread nD τ).loc main_arg4)) (m ((c : Thread nD τ).loc main_arg1))) (m ((c : Thread nD τ).loc main_arg5)) (d2dK (m ((c : Thread nD τ).loc main_arg1))) := by
  refine (W7_arr m ρ c 3).trans ((Cert.Gcn.RegLS2.final (V6 m ρ) c).trans ?_)
  show LS (A := 50000) (K := 128) (B := 128) (W6 m ρ c (Proc.devRef .tc main_v29)) (W6 m ρ c (Proc.devRef .tc main_arg5)) (W6 m ρ c (Proc.devRef .tc main_v15)) = _
  rw [h1 m ρ c, k6 m ρ c main_arg5 (by decide), W3_arg m ρ c main_arg5 (by decide), k6 m ρ c main_v15 (by decide), W3_v15 m ρ c]

theorem h2 : W9 m ρ c (Proc.devRef .tc main_v43) = (layerK128 (layerK128 (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) := by
  refine (W9_arr m ρ c 3).trans ((Cert.Gcn.RegBA3.final (V8 m ρ) c).trans ?_)
  show BAr (A := 50000) (B := 128) (StableHlo.after hostOps3 (W7 m ρ c) (Proc.devRef .tc main_v41)) (W8 m ρ c (Proc.devRef .tc main_v15))
      (StableHlo.after hostOps3 (W7 m ρ c) (Proc.devRef .tc main_v42)) = _
  rw [hostOps3_v41 (W7 m ρ c) (m ((c : Thread nD τ).loc main_arg1)) ((k7 m ρ c main_v3 (by decide)).trans (W3_v3 m ρ c)) ((k7 m ρ c main_v6 (by decide)).trans (W3_v6 m ρ c)),
    hostOps3_v42, v30 m ρ c, k8 m ρ c main_v15 (by decide), W3_v15 m ρ c, k7 m ρ c main_arg6 (by decide), W3_arg m ρ c main_arg6 (by decide)]
  rfl

/-! ## Layer 3 -/

theorem v44 : W10 m ρ c (Proc.devRef .tc main_v44)
    = LS (A := 50000) (K := 128) (B := 256) (layerK128 (layerK128 (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (d2dK (m ((c : Thread nD τ).loc main_arg1))) := by
  refine (W10_arr m ρ c 3).trans ((Cert.Gcn.RegLS4.final (V9 m ρ) c).trans ?_)
  show LS (A := 50000) (K := 128) (B := 256) (W9 m ρ c (Proc.devRef .tc main_v43)) (W9 m ρ c (Proc.devRef .tc main_arg7)) (W9 m ρ c (Proc.devRef .tc main_v15)) = _
  rw [h2 m ρ c, k9 m ρ c main_arg7 (by decide), W3_arg m ρ c main_arg7 (by decide), k9 m ρ c main_v15 (by decide), W3_v15 m ρ c]

theorem h3 : W12 m ρ c (Proc.devRef .tc main_v57) = (layerK256 (layerK128 (layerK128 (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) := by
  refine (W12_arr m ρ c 3).trans ((Cert.Gcn.RegBA5.final (V11 m ρ) c).trans ?_)
  show BA (A := 50000) (B := 256) (StableHlo.after hostOps5 (W10 m ρ c) (Proc.devRef .tc main_v55)) (W11 m ρ c (Proc.devRef .tc main_v15))
      (StableHlo.after hostOps5 (W10 m ρ c) (Proc.devRef .tc main_v56)) = _
  rw [hostOps5_v55 (W10 m ρ c) (m ((c : Thread nD τ).loc main_arg1)) ((k10 m ρ c main_v3 (by decide)).trans (W3_v3 m ρ c)) ((k10 m ρ c main_v6 (by decide)).trans (W3_v6 m ρ c)),
    hostOps5_v56, v44 m ρ c, k11 m ρ c main_v15 (by decide), W3_v15 m ρ c, k10 m ρ c main_arg8 (by decide), W3_arg m ρ c main_arg8 (by decide)]
  rfl

/-! ## The readout head -/

theorem feat_eq : W14 m ρ c (Proc.devRef .tc main_v69_1) = (featOfK (layerK256 (layerK128 (layerK128 (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) (m ((c : Thread nD τ).loc main_arg2)) (m ((c : Thread nD τ).loc main_arg9)) (m ((c : Thread nD τ).loc main_arg10)) (m ((c : Thread nD τ).loc main_arg11)) (m ((c : Thread nD τ).loc main_arg12))) := by
  refine (W14_arr m ρ c 9).trans ((Cert.Gcn.RegHead.final_feat (V13 m ρ) c).trans ?_)
  show HeadFeat (G := 256) (C := 256) (H1 := 128) (H2 := 64) (StableHlo.after hostOps6 (W12 m ρ c) (Proc.devRef .tc main_v60))
      (StableHlo.after hostOps6 (W12 m ρ c) (Proc.devRef .tc main_v65)) (W13 m ρ c (Proc.devRef .tc main_arg9))
      (StableHlo.after hostOps6 (W12 m ρ c) (Proc.devRef .tc main_v66)) (W13 m ρ c (Proc.devRef .tc main_arg11))
      (StableHlo.after hostOps6 (W12 m ρ c) (Proc.devRef .tc main_v67)) = _
  rw [hostOps6_v60, hostOps6_v65, hostOps6_v66, hostOps6_v67, h3 m ρ c,
    k12 m ρ c main_arg2 (by decide), W3_arg m ρ c main_arg2 (by decide),
    k12 m ρ c main_arg10 (by decide), W3_arg m ρ c main_arg10 (by decide),
    k12 m ρ c main_arg12 (by decide), W3_arg m ρ c main_arg12 (by decide),
    k13 m ρ c main_arg9 (by decide), W3_arg m ρ c main_arg9 (by decide),
    k13 m ρ c main_arg11 (by decide), W3_arg m ρ c main_arg11 (by decide)]
  rfl

theorem scores_eq : W14 m ρ c (Proc.devRef .tc main_v69_0) = scoresOfK (featOfK (layerK256 (layerK128 (layerK128 (m ((c : Thread nD τ).loc main_arg0)) (m ((c : Thread nD τ).loc main_arg3)) (m ((c : Thread nD τ).loc main_arg4)) (m ((c : Thread nD τ).loc main_arg1))) (m ((c : Thread nD τ).loc main_arg5)) (m ((c : Thread nD τ).loc main_arg6)) (m ((c : Thread nD τ).loc main_arg1))) (m ((c : Thread nD τ).loc main_arg7)) (m ((c : Thread nD τ).loc main_arg8)) (m ((c : Thread nD τ).loc main_arg1))) (m ((c : Thread nD τ).loc main_arg2)) (m ((c : Thread nD τ).loc main_arg9)) (m ((c : Thread nD τ).loc main_arg10)) (m ((c : Thread nD τ).loc main_arg11)) (m ((c : Thread nD τ).loc main_arg12))) (m ((c : Thread nD τ).loc main_arg13)) (m ((c : Thread nD τ).loc main_arg14)) := by
  refine (W14_arr m ρ c 8).trans ((Cert.Gcn.RegHead.final_scores (V13 m ρ) c).trans ?_)
  show Dense (A := 256) (K := 64) (B := 10)
      (HeadFeat (G := 256) (C := 256) (H1 := 128) (H2 := 64) (StableHlo.after hostOps6 (W12 m ρ c) (Proc.devRef .tc main_v60))
        (StableHlo.after hostOps6 (W12 m ρ c) (Proc.devRef .tc main_v65)) (W13 m ρ c (Proc.devRef .tc main_arg9))
        (StableHlo.after hostOps6 (W12 m ρ c) (Proc.devRef .tc main_v66)) (W13 m ρ c (Proc.devRef .tc main_arg11))
        (StableHlo.after hostOps6 (W12 m ρ c) (Proc.devRef .tc main_v67)))
      (W13 m ρ c (Proc.devRef .tc main_arg13)) (StableHlo.after hostOps6 (W12 m ρ c) (Proc.devRef .tc main_v68)) = _
  rw [hostOps6_v60, hostOps6_v65, hostOps6_v66, hostOps6_v67, hostOps6_v68, h3 m ρ c,
    k12 m ρ c main_arg2 (by decide), W3_arg m ρ c main_arg2 (by decide),
    k12 m ρ c main_arg10 (by decide), W3_arg m ρ c main_arg10 (by decide),
    k12 m ρ c main_arg12 (by decide), W3_arg m ρ c main_arg12 (by decide),
    k12 m ρ c main_arg14 (by decide), W3_arg m ρ c main_arg14 (by decide),
    k13 m ρ c main_arg9 (by decide), W3_arg m ρ c main_arg9 (by decide),
    k13 m ρ c main_arg11 (by decide), W3_arg m ρ c main_arg11 (by decide),
    k13 m ρ c main_arg13 (by decide), W3_arg m ρ c main_arg13 (by decide)]
  rfl

end Cert.Gcn.KValue

end
-- ==== Proof.RStages.lean ====
/-
  The plain program's steps as terms of the argument arrays, at the ideal values. One convolution layer computes, for
  node j and channel q,
      (sum over the edges e that land on j of (h W)[src e, q] * (d[src e] * d[dst e])) + b[q]   (then max with 0),
  both degree factors applied edge by edge; the readout divides each graph's summed node rows by max(count, 1) and
  three dense layers follow.
-/
import proofs.«141883_j50397146251362_2_alg».proof.Proof.Gen.ReferenceIdeal
import Idealize.ShloMosaic.PureOps.Ideal

noncomputable section

namespace Cert.Gcn.R

open Idealize.ShloMosaic Cert.ReferenceIdeal Cert.ReferenceIdeal.Facts₀

/-- Edge sources and targets with one self-loop per node appended. -/
def src (a1 : IVec S2x800000 32) : IVec S850000 32 :=
  concatenate S850000 0 [⟨S800000, shapeCast S800000 (extractStridedSlice S1x800000 ![0, 0] a1 slices_S2x800000_S1x800000_0_0) shapeCasts_S1x800000_S800000⟩, ⟨S50000, iotaInDim S50000 32 0⟩] concatenates_S800000_S50000_S850000_d0
def dst (a1 : IVec S2x800000 32) : IVec S850000 32 :=
  concatenate S850000 0 [⟨S800000, shapeCast S800000 (extractStridedSlice S1x800000 ![1, 0] a1 slices_S2x800000_S1x800000_1_0) shapeCasts_S1x800000_S800000⟩, ⟨S50000, iotaInDim S50000 32 0⟩] concatenates_S800000_S50000_S850000_d0

/-- A vector of node ids, a negative one wrapped by the node count, as a column of gather indices. -/
def wrapIdx (v : IVec S850000 32) : IVec S850000x1 32 :=
  broadcastInDim S850000x1 ![0] bcast_S850000_S850000x1_0
    (select (cmpi .slt v (broadcastInDim S850000 ![] bcast_S_S850000 (constantI S_ 32 0#32)))
      (addi v (broadcastInDim S850000 ![] bcast_S_S850000 (constantI S_ 32 50000#32))) v)

/-- The targets as a column of scatter indices. -/
def dstIdx (a1 : IVec S2x800000 32) : IVec S850000x1 32 :=
  broadcastInDim S850000x1 ![0] bcast_S850000_S850000x1_0 (dst a1)

/-- In-degrees (self-loops counted), and the degree factor: rsqrt of a positive degree, 0.0 otherwise. -/
def deg (a1 : IVec S2x800000 32) : FVec Ideal S50000 .f32 :=
  Host.scatterAdd (F := Ideal) scatter_S50000_S850000x1_S850000_n_0_0_1
    (broadcastInDim S50000 ![] bcast_S_S50000 (constant (F := Ideal) S_ .f32 0x00000000#32)) (dstIdx a1)
    (broadcastInDim S850000 ![] bcast_S_S850000 (constant (F := Ideal) S_ .f32 0x3F800000#32))
def dis (a1 : IVec S2x800000 32) : FVec Ideal S50000 .f32 :=
  select (cmpf (F := Ideal) .ogt (deg a1) (broadcastInDim S50000 ![] bcast_S_S50000 (constant (F := Ideal) S_ .f32 0x00000000#32)))
    (Host.rsqrt (F := Ideal) (deg a1))
    (broadcastInDim S50000 ![] bcast_S_S50000 (id (constant (F := Ideal) S_ .f32 0x00000000#32)))

/-- The per-edge weight d[src e] * d[dst e], kept as a column. -/
def enorm (a1 : IVec S2x800000 32) : FVec Ideal S850000x1 .f32 :=
  broadcastInDim S850000x1 ![0] bcast_S850000_S850000x1_0
    (mulf (Host.gather gather_S50000_S850000x1_S850000_n_0_n_n_0_1_1 (dis a1) (wrapIdx (src a1)))
          (Host.gather gather_S50000_S850000x1_S850000_n_0_n_n_0_1_1 (dis a1) (wrapIdx (dst a1))))

/-- One convolution layer, 128 -> 128 channels with the maximum with 0.0. -/
def layerR128 (h : FVec Ideal S50000x128 .f32) (w : FVec Ideal S128x128 .f32) (b : FVec Ideal S128 .f32)
    (a1 : IVec S2x800000 32) : FVec Ideal S50000x128 .f32 :=
  maximumf
    (addf
      (Host.scatterAdd (F := Ideal) scatter_S50000x128_S850000x1_S850000x128_1_0_0_1
        (broadcastInDim S50000x128 ![] bcast_S_S50000x128 (constant (F := Ideal) S_ .f32 0x00000000#32)) (dstIdx a1)
        (mulf (Host.gather gather_S50000x128_S850000x1_S850000x128_1_0_n_n_0_1_1128
                (Host.dotGeneral (F := Ideal) dot_S50000x128_S128x128_S50000x128_1_0_0_1_n_n none h w) (wrapIdx (src a1)))
              (broadcastInDim S850000x128 ![0, 1] bcast_S850000x1_S850000x128_0_1 (enorm a1))))
      (broadcastInDim S50000x128 ![0, 1] bcast_S1x128_S50000x128_0_1 (broadcastInDim S1x128 ![1] bcast_S128_S1x128_1 b)))
    (broadcastInDim S50000x128 ![] bcast_S_S50000x128 (constant (F := Ideal) S_ .f32 0x00000000#32))

/-- The last convolution layer, 128 -> 256 channels, no maximum. -/
def layerR256 (h : FVec Ideal S50000x128 .f32) (w : FVec Ideal S128x256 .f32) (b : FVec Ideal S256 .f32)
    (a1 : IVec S2x800000 32) : FVec Ideal S50000x256 .f32 :=
  addf
    (Host.scatterAdd (F := Ideal) scatter_S50000x256_S850000x1_S850000x256_1_0_0_1
      (broadcastInDim S50000x256 ![] bcast_S_S50000x256 (constant (F := Ideal) S_ .f32 0x00000000#32)) (dstIdx a1)
      (mulf (Host.gather gather_S50000x256_S850000x1_S850000x256_1_0_n_n_0_1_1256
              (Host.dotGeneral (F := Ideal) dot_S50000x128_S128x256_S50000x256_1_0_0_1_n_n none h w) (wrapIdx (src a1)))
            (broadcastInDim S850000x256 ![0, 1] bcast_S850000x1_S850000x256_0_1 (enorm a1))))
    (broadcastInDim S50000x256 ![0, 1] bcast_S1x256_S50000x256_0_1 (broadcastInDim S1x256 ![1] bcast_S256_S1x256_1 b))

/-- The hidden features of the readout head from the last layer's node rows. -/
def featOfR (h3 : FVec Ideal S50000x256 .f32) (a2 : IVec S50000 32) (w1 : FVec Ideal S256x128 .f32) (b1 : FVec Ideal S128 .f32)
    (w2 : FVec Ideal S128x64 .f32) (b2 : FVec Ideal S64 .f32) : FVec Ideal S256x64 .f32 :=
  maximumf
    (addf
      (Host.dotGeneral (F := Ideal) dot_S256x128_S128x64_S256x64_1_0_0_1_n_n none
        (maximumf
          (addf
            (Host.dotGeneral (F := Ideal) dot_S256x256_S256x128_S256x128_1_0_0_1_n_n none
              (Host.divf (F := Ideal)
                (Host.scatterAdd (F := Ideal) scatter_S256x256_S50000x1_S50000x256_1_0_0_1
                  (broadcastInDim S256x256 ![] bcast_S_S256x256 (constant (F := Ideal) S_ .f32 0x00000000#32))
                  (broadcastInDim S50000x1 ![0] bcast_S50000_S50000x1_0 a2) h3)
                (broadcastInDim S256x256 ![0, 1] bcast_S256x1_S256x256_0_1
                  (broadcastInDim S256x1 ![0] bcast_S256_S256x1_0
                    (maximumf
                      (Host.scatterAdd (F := Ideal) scatter_S256_S50000x1_S50000_n_0_0_1
                        (broadcastInDim S256 ![] bcast_S_S256 (constant (F := Ideal) S_ .f32 0x00000000#32))
                        (broadcastInDim S50000x1 ![0] bcast_S50000_S50000x1_0 a2)
                        (broadcastInDim S50000 ![] bcast_S_S50000 (constant (F := Ideal) S_ .f32 0x3F800000#32)))
                      (broadcastInDim S256 ![] bcast_S_S256 (constant (F := Ideal) S_ .f32 0x3F800000#32))))))
              w1)
            (broadcastInDim S256x128 ![0, 1] bcast_S1x128_S256x128_0_1 (broadcastInDim S1x128 ![1] bcast_S128_S1x128_1 b1)))
          (broadcastInDim S256x128 ![] bcast_S_S256x128 (constant (F := Ideal) S_ .f32 0x00000000#32)))
        w2)
      (broadcastInDim S256x64 ![0, 1] bcast_S1x64_S256x64_0_1 (broadcastInDim S1x64 ![1] bcast_S64_S1x64_1 b2)))
    (broadcastInDim S256x64 ![] bcast_S_S256x64 (constant (F := Ideal) S_ .f32 0x00000000#32))

/-- The class scores from the hidden features. -/
def scoresOfR (feat : FVec Ideal S256x64 .f32) (w3 : FVec Ideal S64x10 .f32) (b3 : FVec Ideal S10 .f32) : FVec Ideal S256x10 .f32 :=
  addf (Host.dotGeneral (F := Ideal) dot_S256x64_S64x10_S256x10_1_0_0_1_n_n none feat w3)
    (broadcastInDim S256x10 ![0, 1] bcast_S1x10_S256x10_0_1 (broadcastInDim S1x10 ![1] bcast_S10_S1x10_1 b3))

end Cert.Gcn.R

end
-- ==== Proof.RefOps.lean ====
/-
  The plain program's @main as lists of its 138 host operations, in order and stretch by stretch; a called
  function's operations stand at the call, over that call's buffers.
-/
import proofs.«141883_j50397146251362_2_alg».proof.Proof.Gen.ReferenceIdeal
import Idealize.ShloMosaic.Lib.StableHlo.Run

noncomputable section

namespace Cert.Gcn.RefOps

open Cert.ReferenceIdeal Cert.ReferenceIdeal.Gen Idealize.ShloMosaic Idealize.ShloMosaic.TcCoe Idealize.SL.Sem Idealize.ShloMosaic.StableHlo

variable {F : FTy → Type} [FloatOps F]

/-- 7 operations: the edge sources and targets with the self-loops appended. -/
abbrev opsIdx : List (HloOp τ sig (Elt F)) :=
  [ StableHlo.nullary main_v0 (iotaInDim S50000 32 0),
    StableHlo.unary main_arg1 main_v1 ((extractStridedSlice S1x800000 ![0, 0] · slices_S2x800000_S1x800000_0_0) : (⟨S2x800000, .i32⟩ : BufTy).Contents (Elt F) → (⟨S1x800000, .i32⟩ : BufTy).Contents (Elt F)),
    StableHlo.reshape main_v1 main_v2 rfl shapeCasts_S1x800000_S800000,
    StableHlo.binary main_v2 main_v0 main_v3 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)),
    StableHlo.unary main_arg1 main_v4 ((extractStridedSlice S1x800000 ![1, 0] · slices_S2x800000_S1x800000_1_0) : (⟨S2x800000, .i32⟩ : BufTy).Contents (Elt F) → (⟨S1x800000, .i32⟩ : BufTy).Contents (Elt F)),
    StableHlo.reshape main_v4 main_v5 rfl shapeCasts_S1x800000_S800000,
    StableHlo.binary main_v5 main_v0 main_v6 ((fun a b => concatenate S850000 0 [⟨S800000, a⟩, ⟨S50000, b⟩] concatenates_S800000_S50000_S850000_d0) : (⟨S800000, .i32⟩ : BufTy).Contents (Elt F) → (⟨S50000, .i32⟩ : BufTy).Contents (Elt F) → (⟨S850000, .i32⟩ : BufTy).Contents (Elt F)) ]

/-- 34 operations: the degrees, the degree factor and the per-edge weight. -/
abbrev opsPre : List (HloOp τ sig (Elt F)) :=
  [ StableHlo.nullary main_cst (constant S_ .f32 0x3F800000#32),
    StableHlo.unary main_cst main_v7 (broadcastInDim S850000 ![] bcast_S_S850000 : (⟨S_, .f32⟩ : BufTy).Contents (Elt F) → (⟨S850000, .f32⟩ : BufTy).Contents (Elt F)),
    StableHlo.nullary main_cst_0 (constant S_ .f32 0x00000000#32),
    StableHlo.unary main_cst_0 main_v8 (broadcastInDim S50000 ![] bcast_S_S50000 : (⟨S_, .f32⟩ : BufTy).Contents (Elt F) → (⟨S50000, .f32⟩ : BufTy).Contents (Elt F)),
    StableHlo.unary main_v6 main_v9 (broadcastInDim S850000x1 ![0] bcast_S850000_S850000x1_0 : (⟨S850000, .i32⟩ : BufTy).Contents (Elt F) → (⟨S850000x1, .i32⟩ : BufTy).Contents (Elt F)),
    StableHlo.ternary main_v8 main_v9 main_v7 main_v10 ((fun x i u => Host.scatterAdd scatter_S50000_S850000x1_S850000_n_0_0_1 x i u) : (⟨S50000, .f32⟩ : BufTy).Contents (Elt F) → (⟨S850000x1, .i32⟩ : BufTy).Contents (Elt F) → (⟨S850000, .f32⟩ : BufTy).Contents (Elt F) → (⟨S50000, .f32⟩ : BufTy).Contents (Elt F)),
    StableHlo.nullary main_cst_1 (constant S_ .f32 0x00000000#32),
    StableHlo.unary main_cst_1 main_v11 (broadcastInDim S50000 ![] bcast_S_S50000 : (⟨S_, .f32⟩ : BufTy).Contents (Elt F) → (⟨S50000, .f32⟩ : BufTy).Contents (Elt F)),
    StableHlo.binary main_v10 main_v11 main_v12 (cmpf .ogt : (⟨S50000, .f32⟩ : BufTy).Contents (Elt F) → (⟨S50000, .f32⟩ : BufTy).Contents (Elt F) → (⟨S50000, .i1⟩ : BufTy).Contents (Elt F)),
    StableHlo.unary main_v10 main_v13 (Host.rsqrt : (⟨S50000, .f32⟩ : BufTy).Contents (Elt F) → (⟨S50000, .f32⟩ : BufTy).Contents (Elt F)),
    StableHlo.nullary main_cst_2 (constant S_ .f32 0x00000000#32),
    StableHlo.unary main_cst_2 main_call0_v0 (id : (⟨S_, .f32⟩ : BufTy).Contents (Elt F) → (⟨S_, .f32⟩ : BufTy).Contents (Elt F)),
    StableHlo.unary main_call0_v0 main_call0_v1 (broadcastInDim S50000 ![] bcast_S_S50000 : (⟨S_, .f32⟩ : BufTy).Contents (Elt F) → (⟨S50000, .f32⟩ : BufTy).Contents (Elt F)),
    StableHlo.ternary main_v12 main_v13 main_call0_v1 main_v14 (select : (⟨S50000, .i1⟩ : BufTy).Contents (Elt F) → (⟨S50000, .f32⟩ : BufTy).Contents (Elt F) → (⟨S50000, .f32⟩ : BufTy).Contents (Elt F) → (⟨S50000, .f32⟩ : BufTy).Contents (Elt F)),
    StableHlo.nullary main_c (constantI S_ 32 0#32),
    StableHlo.unary main_c main_v15 (broadcastInDim S850000 ![] bcast_S_S850000 : (⟨S_, .i32⟩ : BufTy).Contents (Elt F) → (⟨S850000, .i32⟩ : BufTy).Contents (Elt F)),
    StableHlo.binary main_v3 main_v15 main_v16 (cmpi .slt : (⟨S850000, .i32⟩ : BufTy).Contents (Elt F) → (⟨S850000, .i32⟩ : BufTy).Contents (Elt F) → (⟨S850000, .i1⟩ : BufTy).Contents (Elt F)),
    StableHlo.nullary main_c_3 (constantI S_ 32 50000#32),
    StableHlo.unary main_c_3 main_v17 (broadcastInDim S850000 ![] bcast_S_S850000 : (⟨S_, .i32⟩ : BufTy).Contents (Elt F) → (⟨S850000, .i32⟩ : BufTy).Contents (Elt F)),
    StableHlo.binary main_v3 main_v17 main_v18 (addi : (⟨S850000, .i32⟩ : BufTy).Contents (Elt F) → (⟨S850000, .i32⟩ : BufTy).Contents (Elt F) → (⟨S850000, .i32⟩ : BufTy).Contents (Elt F)),
    StableHlo.ternary main_v16 main_v18 main_v3 main_v19 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v19 main_v20 (broadcastInDim S850000x1 ![0] bcast_S850000_S850000x1_0 : (⟨S850000, .i32⟩ : BufTy).Contents (Elt F) → (⟨S850000x1, .i32⟩ : BufTy).Contents (Elt F)),
    StableHlo.binary main_v14 main_v20 main_v21 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.nullary main_c_4 (constantI S_ 32 0#32),
    StableHlo.unary main_c_4 main_v22 (broadcastInDim S850000 ![] bcast_S_S850000 : (⟨S_, .i32⟩ : BufTy).Contents (Elt F) → (⟨S850000, .i32⟩ : BufTy).Contents (Elt F)),
    StableHlo.binary main_v6 main_v22 main_v23 (cmpi .slt : (⟨S850000, .i32⟩ : BufTy).Contents (Elt F) → (⟨S850000, .i32⟩ : BufTy).Contents (Elt F) → (⟨S850000, .i1⟩ : BufTy).Contents (Elt F)),
    StableHlo.nullary main_c_5 (constantI S_ 32 50000#32),
    StableHlo.unary main_c_5 main_v24 (broadcastInDim S850000 ![] bcast_S_S850000 : (⟨S_, .i32⟩ : BufTy).Contents (Elt F) → (⟨S850000, .i32⟩ : BufTy).Contents (Elt F)),
    StableHlo.binary main_v6 main_v24 main_v25 (addi : (⟨S850000, .i32⟩ : BufTy).Contents (Elt F) → (⟨S850000, .i32⟩ : BufTy).Contents (Elt F) → (⟨S850000, .i32⟩ : BufTy).Contents (Elt F)),
    StableHlo.ternary main_v23 main_v25 main_v6 main_v26 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v26 main_v27 (broadcastInDim S850000x1 ![0] bcast_S850000_S850000x1_0 : (⟨S850000, .i32⟩ : BufTy).Contents (Elt F) → (⟨S850000x1, .i32⟩ : BufTy).Contents (Elt F)),
    StableHlo.binary main_v14 main_v27 main_v28 ((fun x i => Host.gather gather_S50000_S850000x1_S850000_n_0_n_n_0_1_1 x i) : (⟨S50000, .f32⟩ : BufTy).Contents (Elt F) → (⟨S850000x1, .i32⟩ : BufTy).Contents (Elt F) → (⟨S850000, .f32⟩ : BufTy).Contents (Elt F)),
    StableHlo.binary main_v21 main_v28 main_v29 (mulf : (⟨S850000, .f32⟩ : BufTy).Contents (Elt F) → (⟨S850000, .f32⟩ : BufTy).Contents (Elt F) → (⟨S850000, .f32⟩ : BufTy).Contents (Elt F)),
    StableHlo.unary main_v29 main_v30 (broadcastInDim S850000x1 ![0] bcast_S850000_S850000x1_0 : (⟨S850000, .f32⟩ : BufTy).Contents (Elt F) → (⟨S850000x1, .f32⟩ : BufTy).Contents (Elt F)) ]

/-- 22 operations: the first convolution layer. -/
abbrev opsL1 : List (HloOp τ sig (Elt F)) :=
  [ StableHlo.binary main_arg0 main_arg3 main_v31 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)),
    StableHlo.nullary main_c_6 (constantI S_ 32 0#32),
    StableHlo.unary main_c_6 main_v32 (broadcastInDim S850000 ![] bcast_S_S850000 : (⟨S_, .i32⟩ : BufTy).Contents (Elt F) → (⟨S850000, .i32⟩ : BufTy).Contents (Elt F)),
    StableHlo.binary main_v3 main_v32 main_v33 (cmpi .slt : (⟨S850000, .i32⟩ : BufTy).Contents (Elt F) → (⟨S850000, .i32⟩ : BufTy).Contents (Elt F) → (⟨S850000, .i1⟩ : BufTy).Contents (Elt F)),
    StableHlo.nullary main_c_7 (constantI S_ 32 50000#32),
    StableHlo.unary main_c_7 main_v34 (broadcastInDim S850000 ![] bcast_S_S850000 : (⟨S_, .i32⟩ : BufTy).Contents (Elt F) → (⟨S850000, .i32⟩ : BufTy).Contents (Elt F)),
    StableHlo.binary main_v3 main_v34 main_v35 (addi : (⟨S850000, .i32⟩ : BufTy).Contents (Elt F) → (⟨S850000, .i32⟩ : BufTy).Contents (Elt F) → (⟨S850000, .i32⟩ : BufTy).Contents (Elt F)),
    StableHlo.ternary main_v33 main_v35 main_v3 main_v36 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v36 main_v37 (broadcastInDim S850000x1 ![0] bcast_S850000_S850000x1_0 : (⟨S850000, .i32⟩ : BufTy).Contents (Elt F) → (⟨S850000x1, .i32⟩ : BufTy).Contents (Elt F)),
    StableHlo.binary main_v31 main_v37 main_v38 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v39 (broadcastInDim S850000x128 ![0, 1] bcast_S850000x1_S850000x128_0_1 : (⟨S850000x1, .f32⟩ : BufTy).Contents (Elt F) → (⟨S850000x128, .f32⟩ : BufTy).Contents (Elt F)),
    StableHlo.binary main_v38 main_v39 main_v40 (mulf : (⟨S850000x128, .f32⟩ : BufTy).Contents (Elt F) → (⟨S850000x128, .f32⟩ : BufTy).Contents (Elt F) → (⟨S850000x128, .f32⟩ : BufTy).Contents (Elt F)),
    StableHlo.nullary main_cst_8 (constant S_ .f32 0x00000000#32),
    StableHlo.unary main_cst_8 main_v41 (broadcastInDim S50000x128 ![] bcast_S_S50000x128 : (⟨S_, .f32⟩ : BufTy).Contents (Elt F) → (⟨S50000x128, .f32⟩ : BufTy).Contents (Elt F)),
    StableHlo.unary main_v6 main_v42 (broadcastInDim S850000x1 ![0] bcast_S850000_S850000x1_0 : (⟨S850000, .i32⟩ : BufTy).Contents (Elt F) → (⟨S850000x1, .i32⟩ : BufTy).Contents (Elt F)),
    StableHlo.ternary main_v41 main_v42 main_v40 main_v43 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg4 main_v44 (broadcastInDim S1x128 ![1] bcast_S128_S1x128_1 : (⟨S128, .f32⟩ : BufTy).Contents (Elt F) → (⟨S1x128, .f32⟩ : BufTy).Contents (Elt F)),
    StableHlo.unary main_v44 main_v45 (broadcastInDim S50000x128 ![0, 1] bcast_S1x128_S50000x128_0_1 : (⟨S1x128, .f32⟩ : BufTy).Contents (Elt F) → (⟨S50000x128, .f32⟩ : BufTy).Contents (Elt F)),
    StableHlo.binary main_v43 main_v45 main_v46 (addf : (⟨S50000x128, .f32⟩ : BufTy).Contents (Elt F) → (⟨S50000x128, .f32⟩ : BufTy).Contents (Elt F) → (⟨S50000x128, .f32⟩ : BufTy).Contents (Elt F)),
    StableHlo.nullary main_call1_cst (constant S_ .f32 0x00000000#32),
    StableHlo.unary main_call1_cst main_call1_v0 (broadcastInDim S50000x128 ![] bcast_S_S50000x128 : (⟨S_, .f32⟩ : BufTy).Contents (Elt F) → (⟨S50000x128, .f32⟩ : BufTy).Contents (Elt F)),
    StableHlo.binary main_v46 main_call1_v0 main_v47 (maximumf : (⟨S50000x128, .f32⟩ : BufTy).Contents (Elt F) → (⟨S50000x128, .f32⟩ : BufTy).Contents (Elt F) → (⟨S50000x128, .f32⟩ : BufTy).Contents (Elt F)) ]

/-- 1 operation: the second layer's product of the node rows with its weights. -/
abbrev opsL2a : List (HloOp τ sig (Elt F)) :=
  [ StableHlo.binary main_v47 main_arg5 main_v48 ((fun l r => Host.dotGeneral dot_S50000x128_S128x128_S50000x128_1_0_0_1_n_n none l r) : (⟨S50000x128, .f32⟩ : BufTy).Contents (Elt F) → (⟨S128x128, .f32⟩ : BufTy).Contents (Elt F) → (⟨S50000x128, .f32⟩ : BufTy).Contents (Elt F)) ]

/-- 21 operations: the rest of the second convolution layer. -/
abbrev opsL2b : List (HloOp τ sig (Elt F)) :=
  [ StableHlo.nullary main_c_9 (constantI S_ 32 0#32),
    StableHlo.unary main_c_9 main_v49 (broadcastInDim S850000 ![] bcast_S_S850000 : (⟨S_, .i32⟩ : BufTy).Contents (Elt F) → (⟨S850000, .i32⟩ : BufTy).Contents (Elt F)),
    StableHlo.binary main_v3 main_v49 main_v50 (cmpi .slt : (⟨S850000, .i32⟩ : BufTy).Contents (Elt F) → (⟨S850000, .i32⟩ : BufTy).Contents (Elt F) → (⟨S850000, .i1⟩ : BufTy).Contents (Elt F)),
    StableHlo.nullary main_c_10 (constantI S_ 32 50000#32),
    StableHlo.unary main_c_10 main_v51 (broadcastInDim S850000 ![] bcast_S_S850000 : (⟨S_, .i32⟩ : BufTy).Contents (Elt F) → (⟨S850000, .i32⟩ : BufTy).Contents (Elt F)),
    StableHlo.binary main_v3 main_v51 main_v52 (addi : (⟨S850000, .i32⟩ : BufTy).Contents (Elt F) → (⟨S850000, .i32⟩ : BufTy).Contents (Elt F) → (⟨S850000, .i32⟩ : BufTy).Contents (Elt F)),
    StableHlo.ternary main_v50 main_v52 main_v3 main_v53 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v53 main_v54 (broadcastInDim S850000x1 ![0] bcast_S850000_S850000x1_0 : (⟨S850000, .i32⟩ : BufTy).Contents (Elt F) → (⟨S850000x1, .i32⟩ : BufTy).Contents (Elt F)),
    StableHlo.binary main_v48 main_v54 main_v55 ((fun x i => Host.gather gather_S50000x128_S850000x1_S850000x128_1_0_n_n_0_1_1128 x i) : (⟨S50000x128, .f32⟩ : BufTy).Contents (Elt F) → (⟨S850000x1, .i32⟩ : BufTy).Contents (Elt F) → (⟨S850000x128, .f32⟩ : BufTy).Contents (Elt F)),
    StableHlo.unary main_v30 main_v56 (broadcastInDim S850000x128 ![0, 1] bcast_S850000x1_S850000x128_0_1 : (⟨S850000x1, .f32⟩ : BufTy).Contents (Elt F) → (⟨S850000x128, .f32⟩ : BufTy).Contents (Elt F)),
    StableHlo.binary main_v55 main_v56 main_v57 (mulf : (⟨S850000x128, .f32⟩ : BufTy).Contents (Elt F) → (⟨S850000x128, .f32⟩ : BufTy).Contents (Elt F) → (⟨S850000x128, .f32⟩ : BufTy).Contents (Elt F)),
    StableHlo.nullary main_cst_11 (constant S_ .f32 0x00000000#32),
    StableHlo.unary main_cst_11 main_v58 (broadcastInDim S50000x128 ![] bcast_S_S50000x128 : (⟨S_, .f32⟩ : BufTy).Contents (Elt F) → (⟨S50000x128, .f32⟩ : BufTy).Contents (Elt F)),
    StableHlo.unary main_v6 main_v59 (broadcastInDim S850000x1 ![0] bcast_S850000_S850000x1_0 : (⟨S850000, .i32⟩ : BufTy).Contents (Elt F) → (⟨S850000x1, .i32⟩ : BufTy).Contents (Elt F)),
    StableHlo.ternary main_v58 main_v59 main_v57 main_v60 ((fun x i u => Host.scatterAdd scatter_S50000x128_S850000x1_S850000x128_1_0_0_1 x i u) : (⟨S50000x128, .f32⟩ : BufTy).Contents (Elt F) → (⟨S850000x1, .i32⟩ : BufTy).Contents (Elt F) → (⟨S850000x128, .f32⟩ : BufTy).Contents (Elt F) → (⟨S50000x128, .f32⟩ : BufTy).Contents (Elt F)),
    StableHlo.unary main_arg6 main_v61 (broadcastInDim S1x128 ![1] bcast_S128_S1x128_1 : (⟨S128, .f32⟩ : BufTy).Contents (Elt F) → (⟨S1x128, .f32⟩ : BufTy).Contents (Elt F)),
    StableHlo.unary main_v61 main_v62 (broadcastInDim S50000x128 ![0, 1] bcast_S1x128_S50000x128_0_1 : (⟨S1x128, .f32⟩ : BufTy).Contents (Elt F) → (⟨S50000x128, .f32⟩ : BufTy).Contents (Elt F)),
    StableHlo.binary main_v60 main_v62 main_v63 (addf : (⟨S50000x128, .f32⟩ : BufTy).Contents (Elt F) → (⟨S50000x128, .f32⟩ : BufTy).Contents (Elt F) → (⟨S50000x128, .f32⟩ : BufTy).Contents (Elt F)),
    StableHlo.nullary main_call2_cst (constant S_ .f32 0x00000000#32),
    StableHlo.unary main_call2_cst main_call2_v0 (broadcastInDim S50000x128 ![] bcast_S_S50000x128 : (⟨S_, .f32⟩ : BufTy).Contents (Elt F) → (⟨S50000x128, .f32⟩ : BufTy).Contents (Elt F)),
    StableHlo.binary main_v63 main_call2_v0 main_v64 (maximumf : (⟨S50000x128, .f32⟩ : BufTy).Contents (Elt F) → (⟨S50000x128, .f32⟩ : BufTy).Contents (Elt F) → (⟨S50000x128, .f32⟩ : BufTy).Contents (Elt F)) ]

/-- 19 operations: the third convolution layer. -/
abbrev opsL3 : List (HloOp τ sig (Elt F)) :=
  [ StableHlo.binary main_v64 main_arg7 main_v65 ((fun l r => Host.dotGeneral dot_S50000x128_S128x256_S50000x256_1_0_0_1_n_n none l r) : (⟨S50000x128, .f32⟩ : BufTy).Contents (Elt F) → (⟨S128x256, .f32⟩ : BufTy).Contents (Elt F) → (⟨S50000x256, .f32⟩ : BufTy).Contents (Elt F)),
    StableHlo.nullary main_c_12 (constantI S_ 32 0#32),
    StableHlo.unary main_c_12 main_v66 (broadcastInDim S850000 ![] bcast_S_S850000 : (⟨S_, .i32⟩ : BufTy).Contents (Elt F) → (⟨S850000, .i32⟩ : BufTy).Contents (Elt F)),
    StableHlo.binary main_v3 main_v66 main_v67 (cmpi .slt : (⟨S850000, .i32⟩ : BufTy).Contents (Elt F) → (⟨S850000, .i32⟩ : BufTy).Contents (Elt F) → (⟨S850000, .i1⟩ : BufTy).Contents (Elt F)),
    StableHlo.nullary main_c_13 (constantI S_ 32 50000#32),
    StableHlo.unary main_c_13 main_v68 (broadcastInDim S850000 ![] bcast_S_S850000 : (⟨S_, .i32⟩ : BufTy).Contents (Elt F) → (⟨S850000, .i32⟩ : BufTy).Contents (Elt F)),
    StableHlo.binary main_v3 main_v68 main_v69 (addi : (⟨S850000, .i32⟩ : BufTy).Contents (Elt F) → (⟨S850000, .i32⟩ : BufTy).Contents (Elt F) → (⟨S850000, .i32⟩ : BufTy).Contents (Elt F)),
    StableHlo.ternary main_v67 main_v69 main_v3 main_v70 (select : (⟨S850000, .i1⟩ : BufTy).Contents (Elt F) → (⟨S850000, .i32⟩ : BufTy).Contents (Elt F) → (⟨S850000, .i32⟩ : BufTy).Contents (Elt F) → (⟨S850000, .i32⟩ : BufTy).Contents (Elt F)),
    StableHlo.unary main_v70 main_v71 (broadcastInDim S850000x1 ![0] bcast_S850000_S850000x1_0 : (⟨S850000, .i32⟩ : BufTy).Contents (Elt F) → (⟨S850000x1, .i32⟩ : BufTy).Contents (Elt F)),
    StableHlo.binary main_v65 main_v71 main_v72 ((fun x i => Host.gather gather_S50000x256_S850000x1_S850000x256_1_0_n_n_0_1_1256 x i) : (⟨S50000x256, .f32⟩ : BufTy).Contents (Elt F) → (⟨S850000x1, .i32⟩ : BufTy).Contents (Elt F) → (⟨S850000x256, .f32⟩ : BufTy).Contents (Elt F)),
    StableHlo.unary main_v30 main_v73 (broadcastInDim S850000x256 ![0, 1] bcast_S850000x1_S850000x256_0_1 : (⟨S850000x1, .f32⟩ : BufTy).Contents (Elt F) → (⟨S850000x256, .f32⟩ : BufTy).Contents (Elt F)),
    StableHlo.binary main_v72 main_v73 main_v74 (mulf : (⟨S850000x256, .f32⟩ : BufTy).Contents (Elt F) → (⟨S850000x256, .f32⟩ : BufTy).Contents (Elt F) → (⟨S850000x256, .f32⟩ : BufTy).Contents (Elt F)),
    StableHlo.nullary main_cst_14 (constant S_ .f32 0x00000000#32),
    StableHlo.unary main_cst_14 main_v75 (broadcastInDim S50000x256 ![] bcast_S_S50000x256 : (⟨S_, .f32⟩ : BufTy).Contents (Elt F) → (⟨S50000x256, .f32⟩ : BufTy).Contents (Elt F)),
    StableHlo.unary main_v6 main_v76 (broadcastInDim S850000x1 ![0] bcast_S850000_S850000x1_0 : (⟨S850000, .i32⟩ : BufTy).Contents (Elt F) → (⟨S850000x1, .i32⟩ : BufTy).Contents (Elt F)),
    StableHlo.ternary main_v75 main_v76 main_v74 main_v77 ((fun x i u => Host.scatterAdd scatter_S50000x256_S850000x1_S850000x256_1_0_0_1 x i u) : (⟨S50000x256, .f32⟩ : BufTy).Contents (Elt F) → (⟨S850000x1, .i32⟩ : BufTy).Contents (Elt F) → (⟨S850000x256, .f32⟩ : BufTy).Contents (Elt F) → (⟨S50000x256, .f32⟩ : BufTy).Contents (Elt F)),
    StableHlo.unary main_arg8 main_v78 (broadcastInDim S1x256 ![1] bcast_S256_S1x256_1 : (⟨S256, .f32⟩ : BufTy).Contents (Elt F) → (⟨S1x256, .f32⟩ : BufTy).Contents (Elt F)),
    StableHlo.unary main_v78 main_v79 (broadcastInDim S50000x256 ![0, 1] bcast_S1x256_S50000x256_0_1 : (⟨S1x256, .f32⟩ : BufTy).Contents (Elt F) → (⟨S50000x256, .f32⟩ : BufTy).Contents (Elt F)),
    StableHlo.binary main_v77 main_v79 main_v80 (addf : (⟨S50000x256, .f32⟩ : BufTy).Contents (Elt F) → (⟨S50000x256, .f32⟩ : BufTy).Contents (Elt F) → (⟨S50000x256, .f32⟩ : BufTy).Contents (Elt F)) ]

/-- 24 operations: the readout: the per-graph mean, the first dense layer and the second one's product. -/
abbrev opsHd1 : List (HloOp τ sig (Elt F)) :=
  [ StableHlo.nullary main_cst_15 (constant S_ .f32 0x00000000#32),
    StableHlo.unary main_cst_15 main_v81 (broadcastInDim S256x256 ![] bcast_S_S256x256 : (⟨S_, .f32⟩ : BufTy).Contents (Elt F) → (⟨S256x256, .f32⟩ : BufTy).Contents (Elt F)),
    StableHlo.unary main_arg2 main_v82 (broadcastInDim S50000x1 ![0] bcast_S50000_S50000x1_0 : (⟨S50000, .i32⟩ : BufTy).Contents (Elt F) → (⟨S50000x1, .i32⟩ : BufTy).Contents (Elt F)),
    StableHlo.ternary main_v81 main_v82 main_v80 main_v83 ((fun x i u => Host.scatterAdd scatter_S256x256_S50000x1_S50000x256_1_0_0_1 x i u) : (⟨S256x256, .f32⟩ : BufTy).Contents (Elt F) → (⟨S50000x1, .i32⟩ : BufTy).Contents (Elt F) → (⟨S50000x256, .f32⟩ : BufTy).Contents (Elt F) → (⟨S256x256, .f32⟩ : BufTy).Contents (Elt F)),
    StableHlo.nullary main_cst_16 (constant S_ .f32 0x3F800000#32),
    StableHlo.unary main_cst_16 main_v84 (broadcastInDim S50000 ![] bcast_S_S50000 : (⟨S_, .f32⟩ : BufTy).Contents (Elt F) → (⟨S50000, .f32⟩ : BufTy).Contents (Elt F)),
    StableHlo.nullary main_cst_17 (constant S_ .f32 0x00000000#32),
    StableHlo.unary main_cst_17 main_v85 (broadcastInDim S256 ![] bcast_S_S256 : (⟨S_, .f32⟩ : BufTy).Contents (Elt F) → (⟨S256, .f32⟩ : BufTy).Contents (Elt F)),
    StableHlo.unary main_arg2 main_v86 (broadcastInDim S50000x1 ![0] bcast_S50000_S50000x1_0 : (⟨S50000, .i32⟩ : BufTy).Contents (Elt F) → (⟨S50000x1, .i32⟩ : BufTy).Contents (Elt F)),
    StableHlo.ternary main_v85 main_v86 main_v84 main_v87 ((fun x i u => Host.scatterAdd scatter_S256_S50000x1_S50000_n_0_0_1 x i u) : (⟨S256, .f32⟩ : BufTy).Contents (Elt F) → (⟨S50000x1, .i32⟩ : BufTy).Contents (Elt F) → (⟨S50000, .f32⟩ : BufTy).Contents (Elt F) → (⟨S256, .f32⟩ : BufTy).Contents (Elt F)),
    StableHlo.nullary main_cst_18 (constant S_ .f32 0x3F800000#32),
    StableHlo.unary main_cst_18 main_v88 (broadcastInDim S256 ![] bcast_S_S256 : (⟨S_, .f32⟩ : BufTy).Contents (Elt F) → (⟨S256, .f32⟩ : BufTy).Contents (Elt F)),
    StableHlo.binary main_v87 main_v88 main_v89 (maximumf : (⟨S256, .f32⟩ : BufTy).Contents (Elt F) → (⟨S256, .f32⟩ : BufTy).Contents (Elt F) → (⟨S256, .f32⟩ : BufTy).Contents (Elt F)),
    StableHlo.unary main_v89 main_v90 (broadcastInDim S256x1 ![0] bcast_S256_S256x1_0 : (⟨S256, .f32⟩ : BufTy).Contents (Elt F) → (⟨S256x1, .f32⟩ : BufTy).Contents (Elt F)),
    StableHlo.unary main_v90 main_v91 (broadcastInDim S256x256 ![0, 1] bcast_S256x1_S256x256_0_1 : (⟨S256x1, .f32⟩ : BufTy).Contents (Elt F) → (⟨S256x256, .f32⟩ : BufTy).Contents (Elt F)),
    StableHlo.binary main_v83 main_v91 main_v92 (Host.divf : (⟨S256x256, .f32⟩ : BufTy).Contents (Elt F) → (⟨S256x256, .f32⟩ : BufTy).Contents (Elt F) → (⟨S256x256, .f32⟩ : BufTy).Contents (Elt F)),
    StableHlo.binary main_v92 main_arg9 main_v93 ((fun l r => Host.dotGeneral dot_S256x256_S256x128_S256x128_1_0_0_1_n_n none l r) : (⟨S256x256, .f32⟩ : BufTy).Contents (Elt F) → (⟨S256x128, .f32⟩ : BufTy).Contents (Elt F) → (⟨S256x128, .f32⟩ : BufTy).Contents (Elt F)),
    StableHlo.unary main_arg10 main_v94 (broadcastInDim S1x128 ![1] bcast_S128_S1x128_1 : (⟨S128, .f32⟩ : BufTy).Contents (Elt F) → (⟨S1x128, .f32⟩ : BufTy).Contents (Elt F)),
    StableHlo.unary main_v94 main_v95 (broadcastInDim S256x128 ![0, 1] bcast_S1x128_S256x128_0_1 : (⟨S1x128, .f32⟩ : BufTy).Contents (Elt F) → (⟨S256x128, .f32⟩ : BufTy).Contents (Elt F)),
    StableHlo.binary main_v93 main_v95 main_v96 (addf : (⟨S256x128, .f32⟩ : BufTy).Contents (Elt F) → (⟨S256x128, .f32⟩ : BufTy).Contents (Elt F) → (⟨S256x128, .f32⟩ : BufTy).Contents (Elt F)),
    StableHlo.nullary main_call3_cst (constant S_ .f32 0x00000000#32),
    StableHlo.unary main_call3_cst main_call3_v0 (broadcastInDim S256x128 ![] bcast_S_S256x128 : (⟨S_, .f32⟩ : BufTy).Contents (Elt F) → (⟨S256x128, .f32⟩ : BufTy).Contents (Elt F)),
    StableHlo.binary main_v96 main_call3_v0 main_v97 (maximumf : (⟨S256x128, .f32⟩ : BufTy).Contents (Elt F) → (⟨S256x128, .f32⟩ : BufTy).Contents (Elt F) → (⟨S256x128, .f32⟩ : BufTy).Contents (Elt F)),
    StableHlo.binary main_v97 main_arg11 main_v98 ((fun l r => Host.dotGeneral dot_S256x128_S128x64_S256x64_1_0_0_1_n_n none l r) : (⟨S256x128, .f32⟩ : BufTy).Contents (Elt F) → (⟨S128x64, .f32⟩ : BufTy).Contents (Elt F) → (⟨S256x64, .f32⟩ : BufTy).Contents (Elt F)) ]

/-- 6 operations: the second dense layer's bias and maximum with 0.0: the hidden features. -/
abbrev opsHd2 : List (HloOp τ sig (Elt F)) :=
  [ StableHlo.unary main_arg12 main_v99 (broadcastInDim S1x64 ![1] bcast_S64_S1x64_1 : (⟨S64, .f32⟩ : BufTy).Contents (Elt F) → (⟨S1x64, .f32⟩ : BufTy).Contents (Elt F)),
    StableHlo.unary main_v99 main_v100 (broadcastInDim S256x64 ![0, 1] bcast_S1x64_S256x64_0_1 : (⟨S1x64, .f32⟩ : BufTy).Contents (Elt F) → (⟨S256x64, .f32⟩ : BufTy).Contents (Elt F)),
    StableHlo.binary main_v98 main_v100 main_v101 (addf : (⟨S256x64, .f32⟩ : BufTy).Contents (Elt F) → (⟨S256x64, .f32⟩ : BufTy).Contents (Elt F) → (⟨S256x64, .f32⟩ : BufTy).Contents (Elt F)),
    StableHlo.nullary main_call4_cst (constant S_ .f32 0x00000000#32),
    StableHlo.unary main_call4_cst main_call4_v0 (broadcastInDim S256x64 ![] bcast_S_S256x64 : (⟨S_, .f32⟩ : BufTy).Contents (Elt F) → (⟨S256x64, .f32⟩ : BufTy).Contents (Elt F)),
    StableHlo.binary main_v101 main_call4_v0 main_v102 (maximumf : (⟨S256x64, .f32⟩ : BufTy).Contents (Elt F) → (⟨S256x64, .f32⟩ : BufTy).Contents (Elt F) → (⟨S256x64, .f32⟩ : BufTy).Contents (Elt F)) ]

/-- 4 operations: the class scores. -/
abbrev opsOut : List (HloOp τ sig (Elt F)) :=
  [ StableHlo.binary main_v102 main_arg13 main_v103 ((fun l r => Host.dotGeneral dot_S256x64_S64x10_S256x10_1_0_0_1_n_n none l r) : (⟨S256x64, .f32⟩ : BufTy).Contents (Elt F) → (⟨S64x10, .f32⟩ : BufTy).Contents (Elt F) → (⟨S256x10, .f32⟩ : BufTy).Contents (Elt F)),
    StableHlo.unary main_arg14 main_v104 (broadcastInDim S1x10 ![1] bcast_S10_S1x10_1 : (⟨S10, .f32⟩ : BufTy).Contents (Elt F) → (⟨S1x10, .f32⟩ : BufTy).Contents (Elt F)),
    StableHlo.unary main_v104 main_v105 (broadcastInDim S256x10 ![0, 1] bcast_S1x10_S256x10_0_1 : (⟨S1x10, .f32⟩ : BufTy).Contents (Elt F) → (⟨S256x10, .f32⟩ : BufTy).Contents (Elt F)),
    StableHlo.binary main_v103 main_v105 main_v106 (addf : (⟨S256x10, .f32⟩ : BufTy).Contents (Elt F) → (⟨S256x10, .f32⟩ : BufTy).Contents (Elt F) → (⟨S256x10, .f32⟩ : BufTy).Contents (Elt F)) ]

end Cert.Gcn.RefOps

end
-- ==== Proof.RefRun.lean ====
/-
  The plain program's run: every weakly fair execution of its @main terminates, nothing faulting, with the class
  scores and the hidden features at the layer-by-layer terms of the argument arrays (`R.layerR128` twice, `R.layerR256`,
  `R.featOfR`, `R.scoresOfR`) and every argument array as launched.
-/
import proofs.«141883_j50397146251362_2_alg».proof.Proof.Gen.ReferenceIdeal
import proofs.«141883_j50397146251362_2_alg».proof.Proof.RStages
import proofs.«141883_j50397146251362_2_alg».proof.Proof.RefOps
import Idealize.ShloMosaic.Lib.StableHlo.Run

noncomputable section

namespace Cert.Gcn.RefRun

open Cert.ReferenceIdeal Cert.ReferenceIdeal.Gen Idealize.ShloMosaic Idealize.ShloMosaic.TcCoe Idealize.SL.Sem Idealize.ShloMosaic.StableHlo
open Cert.Gcn.RefOps

/-! ### @main as a line of operations -/

/-- The three windows' operations. -/
def win0 : List (HloOp τ sig (Elt Ideal)) := opsIdx ++ (opsPre ++ (opsL1 ++ opsL2a))
def win1 : List (HloOp τ sig (Elt Ideal)) := opsL2b ++ (opsL3 ++ opsHd1)
def win2 : List (HloOp τ sig (Elt Ideal)) := opsHd2 ++ opsOut

set_option maxRecDepth 4096 in
theorem part0_eq (c : Dev nD) : main_part0 (F := Ideal) c = seq win0 := by
  simp only [main_part0, fn_where.body, fn_relu.body, win0, List.cons_append, List.nil_append, seq, bind_assoc, pure_bind]
  rfl

set_option maxRecDepth 4096 in
theorem part1_eq (c : Dev nD) : main_part1 (F := Ideal) c = seq win1 := by
  simp only [main_part1, fn_relu.body, fn_relu_0.body, win1, List.cons_append, List.nil_append, seq, bind_assoc, pure_bind]
  rfl

set_option maxRecDepth 4096 in
theorem part2_eq (c : Dev nD) : main_part2 (F := Ideal) c = seq win2 := by
  simp only [main_part2, fn_relu_1.body, win2, List.cons_append, List.nil_append, seq, bind_assoc, pure_bind]
  rfl

/-- Running two lines one after the other is running their concatenation. -/
theorem after_app : ∀ (l₁ l₂ : List (HloOp τ sig (Elt Ideal))) (V : Valuation τ sig (Elt Ideal)),
    after (l₁ ++ l₂) V = after l₂ (after l₁ V)
  | [], _, _ => rfl
  | op :: l₁, l₂, V => by rw [List.cons_append, after_cons, after_cons, after_app l₁ l₂]

/-- The stretches of the line, by what they compute. -/
def sIdx : List (HloOp τ sig (Elt Ideal)) := opsIdx
def sPre : List (HloOp τ sig (Elt Ideal)) := opsPre
def sL1 : List (HloOp τ sig (Elt Ideal)) := opsL1
def sL2 : List (HloOp τ sig (Elt Ideal)) := opsL2a ++ opsL2b
def sL3 : List (HloOp τ sig (Elt Ideal)) := opsL3
def sHd : List (HloOp τ sig (Elt Ideal)) := opsHd1 ++ opsHd2
def sOut : List (HloOp τ sig (Elt Ideal)) := opsOut

theorem idx_v3 (W : Valuation τ sig (Elt Ideal)) :
    after sIdx W (main_v3 : DevRef τ sig) = R.src (W (main_arg1 : DevRef τ sig)) := by
  unfold sIdx
  after_results_simp
  rfl

theorem idx_v6 (W : Valuation τ sig (Elt Ideal)) :
    after sIdx W (main_v6 : DevRef τ sig) = R.dst (W (main_arg1 : DevRef τ sig)) := by
  unfold sIdx
  after_results_simp
  rfl

theorem pre_v30 (W : Valuation τ sig (Elt Ideal)) (a1 : IVec S2x800000 32)
    (h3 : W (main_v3 : DevRef τ sig) = R.src a1) (h6 : W (main_v6 : DevRef τ sig) = R.dst a1) :
    after sPre W (main_v30 : DevRef τ sig) = R.enorm a1 := by
  unfold sPre
  after_results_simp
  rw [h3, h6]
  rfl

theorem l1_v47 (W : Valuation τ sig (Elt Ideal)) (a1 : IVec S2x800000 32)
    (h3 : W (main_v3 : DevRef τ sig) = R.src a1) (h6 : W (main_v6 : DevRef τ sig) = R.dst a1)
    (h30 : W (main_v30 : DevRef τ sig) = R.enorm a1) :
    after sL1 W (main_v47 : DevRef τ sig)
      = R.layerR128 (W (main_arg0 : DevRef τ sig)) (W (main_arg3 : DevRef τ sig)) (W (main_arg4 : DevRef τ sig)) a1 := by
  unfold sL1
  after_results_simp
  rw [h3, h6, h30]
  rfl

theorem l2_v64 (W : Valuation τ sig (Elt Ideal)) (a1 : IVec S2x800000 32)
    (h3 : W (main_v3 : DevRef τ sig) = R.src a1) (h6 : W (main_v6 : DevRef τ sig) = R.dst a1)
    (h30 : W (main_v30 : DevRef τ sig) = R.enorm a1) :
    after sL2 W (main_v64 : DevRef τ sig)
      = R.layerR128 (W (main_v47 : DevRef τ sig)) (W (main_arg5 : DevRef τ sig)) (W (main_arg6 : DevRef τ sig)) a1 := by
  unfold sL2
  simp only [List.cons_append, List.nil_append]
  after_results_simp
  rw [h3, h6, h30]
  rfl

theorem l3_v80 (W : Valuation τ sig (Elt Ideal)) (a1 : IVec S2x800000 32)
    (h3 : W (main_v3 : DevRef τ sig) = R.src a1) (h6 : W (main_v6 : DevRef τ sig) = R.dst a1)
    (h30 : W (main_v30 : DevRef τ sig) = R.enorm a1) :
    after sL3 W (main_v80 : DevRef τ sig)
      = R.layerR256 (W (main_v64 : DevRef τ sig)) (W (main_arg7 : DevRef τ sig)) (W (main_arg8 : DevRef τ sig)) a1 := by
  unfold sL3
  after_results_simp
  rw [h3, h6, h30]
  rfl

theorem hd_v102 (W : Valuation τ sig (Elt Ideal)) :
    after sHd W (main_v102 : DevRef τ sig)
      = R.featOfR (W (main_v80 : DevRef τ sig)) (W (main_arg2 : DevRef τ sig)) (W (main_arg9 : DevRef τ sig))
          (W (main_arg10 : DevRef τ sig)) (W (main_arg11 : DevRef τ sig)) (W (main_arg12 : DevRef τ sig)) := by
  unfold sHd
  simp only [List.cons_append, List.nil_append]
  after_results_simp
  rfl

theorem out_v106 (W : Valuation τ sig (Elt Ideal)) :
    after sOut W (main_v106 : DevRef τ sig)
      = R.scoresOfR (W (main_v102 : DevRef τ sig)) (W (main_arg13 : DevRef τ sig)) (W (main_arg14 : DevRef τ sig)) := by
  unfold sOut
  after_results_simp
  rfl

/-! ### What each stretch writes, and what it keeps -/

def wIdx : List (Ref sig .tc) := [main_v0, main_v1, main_v2, main_v3, main_v4, main_v5, main_v6]
def wPre : List (Ref sig .tc) :=
  [main_cst, main_v7, main_cst_0, main_v8, main_v9, main_v10, main_cst_1, main_v11, main_v12, main_v13, main_cst_2,
   main_call0_v0, main_call0_v1, main_v14, main_c, main_v15, main_v16, main_c_3, main_v17, main_v18, main_v19, main_v20,
   main_v21, main_c_4, main_v22, main_v23, main_c_5, main_v24, main_v25, main_v26, main_v27, main_v28, main_v29, main_v30]
def wL1 : List (Ref sig .tc) :=
  [main_v31, main_c_6, main_v32, main_v33, main_c_7, main_v34, main_v35, main_v36, main_v37, main_v38, main_v39, main_v40,
   main_cst_8, main_v41, main_v42, main_v43, main_v44, main_v45, main_v46, main_call1_cst, main_call1_v0, main_v47]
def wL2 : List (Ref sig .tc) :=
  [main_v48, main_c_9, main_v49, main_v50, main_c_10, main_v51, main_v52, main_v53, main_v54, main_v55, main_v56, main_v57,
   main_cst_11, main_v58, main_v59, main_v60, main_v61, main_v62, main_v63, main_call2_cst, main_call2_v0, main_v64]
def wL3 : List (Ref sig .tc) :=
  [main_v65, main_c_12, main_v66, main_v67, main_c_13, main_v68, main_v69, main_v70, main_v71, main_v72, main_v73, main_v74,
   main_cst_14, main_v75, main_v76, main_v77, main_v78, main_v79, main_v80]
def wHd : List (Ref sig .tc) :=
  [main_cst_15, main_v81, main_v82, main_v83, main_cst_16, main_v84, main_cst_17, main_v85, main_v86, main_v87, main_cst_18,
   main_v88, main_v89, main_v90, main_v91, main_v92, main_v93, main_v94, main_v95, main_v96, main_call3_cst, main_call3_v0,
   main_v97, main_v98, main_v99, main_v100, main_v101, main_call4_cst, main_call4_v0, main_v102]
def wOut : List (Ref sig .tc) := [main_v103, main_v104, main_v105, main_v106]

/-- Every operation of a stretch writes a buffer of the stretch's list. -/
macro "writes_sub" : tactic =>
  `(tactic| (simp only [opsIdx, opsPre, opsL1, opsL2a, opsL2b, opsL3, opsHd1, opsHd2, opsOut, List.cons_append, List.nil_append,
               List.Forall, nullary_writes, unary_writes, binary_writes, ternary_writes, reshape_writes,
               Finset.singleton_subset_iff, List.mem_toFinset]
             repeat' apply And.intro
             all_goals exact List.mem_map_of_mem (f := Proc.devRef (τ := τ) .tc) (by decide)))

theorem wIdx_sub : sIdx.Forall fun op => op.writes ⊆ (wIdx.map (Proc.devRef (τ := τ) .tc)).toFinset := by
  unfold sIdx wIdx; writes_sub
theorem wPre_sub : sPre.Forall fun op => op.writes ⊆ (wPre.map (Proc.devRef (τ := τ) .tc)).toFinset := by
  unfold sPre wPre; writes_sub
theorem wL1_sub : sL1.Forall fun op => op.writes ⊆ (wL1.map (Proc.devRef (τ := τ) .tc)).toFinset := by
  unfold sL1 wL1; writes_sub
theorem wL2_sub : sL2.Forall fun op => op.writes ⊆ (wL2.map (Proc.devRef (τ := τ) .tc)).toFinset := by
  unfold sL2 wL2; writes_sub
theorem wL3_sub : sL3.Forall fun op => op.writes ⊆ (wL3.map (Proc.devRef (τ := τ) .tc)).toFinset := by
  unfold sL3 wL3; writes_sub
theorem wHd_sub : sHd.Forall fun op => op.writes ⊆ (wHd.map (Proc.devRef (τ := τ) .tc)).toFinset := by
  unfold sHd wHd; writes_sub
theorem wOut_sub : sOut.Forall fun op => op.writes ⊆ (wOut.map (Proc.devRef (τ := τ) .tc)).toFinset := by
  unfold sOut wOut; writes_sub

/-- Two valuations agree on a list of buffers. -/
def Agree (L : List (Ref sig .tc)) (V W : Valuation τ sig (Elt Ideal)) : Prop :=
  ∀ r ∈ L, W (Proc.devRef .tc r) = V (Proc.devRef .tc r)

theorem Agree.rfl' (L : List (Ref sig .tc)) (V : Valuation τ sig (Elt Ideal)) : Agree L V V := fun _ _ => rfl

/-- A stretch that writes none of the listed buffers keeps the agreement. -/
theorem Agree.step {L wX : List (Ref sig .tc)} {sX : List (HloOp τ sig (Elt Ideal))}
    (hsub : sX.Forall fun op => op.writes ⊆ (wX.map (Proc.devRef (τ := τ) .tc)).toFinset)
    (hd : ∀ r ∈ L, r ∉ wX) {V W : Valuation τ sig (Elt Ideal)} (h : Agree L V W) : Agree L V (after sX W) :=
  fun r hr => (after_of_writes_sub sX W hsub (hd r hr)).trans (h r hr)

/-- The argument buffers; the edge lists; the edge lists with the per-edge weight. -/
def argL : List (Ref sig .tc) :=
  [main_arg0, main_arg1, main_arg2, main_arg3, main_arg4, main_arg5, main_arg6, main_arg7, main_arg8, main_arg9, main_arg10,
   main_arg11, main_arg12, main_arg13, main_arg14]
def idxL : List (Ref sig .tc) := [main_v3, main_v6]
def edgeL : List (Ref sig .tc) := [main_v3, main_v6, main_v30]

/-! ### The whole line -/

def ops : List (HloOp τ sig (Elt Ideal)) := sIdx ++ (sPre ++ (sL1 ++ (sL2 ++ (sL3 ++ (sHd ++ sOut)))))

theorem ops_eq : ops = win0 ++ (win1 ++ win2) := by
  unfold ops sIdx sPre sL1 sL2 sL3 sHd sOut win0 win1 win2
  simp only [List.append_assoc]

/-- @main is the line: its three windows, each the line of its own operations. -/
theorem main_eq (c : Dev nD) : main (F := Ideal) c = seq ops := by
  show (main_part0 (F := Ideal) c >>= fun _ => (main_part1 (F := Ideal) c >>= fun _ => main_part2 (F := Ideal) c)) = _
  rw [part0_eq, part1_eq, part2_eq, ops_eq, seq_append, seq_append]

theorem scopedRefs_eq : (Finset.univ.filter fun b : Ref sig .tc => b.isScoped) = ∅ := by decide
theorem scopedSems_eq : (Finset.univ.filter fun sm : SemLoc sig => sm.isScoped .tc) = ∅ := by decide

theorem ops_forall {p : HloOp τ sig (Elt Ideal) → Prop} (h0 : sIdx.Forall p) (h1 : sPre.Forall p) (h2 : sL1.Forall p)
    (h3 : sL2.Forall p) (h4 : sL3.Forall p) (h5 : sHd.Forall p) (h6 : sOut.Forall p) : ops.Forall p := by
  unfold ops
  exact List.forall_append.mpr ⟨h0, List.forall_append.mpr ⟨h1, List.forall_append.mpr ⟨h2, List.forall_append.mpr ⟨h3,
    List.forall_append.mpr ⟨h4, List.forall_append.mpr ⟨h5, h6⟩⟩⟩⟩⟩⟩

/-- Every operation of a stretch touches TensorCore references only. -/
macro "bufs_sub" : tactic =>
  `(tactic| (simp only [opsIdx, opsPre, opsL1, opsL2a, opsL2b, opsL3, opsHd1, opsHd2, opsOut, List.cons_append, List.nil_append,
               List.Forall, nullary_bufs_sub, unary_bufs_sub, binary_bufs_sub, ternary_bufs_sub, reshape_bufs_sub, and_self]))

theorem ops_sub : ops.Forall fun op => op.bufs ⊆ tcRefs τ sig :=
  ops_forall (by unfold sIdx; bufs_sub) (by unfold sPre; bufs_sub) (by unfold sL1; bufs_sub) (by unfold sL2; bufs_sub)
    (by unfold sL3; bufs_sub) (by unfold sHd; bufs_sub) (by unfold sOut; bufs_sub)

/-- Every operation of a stretch determines its results. -/
macro "no_fresh" : tactic =>
  `(tactic| (simp only [opsIdx, opsPre, opsL1, opsL2a, opsL2b, opsL3, opsHd1, opsHd2, opsOut, List.cons_append, List.nil_append,
               List.Forall]
             repeat' apply And.intro
             all_goals rfl))

theorem ops_fresh : ∀ op ∈ ops, op.fresh = ∅ :=
  List.forall_iff_forall_mem.mp (ops_forall (by unfold sIdx; no_fresh) (by unfold sPre; no_fresh) (by unfold sL1; no_fresh)
    (by unfold sL2; no_fresh) (by unfold sL3; no_fresh) (by unfold sHd; no_fresh) (by unfold sOut; no_fresh))

/-! ### What the line leaves -/

/-- The layers' node rows, the hidden features and the class scores as terms of a valuation's argument buffers. -/
def h1T (V : Valuation τ sig (Elt Ideal)) : FVec Ideal S50000x128 .f32 :=
  R.layerR128 (V (main_arg0 : DevRef τ sig)) (V (main_arg3 : DevRef τ sig)) (V (main_arg4 : DevRef τ sig)) (V (main_arg1 : DevRef τ sig))
def h2T (V : Valuation τ sig (Elt Ideal)) : FVec Ideal S50000x128 .f32 :=
  R.layerR128 (h1T V) (V (main_arg5 : DevRef τ sig)) (V (main_arg6 : DevRef τ sig)) (V (main_arg1 : DevRef τ sig))
def h3T (V : Valuation τ sig (Elt Ideal)) : FVec Ideal S50000x256 .f32 :=
  R.layerR256 (h2T V) (V (main_arg7 : DevRef τ sig)) (V (main_arg8 : DevRef τ sig)) (V (main_arg1 : DevRef τ sig))
def featT (V : Valuation τ sig (Elt Ideal)) : FVec Ideal S256x64 .f32 :=
  R.featOfR (h3T V) (V (main_arg2 : DevRef τ sig)) (V (main_arg9 : DevRef τ sig)) (V (main_arg10 : DevRef τ sig))
    (V (main_arg11 : DevRef τ sig)) (V (main_arg12 : DevRef τ sig))
def scoresT (V : Valuation τ sig (Elt Ideal)) : FVec Ideal S256x10 .f32 :=
  R.scoresOfR (featT V) (V (main_arg13 : DevRef τ sig)) (V (main_arg14 : DevRef τ sig))

/-- The line's two results, and every argument buffer as it was. -/
theorem ops_results (V : Valuation τ sig (Elt Ideal)) :
    after ops V (main_v106 : DevRef τ sig) = scoresT V ∧ after ops V (main_v102 : DevRef τ sig) = featT V
      ∧ Agree argL V (after ops V) := by
  unfold ops
  rw [after_app, after_app, after_app, after_app, after_app, after_app]
  -- the arguments are never written
  have A1 : Agree argL V (after sIdx V) := (Agree.rfl' argL V).step wIdx_sub (by decide)
  have A2 := A1.step wPre_sub (by decide)
  have A3 := A2.step wL1_sub (by decide)
  have A4 := A3.step wL2_sub (by decide)
  have A5 := A4.step wL3_sub (by decide)
  have A6 := A5.step wHd_sub (by decide)
  have A7 := A6.step wOut_sub (by decide)
  -- the edge lists, from the first stretch on; the per-edge weight, from the second on
  have I2 : Agree idxL (after sIdx V) (after sPre (after sIdx V)) := (Agree.rfl' idxL _).step wPre_sub (by decide)
  have e3 : after sPre (after sIdx V) (main_v3 : DevRef τ sig) = R.src (V (main_arg1 : DevRef τ sig)) :=
    (I2 main_v3 (by decide)).trans (idx_v3 V)
  have e6 : after sPre (after sIdx V) (main_v6 : DevRef τ sig) = R.dst (V (main_arg1 : DevRef τ sig)) :=
    (I2 main_v6 (by decide)).trans (idx_v6 V)
  have e30 : after sPre (after sIdx V) (main_v30 : DevRef τ sig) = R.enorm (V (main_arg1 : DevRef τ sig)) :=
    pre_v30 _ _ (idx_v3 V) (idx_v6 V)
  have E3 : Agree edgeL (after sPre (after sIdx V)) (after sL1 (after sPre (after sIdx V))) :=
    (Agree.rfl' edgeL _).step wL1_sub (by decide)
  have E4 := E3.step wL2_sub (by decide)
  -- the three layers
  have r1 : after sL1 (after sPre (after sIdx V)) (main_v47 : DevRef τ sig) = h1T V := by
    rw [l1_v47 _ _ e3 e6 e30, A2 main_arg0 (by decide), A2 main_arg3 (by decide), A2 main_arg4 (by decide)]; rfl
  have r2 : after sL2 (after sL1 (after sPre (after sIdx V))) (main_v64 : DevRef τ sig) = h2T V := by
    rw [l2_v64 _ _ ((E3 main_v3 (by decide)).trans e3) ((E3 main_v6 (by decide)).trans e6) ((E3 main_v30 (by decide)).trans e30),
      r1, A3 main_arg5 (by decide), A3 main_arg6 (by decide)]; rfl
  have r3 : after sL3 (after sL2 (after sL1 (after sPre (after sIdx V)))) (main_v80 : DevRef τ sig) = h3T V := by
    rw [l3_v80 _ _ ((E4 main_v3 (by decide)).trans e3) ((E4 main_v6 (by decide)).trans e6) ((E4 main_v30 (by decide)).trans e30),
      r2, A4 main_arg7 (by decide), A4 main_arg8 (by decide)]; rfl
  -- the readout
  have r4 : after sHd (after sL3 (after sL2 (after sL1 (after sPre (after sIdx V))))) (main_v102 : DevRef τ sig) = featT V := by
    rw [hd_v102, r3, A5 main_arg2 (by decide), A5 main_arg9 (by decide), A5 main_arg10 (by decide), A5 main_arg11 (by decide),
      A5 main_arg12 (by decide)]; rfl
  refine ⟨?_, ?_, A7⟩
  · rw [out_v106, r4, A6 main_arg13 (by decide), A6 main_arg14 (by decide)]; rfl
  · exact (after_of_writes_sub sOut _ wOut_sub (by decide)).trans r4

/-- The last convolution layer's node rows, the hidden features and the class scores, from the launch memory. -/
def h3Of (m : (ℓ : Loc nD τ sig) → Buf (Elt Ideal) ℓ) (c : Dev nD) : FVec Ideal S50000x256 .f32 :=
  Cert.Gcn.R.layerR256 (Cert.Gcn.R.layerR128 (Cert.Gcn.R.layerR128 (m ((c.tc : Thread nD τ).loc main_arg0)) (m ((c.tc : Thread nD τ).loc main_arg3)) (m ((c.tc : Thread nD τ).loc main_arg4)) (m ((c.tc : Thread nD τ).loc main_arg1))) (m ((c.tc : Thread nD τ).loc main_arg5)) (m ((c.tc : Thread nD τ).loc main_arg6)) (m ((c.tc : Thread nD τ).loc main_arg1))) (m ((c.tc : Thread nD τ).loc main_arg7)) (m ((c.tc : Thread nD τ).loc main_arg8)) (m ((c.tc : Thread nD τ).loc main_arg1))
def featOf (m : (ℓ : Loc nD τ sig) → Buf (Elt Ideal) ℓ) (c : Dev nD) : FVec Ideal S256x64 .f32 :=
  Cert.Gcn.R.featOfR (h3Of m c) (m ((c.tc : Thread nD τ).loc main_arg2)) (m ((c.tc : Thread nD τ).loc main_arg9)) (m ((c.tc : Thread nD τ).loc main_arg10)) (m ((c.tc : Thread nD τ).loc main_arg11)) (m ((c.tc : Thread nD τ).loc main_arg12))
def scoresOf (m : (ℓ : Loc nD τ sig) → Buf (Elt Ideal) ℓ) (c : Dev nD) : FVec Ideal S256x10 .f32 :=
  Cert.Gcn.R.scoresOfR (featOf m c) (m ((c.tc : Thread nD τ).loc main_arg13)) (m ((c.tc : Thread nD τ).loc main_arg14))

theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v106) = scoresOf m c
      ∧ r.2.mem ((c.tc : Thread nD τ).loc main_v102) = featOf m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14) := by
  refine (θ_run defs _ _).mono (fun _ h c => ?_)
    (run_seq scopedRefs_eq scopedSems_eq defs main (fun _ => ops) main_eq (fun _ => ops_sub) m ρ (fun _ => ops_fresh))
  obtain ⟨h106, h102, hA⟩ := ops_results (launchContents m c)
  exact ⟨(h c main_v106).trans h106, (h c main_v102).trans h102,
    (h c main_arg0).trans (hA main_arg0 (by decide)), (h c main_arg1).trans (hA main_arg1 (by decide)),
    (h c main_arg2).trans (hA main_arg2 (by decide)), (h c main_arg3).trans (hA main_arg3 (by decide)),
    (h c main_arg4).trans (hA main_arg4 (by decide)), (h c main_arg5).trans (hA main_arg5 (by decide)),
    (h c main_arg6).trans (hA main_arg6 (by decide)), (h c main_arg7).trans (hA main_arg7 (by decide)),
    (h c main_arg8).trans (hA main_arg8 (by decide)), (h c main_arg9).trans (hA main_arg9 (by decide)),
    (h c main_arg10).trans (hA main_arg10 (by decide)), (h c main_arg11).trans (hA main_arg11 (by decide)),
    (h c main_arg12).trans (hA main_arg12 (by decide)), (h c main_arg13).trans (hA main_arg13 (by decide)),
    (h c main_arg14).trans (hA main_arg14 (by decide))⟩

end Cert.Gcn.RefRun

end
-- ==== Proof.LibRowScatter.lean ====
/-
  General lemmas for `x.at[idx].add(u)` on the rows of a matrix: a scatter-add into a matrix of `N` rows of `C` entries
  from a column of `E` index words and `E` update rows. Update row `k` lands, whole, on the row its word names read
  signed, and nowhere when the word is outside `[0, N)`; so entry `(j, q)` of the result is the operand's entry plus
  the sum, over the update rows whose word names `j`, of their entries in column `q`.
-/
import Idealize.ShloMosaic.PureOps.Ideal
import Idealize.ShloMosaic.Lib.ValueIdx

noncomputable section

open scoped BigOperators

namespace Cert.LibRowScatter

open Idealize.ShloMosaic Idealize.ShloMosaic.ValueIdx

/-- The dimension numbers of `x.at[idx].add(u)` for a matrix `x` of `N` rows of `C` entries, a column of `E` index
    words and `E` update rows: whole rows are added. -/
abbrev rowScatter (N C E : Nat) (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ :=
  { updateWindowDims := [1], insertedWindowDims := [0], scatterDimsToOperandDims := [0], indexVectorDim := 1, wf := wf }

/-- The row a word names: the word read signed, and none when it is outside `[0, N)`. -/
def lands (N : Nat) {w : Nat} (W : BitVec w) : Option (Fin N) :=
  if h : 0 ≤ W.toInt ∧ W.toInt < (N : Int) then some ⟨W.toInt.toNat, by omega⟩ else none

section
variable {N C E w : Nat} (wf : ScatterDims.WF ⟨2, ![N, C]⟩ ⟨2, ![E, 1]⟩ ⟨2, ![E, C]⟩ [1] [0] [0] 1)

/-- On the row axis the window of update `j` starts at its index word, read signed … -/
theorem rowScatter_start0 (j : (⟨2, ![E, C]⟩ : Shape).Idx) (idx : IVec ⟨2, ![E, 1]⟩ w) :
    (rowScatter N C E wf).start j idx (0 : Fin 2) = (idx (ix2 (j 0) (⟨0, Nat.one_pos⟩ : Fin 1))).toInt := by
  unfold ScatterDims.start
  rw [dif_pos (show (0 : Fin 2) ∈ (rowScatter N C E wf).scatterDimsToOperandDims from List.mem_singleton.mpr rfl)]
  have hsi : (rowScatter N C E wf).siIdx j ⟨List.idxOf (0 : Fin 2) (rowScatter N C E wf).scatterDimsToOperandDims,
      List.idxOf_lt_length_iff.2 (List.mem_singleton.mpr rfl)⟩ = ix2 (j 0) (⟨0, Nat.one_pos⟩ : Fin 1) := by
    funext b; refine Fin.ext ?_
    match b with
    | ⟨0, _⟩ => rfl
    | ⟨1, _⟩ => rfl
  rw [hsi]
  try rfl

/-- … and on the column axis at zero. -/
theorem rowScatter_start1 (j : (⟨2, ![E, C]⟩ : Shape).Idx) (idx : IVec ⟨2, ![E, 1]⟩ w) :
    (rowScatter N C E wf).start j idx (1 : Fin 2) = 0 := by
  unfold ScatterDims.start
  rw [dif_neg]
  intro h
  have h2 := List.mem_singleton.mp h
  exact Nat.one_ne_zero (congrArg Fin.val h2)

/-- The window is one row: its row coordinate is zero … -/
theorem rowScatter_window0 (j : (⟨2, ![E, C]⟩ : Shape).Idx) : (rowScatter N C E wf).window j (0 : Fin 2) = 0 := by
  unfold ScatterDims.window
  rw [dif_neg]
  intro h
  have h2 := (List.mem_filter.mp h).2
  simp at h2

/-- … and its column coordinate the update's. -/
theorem rowScatter_window1 (j : (⟨2, ![E, C]⟩ : Shape).Idx) : (rowScatter N C E wf).window j (1 : Fin 2) = (j 1).val := by
  unfold ScatterDims.window
  have hm : (1 : Fin 2) ∈ (List.finRange 2).filter (fun a => a ∉ [(0 : Fin 2)]) := by decide
  rw [dif_pos (show (1 : Fin 2) ∈ (rowScatter N C E wf).sKept from hm)]
  rfl

/-- Update row `k` lands, column by column, on the row its word names, and nowhere when the word is outside `[0, N)`. -/
theorem rowScatter_lands (k : Fin E) (q : Fin C) (idx : IVec ⟨2, ![E, 1]⟩ w) :
    (rowScatter N C E wf).resultIdx? (ix2 k q) idx
      = if h : 0 ≤ (idx (ix2 k (⟨0, Nat.one_pos⟩ : Fin 1))).toInt ∧ (idx (ix2 k (⟨0, Nat.one_pos⟩ : Fin 1))).toInt < (N : Int) then
          some (ix2 ⟨(idx (ix2 k (⟨0, Nat.one_pos⟩ : Fin 1))).toInt.toNat, by omega⟩ q)
        else none := by
  have s0 : (rowScatter N C E wf).start (ix2 k q) idx (0 : Fin 2) + ((rowScatter N C E wf).window (ix2 k q) (0 : Fin 2) : Int)
      = (idx (ix2 k (⟨0, Nat.one_pos⟩ : Fin 1))).toInt := by
    rw [rowScatter_start0, rowScatter_window0, Nat.cast_zero, add_zero]
    try rfl
  have s1 : (rowScatter N C E wf).start (ix2 k q) idx (1 : Fin 2) + ((rowScatter N C E wf).window (ix2 k q) (1 : Fin 2) : Int)
      = (q.val : Int) := by
    rw [rowScatter_start1, rowScatter_window1, zero_add]
    try rfl
  unfold ScatterDims.resultIdx?
  by_cases h : 0 ≤ (idx (ix2 k (⟨0, Nat.one_pos⟩ : Fin 1))).toInt ∧ (idx (ix2 k (⟨0, Nat.one_pos⟩ : Fin 1))).toInt < (N : Int)
  · have hall : ∀ a : Fin 2, 0 ≤ (rowScatter N C E wf).start (ix2 k q) idx a + ((rowScatter N C E wf).window (ix2 k q) a : Int)
        ∧ (rowScatter N C E wf).start (ix2 k q) idx a + ((rowScatter N C E wf).window (ix2 k q) a : Int)
          < ((⟨2, ![N, C]⟩ : Shape).size a : Int) := by
      intro a
      match a with
      | ⟨0, _⟩ =>
        show 0 ≤ (rowScatter N C E wf).start (ix2 k q) idx (0 : Fin 2) + ((rowScatter N C E wf).window (ix2 k q) (0 : Fin 2) : Int)
          ∧ (rowScatter N C E wf).start (ix2 k q) idx (0 : Fin 2) + ((rowScatter N C E wf).window (ix2 k q) (0 : Fin 2) : Int) < (N : Int)
        rw [s0]; exact h
      | ⟨1, _⟩ =>
        show 0 ≤ (rowScatter N C E wf).start (ix2 k q) idx (1 : Fin 2) + ((rowScatter N C E wf).window (ix2 k q) (1 : Fin 2) : Int)
          ∧ (rowScatter N C E wf).start (ix2 k q) idx (1 : Fin 2) + ((rowScatter N C E wf).window (ix2 k q) (1 : Fin 2) : Int) < (C : Int)
        rw [s1]; have := q.isLt; omega
    rw [dif_pos hall, dif_pos h]
    congr 1
    funext a
    refine Fin.ext ?_
    match a with
    | ⟨0, _⟩ =>
      show ((rowScatter N C E wf).start (ix2 k q) idx (0 : Fin 2) + ((rowScatter N C E wf).window (ix2 k q) (0 : Fin 2) : Int)).toNat
        = (idx (ix2 k (⟨0, Nat.one_pos⟩ : Fin 1))).toInt.toNat
      rw [s0]
    | ⟨1, _⟩ =>
      show ((rowScatter N C E wf).start (ix2 k q) idx (1 : Fin 2) + ((rowScatter N C E wf).window (ix2 k q) (1 : Fin 2) : Int)).toNat
        = q.val
      rw [s1]; simp
  · rw [dif_neg h, dif_neg]
    intro hall
    have h0 := hall (0 : Fin 2)
    rw [s0] at h0
    exact h h0

/-- So update entry `(k, q')` lands on entry `(j, q)` exactly when row `k`'s word names `j` and the columns agree. -/
theorem rowScatter_lands_iff (k : Fin E) (q' : Fin C) (idx : IVec ⟨2, ![E, 1]⟩ w) (j : Fin N) (q : Fin C) :
    (rowScatter N C E wf).resultIdx? (ix2 k q') idx = some (ix2 j q)
      ↔ lands N (idx (ix2 k (⟨0, Nat.one_pos⟩ : Fin 1))) = some j ∧ q' = q := by
  rw [rowScatter_lands]
  unfold lands
  by_cases h : 0 ≤ (idx (ix2 k (⟨0, Nat.one_pos⟩ : Fin 1))).toInt ∧ (idx (ix2 k (⟨0, Nat.one_pos⟩ : Fin 1))).toInt < (N : Int)
  · rw [dif_pos h, dif_pos h]
    constructor
    · intro e
      have e' := Option.some.inj e
      have e0 := congrFun e' (0 : Fin 2)
      have e1 := congrFun e' (1 : Fin 2)
      exact ⟨congrArg some e0, e1⟩
    · rintro ⟨e0, rfl⟩
      rw [Option.some.inj e0]
  · rw [dif_neg h, dif_neg h]
    constructor
    · intro e; exact absurd e (by simp)
    · rintro ⟨e, -⟩; exact absurd e (by simp)

/-- Entry `(j, q)` of the scatter-add: the operand's entry plus the entries in column `q` of the update rows whose
    word names row `j`. -/
theorem rowScatter_apply (x : (⟨2, ![N, C]⟩ : Shape).Idx → EReal) (idx : IVec ⟨2, ![E, 1]⟩ w)
    (upd : (⟨2, ![E, C]⟩ : Shape).Idx → EReal) (j : Fin N) (q : Fin C) :
    Ideal.hostScatterAdd (rowScatter N C E wf) x idx upd (ix2 j q)
      = x (ix2 j q) + ∑ k ∈ Finset.univ.filter (fun k : Fin E => lands N (idx (ix2 k (⟨0, Nat.one_pos⟩ : Fin 1))) = some j),
          upd (ix2 k q) := by
  unfold Ideal.hostScatterAdd
  refine congrArg (x (ix2 j q) + ·) (Eq.symm ?_)
  refine Finset.sum_bij (fun k _ => ix2 k q) ?_ ?_ ?_ ?_
  · intro k hk
    have hk' := (Finset.mem_filter.mp hk).2
    exact Finset.mem_filter.mpr ⟨Finset.mem_univ _, (rowScatter_lands_iff wf k q idx j q).mpr ⟨hk', rfl⟩⟩
  · intro k _ k' _ e
    exact congrFun e (0 : Fin 2)
  · intro u hu
    have hu' := (Finset.mem_filter.mp hu).2
    rw [eq_ix2 u] at hu'
    obtain ⟨h1, h2⟩ := (rowScatter_lands_iff wf (u 0) (u 1) idx j q).mp hu'
    refine ⟨u 0, Finset.mem_filter.mpr ⟨Finset.mem_univ _, h1⟩, ?_⟩
    rw [← h2]; exact (eq_ix2 u).symm
  · intro k _; rfl

end

end Cert.LibRowScatter

end
-- ==== Proof.LibTake.lean ====
/-
  General lemmas: what `x[idx]` lowers to, read at an index. A gather of a vector, or of the rows of a matrix, at a
  column of start indices [E, 1] is the operand at the start index read signed and clamped into the operand's
  rows; and the two broadcasts that carry a per-row vector to a column and a column across the columns.
-/
import Idealize.ShloMosaic.Lib.ValueIdx
import Idealize.ShloMosaic.Lib.Pipeline.Value

noncomputable section

namespace Cert.LibTake

open Idealize.ShloMosaic Idealize.ShloMosaic.ValueIdx

variable {α : Type}

/-- The dimension numbers of `x[idx]` for a vector `x` of `N` entries and a column of `E` start indices. -/
abbrev vecTake (N E : Nat) (wf : GatherDims.WF ⟨1, ![N]⟩ ⟨2, ![E, 1]⟩ ⟨1, ![E]⟩ [] [0] [] [0] [] 1 ![1]) :
    GatherDims ⟨1, ![N]⟩ ⟨2, ![E, 1]⟩ ⟨1, ![E]⟩ :=
  { offsetDims := [], collapsedSliceDims := [0], operandBatchingDims := [], startIndicesBatchingDims := [],
    startIndexMap := [0], indexVectorDim := 1, sliceSizes := ![1], wf := wf }

/-- Entry `e` of the gather is the vector at start index `idx[e, 0]`, read signed and clamped into `[0, N − 1]`. -/
theorem vecTake_apply {N E w : Nat} (hN : 0 < N)
    (wf : GatherDims.WF ⟨1, ![N]⟩ ⟨2, ![E, 1]⟩ ⟨1, ![E]⟩ [] [0] [] [0] [] 1 ![1])
    (x : (⟨1, ![N]⟩ : Shape).Idx → α) (idx : IVec ⟨2, ![E, 1]⟩ w) (y : (⟨1, ![E]⟩ : Shape).Idx) :
    Host.gather (vecTake N E wf) x idx y
      = x (ix1 ⟨min (idx (ix2 (y 0) (⟨0, Nat.one_pos⟩ : Fin 1))).toInt.toNat (N - 1), by omega⟩) := by
  unfold Host.gather
  congr 1
  funext a
  obtain rfl : a = 0 := Subsingleton.elim _ _
  refine Fin.ext ?_
  show (vecTake N E wf).start y idx 0 + (vecTake N E wf).batchCoord y 0 + (vecTake N E wf).offCoord y 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (show (0 : Fin 1) ∈ (vecTake N E wf).startIndexMap from List.mem_singleton.mpr rfl)]
  have hsi : (vecTake N E wf).siIdx y ⟨List.idxOf (0 : Fin 1) (vecTake N E wf).startIndexMap,
      List.idxOf_lt_length_iff.2 (List.mem_singleton.mpr rfl)⟩ = ix2 (y 0) (⟨0, Nat.one_pos⟩ : Fin 1) := by
    funext b; refine Fin.ext ?_
    match b with
    | ⟨0, _⟩ => rfl
    | ⟨1, _⟩ => rfl
  rw [hsi]
  rfl

/-- The dimension numbers of `x[idx]` for a matrix `x` of `N` rows of `C` entries and a column of `E` start indices:
    whole rows are taken. -/
abbrev rowTake (N C E : Nat) (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ :=
  { offsetDims := [1], collapsedSliceDims := [0], operandBatchingDims := [], startIndicesBatchingDims := [],
    startIndexMap := [0], indexVectorDim := 1, sliceSizes := ![1, C], wf := wf }

/-- Entry `(e, c)` of the gather is the matrix at row `idx[e, 0]` (read signed and clamped into `[0, N − 1]`),
    column `c`. -/
theorem rowTake_apply {N C E w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (y : (⟨2, ![E, C]⟩ : Shape).Idx) :
    Host.gather (rowTake N C E wf) x idx y
      = x (ix2 ⟨min (idx (ix2 (y 0) (⟨0, Nat.one_pos⟩ : Fin 1))).toInt.toNat (N - 1), by omega⟩ (y 1)) := by
  unfold Host.gather
  congr 1
  funext a
  refine Fin.ext ?_
  match a with
  | ⟨0, _⟩ =>
    show (rowTake N C E wf).start y idx (0 : Fin 2) + (rowTake N C E wf).batchCoord y (0 : Fin 2)
      + (rowTake N C E wf).offCoord y (0 : Fin 2) = min (idx (ix2 (y 0) (⟨0, Nat.one_pos⟩ : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowTake N C E wf).startIndexMap from List.mem_singleton.mpr rfl)]
    have hsi : (rowTake N C E wf).siIdx y ⟨List.idxOf (0 : Fin 2) (rowTake N C E wf).startIndexMap,
        List.idxOf_lt_length_iff.2 (List.mem_singleton.mpr rfl)⟩ = ix2 (y 0) (⟨0, Nat.one_pos⟩ : Fin 1) := by
      funext b; refine Fin.ext ?_
      match b with
      | ⟨0, _⟩ => rfl
      | ⟨1, _⟩ => rfl
    rw [hsi]
    rfl
  | ⟨1, _⟩ =>
    show (rowTake N C E wf).start y idx (1 : Fin 2) + (rowTake N C E wf).batchCoord y (1 : Fin 2)
      + (rowTake N C E wf).offCoord y (1 : Fin 2) = (y 1).val
    have hs : (rowTake N C E wf).start y idx (1 : Fin 2) = 0 := by
      unfold GatherDims.start
      rw [dif_neg (show ¬ ((1 : Fin 2) ∈ ([0] : List (Fin 2))) from by decide)]
    rw [hs, GatherDims.batchCoord_eq_zero _ _ _ List.not_mem_nil]
    simp only [Nat.zero_add, Nat.add_zero]
    unfold GatherDims.offCoord
    rw [dif_pos ((GatherDims.mem_sKept _ _).mpr ⟨(show ¬ ((1 : Fin 2) ∈ ([0] : List (Fin 2))) from by decide), List.not_mem_nil⟩)]
    rfl

/-- A per-row vector carried to a column: entry `(e, u)` is the vector's entry `e`. -/
theorem bcastCol_apply {E : Nat} (h : (⟨1, ![E]⟩ : Shape).BroadcastsInDim ⟨2, ![E, 1]⟩ ![0])
    (v : (⟨1, ![E]⟩ : Shape).Idx → α) (e : Fin E) (u : Fin 1) :
    broadcastInDim ⟨2, ![E, 1]⟩ ![0] h v (ix2 e u) = v (ix1 e) := by
  unfold broadcastInDim
  congr 1
  funext a
  obtain rfl : a = 0 := Subsingleton.elim _ _
  refine Fin.ext ?_
  by_cases h1 : (⟨1, ![E]⟩ : Shape).size 0 = 1
  · rw [dif_pos h1]
    have : E = 1 := h1
    have := e.isLt
    show 0 = e.val
    omega
  · rw [dif_neg h1]; rfl

/-- A column carried across `C` columns: entry `(e, c)` is the column's entry `e`. -/
theorem bcastAcross_apply {E C : Nat} (h : (⟨2, ![E, 1]⟩ : Shape).BroadcastsInDim ⟨2, ![E, C]⟩ ![0, 1])
    (v : (⟨2, ![E, 1]⟩ : Shape).Idx → α) (e : Fin E) (c : Fin C) :
    broadcastInDim ⟨2, ![E, C]⟩ ![0, 1] h v (ix2 e c) = v (ix2 e (⟨0, Nat.one_pos⟩ : Fin 1)) := by
  unfold broadcastInDim
  congr 1
  funext a
  refine Fin.ext ?_
  match a with
  | ⟨0, _⟩ =>
    split
    · rename_i h1
      have hE : E = 1 := h1
      have := e.isLt
      show 0 = e.val
      omega
    · rfl
  | ⟨1, _⟩ =>
    split
    · rfl
    · rename_i h1
      exact absurd rfl h1

/-- A vector of `C` entries as one row: entry `(u, q)` is the vector's entry `q`. -/
theorem bcastRow_apply {C : Nat} (h : (⟨1, ![C]⟩ : Shape).BroadcastsInDim ⟨2, ![1, C]⟩ ![1])
    (v : (⟨1, ![C]⟩ : Shape).Idx → α) (u : Fin 1) (q : Fin C) :
    broadcastInDim ⟨2, ![1, C]⟩ ![1] h v (ix2 u q) = v (ix1 q) := by
  unfold broadcastInDim
  congr 1
  funext a
  obtain rfl : a = 0 := Subsingleton.elim _ _
  refine Fin.ext ?_
  split
  · rename_i h1
    have hC : C = 1 := h1
    have := q.isLt
    show 0 = q.val
    omega
  · rfl

/-- A row carried down `N` rows: entry `(r, q)` is the row's entry `q`. -/
theorem bcastDown_apply {N C : Nat} (h : (⟨2, ![1, C]⟩ : Shape).BroadcastsInDim ⟨2, ![N, C]⟩ ![0, 1])
    (v : (⟨2, ![1, C]⟩ : Shape).Idx → α) (r : Fin N) (q : Fin C) :
    broadcastInDim ⟨2, ![N, C]⟩ ![0, 1] h v (ix2 r q) = v (ix2 (⟨0, Nat.one_pos⟩ : Fin 1) q) := by
  unfold broadcastInDim
  congr 1
  funext a
  refine Fin.ext ?_
  match a with
  | ⟨0, _⟩ =>
    split
    · rfl
    · rename_i h1
      exact absurd rfl h1
  | ⟨1, _⟩ =>
    split
    · rename_i h1
      have hC : C = 1 := h1
      have := q.isLt
      show 0 = q.val
      omega
    · rfl

/-- A vector of `N` entries recast as a column: entry `(r, u)` is the vector's entry `r`. -/
theorem castCol_apply {N : Nat} (h : (⟨1, ![N]⟩ : Shape).ShapeCasts ⟨2, ![N, 1]⟩)
    (v : (⟨1, ![N]⟩ : Shape).Idx → α) (r : Fin N) (u : Fin 1) :
    shapeCast ⟨2, ![N, 1]⟩ v h (ix2 r u) = v (ix1 r) := by
  refine shapeCast_apply v h (ix2 r u) (ix1 r) ?_
  rw [Shape.rowMajor_val_two, Shape.rowMajor_val_one]
  show r.val = r.val * 1 + u.val
  have := u.isLt
  omega

/-- A vector of `C` entries recast as a row: entry `(u, q)` is the vector's entry `q`. -/
theorem castRow_apply {C : Nat} (h : (⟨1, ![C]⟩ : Shape).ShapeCasts ⟨2, ![1, C]⟩)
    (v : (⟨1, ![C]⟩ : Shape).Idx → α) (u : Fin 1) (q : Fin C) :
    shapeCast ⟨2, ![1, C]⟩ v h (ix2 u q) = v (ix1 q) := by
  refine shapeCast_apply v h (ix2 u q) (ix1 q) ?_
  rw [Shape.rowMajor_val_two, Shape.rowMajor_val_one]
  show q.val = u.val * C + q.val
  have := u.isLt
  have hu : u.val = 0 := by omega
  rw [hu]; omega

end Cert.LibTake

end
-- ==== Proof.LayerLaw.lean ====
/-
  One convolution layer computed two ways is one function: the plain program weighs every edge by d[src] * d[dst]
  before summing onto the target node; the tiled program scales the rows by d before the edges are walked and the
  summed row by d[target] after. d[j] is a nonnegative real (rsqrt of a positive degree, or 0), and a nonnegative
  real factor distributes over any sum of extended reals; an edge that lands on node j has target j.
-/
import proofs.«141883_j50397146251362_2_alg».proof.Proof.Stages
import proofs.«141883_j50397146251362_2_alg».proof.Proof.RStages
import proofs.«141883_j50397146251362_2_alg».proof.Proof.LibRowScatter
import proofs.«141883_j50397146251362_2_alg».proof.Proof.LibTake
import proofs.«141883_j50397146251362_2_alg».proof.Proof.LibMatmul
import Idealize.ShloMosaic.PureOps.Ideal.Laws
import Idealize.ShloMosaic.Lib.Pipeline.Value
import Idealize.ShloMosaic.Lib.ValueIdx

set_option maxRecDepth 16384

noncomputable section

open scoped BigOperators

namespace Cert.Gcn.LayerLaw

open Idealize.ShloMosaic Idealize.ShloMosaic.ValueIdx

/-! ## The two programs' index and degree arrays are the same terms -/

theorem src_eq (a1 : IVec Cert.KernelIdeal.S2x800000 32) : Cert.Gcn.R.src a1 = Cert.Gcn.srcK a1 := rfl
theorem dst_eq (a1 : IVec Cert.KernelIdeal.S2x800000 32) : Cert.Gcn.R.dst a1 = Cert.Gcn.dstK a1 := rfl
theorem dstIdx_eq (a1 : IVec Cert.KernelIdeal.S2x800000 32) : Cert.Gcn.R.dstIdx a1 = Cert.Gcn.dstIdxK a1 := rfl
theorem srcIdx_eq (a1 : IVec Cert.KernelIdeal.S2x800000 32) : Cert.Gcn.R.wrapIdx (Cert.Gcn.R.src a1) = Cert.Gcn.srcIdxK a1 := rfl
theorem dis_eq (a1 : IVec Cert.KernelIdeal.S2x800000 32) : Cert.Gcn.R.dis a1 = Cert.Gcn.disK a1 := rfl

/-! ## A nonnegative real factor and a finite sum -/

/-- A nonnegative real factor distributes over a finite sum of extended reals. -/
theorem sum_mul_of_nonneg {ι : Type} (S : Finset ι) (f : ι → EReal) {c : EReal} (h0 : 0 ≤ c) (ht : c ≠ ⊤) :
    (∑ e ∈ S, f e) * c = ∑ e ∈ S, f e * c := by
  classical
  refine Finset.induction_on S ?_ ?_
  · rw [Finset.sum_empty, Finset.sum_empty, zero_mul]
  · intro a S ha ih
    rw [Finset.sum_insert ha, Finset.sum_insert ha, EReal.right_distrib_of_nonneg_of_ne_top h0 ht, ih]

/-! ## The degree factor is a nonnegative real -/

/-- The reciprocal square root of a positive extended real is a nonnegative real. -/
theorem rsqrt_of_pos {x : EReal} (hx : 0 < x) : 0 ≤ Ideal.rsqrt x ∧ Ideal.rsqrt x ≠ ⊤ := by
  induction x using EReal.rec with
  | bot => exact absurd hx (not_lt_bot)
  | top => rw [Ideal.rsqrt_top]; exact ⟨le_refl _, EReal.zero_ne_top⟩
  | coe r =>
    have hr : 0 < r := by exact_mod_cast hx
    rw [Ideal.rsqrt_coe, if_neg (not_lt.mpr hr.le), if_neg hr.ne']
    exact ⟨by exact_mod_cast (inv_nonneg.mpr (Real.sqrt_nonneg r)), EReal.coe_ne_top _⟩

/-- Reciprocal square root where the argument is positive and 0.0 elsewhere: a nonnegative real. -/
theorem sel_rsqrt (g : EReal) :
    0 ≤ Scalar.select (Ideal.cmp .ogt g (Ideal.ofBits .f32 0x00000000#32)) (Ideal.rsqrt g) (Ideal.ofBits .f32 0x00000000#32)
    ∧ Scalar.select (Ideal.cmp .ogt g (Ideal.ofBits .f32 0x00000000#32)) (Ideal.rsqrt g) (Ideal.ofBits .f32 0x00000000#32) ≠ ⊤ := by
  rw [Ideal.ofBits_zero_f32]
  by_cases hg : (0 : EReal) < g
  · have hc : Ideal.cmp .ogt g 0 = 1#1 := by
      unfold Ideal.cmp
      simp only [hg, decide_true]
      rfl
    rw [hc, select_one]
    exact rsqrt_of_pos hg
  · have hc : Ideal.cmp .ogt g 0 = 0#1 := by
      unfold Ideal.cmp
      simp only [hg, decide_false]
      rfl
    rw [hc, select_zero]
    exact ⟨le_refl _, EReal.zero_ne_top⟩

/-- The select of the reciprocal square root against 0.0, read at a node. -/
theorem dsel_apply (g : FVec Ideal Cert.KernelIdeal.S50000 .f32) (i : Cert.KernelIdeal.S50000.Idx) :
    select (cmpf (F := Ideal) .ogt g (broadcastInDim Cert.KernelIdeal.S50000 ![] Cert.KernelIdeal.Facts₀.bcast_S_S50000
        (constant (F := Ideal) Cert.KernelIdeal.S_ .f32 0x00000000#32)))
      (Host.rsqrt (F := Ideal) g)
      (broadcastInDim Cert.KernelIdeal.S50000 ![] Cert.KernelIdeal.Facts₀.bcast_S_S50000
        (id (constant (F := Ideal) Cert.KernelIdeal.S_ .f32 0x00000000#32))) i
    = Scalar.select (Ideal.cmp .ogt (g i) (Ideal.ofBits .f32 0x00000000#32)) (Ideal.rsqrt (g i)) (Ideal.ofBits .f32 0x00000000#32) := rfl

/-- The degree factor is a nonnegative real at every node, whatever the degree is. -/
theorem disK_nonneg (a1 : IVec Cert.KernelIdeal.S2x800000 32) (i : Cert.KernelIdeal.S50000.Idx) :
    0 ≤ Cert.Gcn.disK a1 i ∧ Cert.Gcn.disK a1 i ≠ ⊤ := by
  unfold Cert.Gcn.disK
  rw [dsel_apply]
  exact sel_rsqrt _

/-! ## An edge that lands on a node has that node as its wrapped and clamped target -/

/-- A word that names row `j` is not negative, so it is neither wrapped nor clamped. -/
theorem lands_wrap {N : Nat} {W : BitVec 32} {j : Fin N} (c : BitVec 32) (h : Cert.LibRowScatter.lands N W = some j) :
    Scalar.select (IntOp.cmpi .slt W 0#32) (IntOp.addi W c) W = W ∧ min W.toInt.toNat (N - 1) = j.val := by
  unfold Cert.LibRowScatter.lands at h
  by_cases hW : 0 ≤ W.toInt ∧ W.toInt < (N : Int)
  · rw [dif_pos hW] at h
    have hj : W.toInt.toNat = j.val := congrArg Fin.val (Option.some.inj h)
    have hlt : W.slt 0#32 = false := by
      rw [BitVec.slt_eq_decide, BitVec.toInt_zero]
      exact decide_eq_false (by omega)
    have hs : IntOp.cmpi .slt W 0#32 = 0#1 := by
      show BitVec.ofBool (W.slt 0#32) = 0#1
      rw [hlt]; rfl
    refine ⟨by rw [hs, select_zero], ?_⟩
    rw [hj]; have := j.isLt; omega
  · rw [dif_neg hW] at h; exact absurd h (by simp)

/-! ## The two update rows of one edge, and the two scatter-adds -/

section Point
open Cert.LibRowScatter Cert.LibTake

variable {N C E : Nat}

/-- The plain program's update row of edge `k`: the gathered row times the product of the two gathered degree factors. -/
theorem updR_point (hN : 0 < N)
    (gwf : GatherDims.WF ⟨2, ![N, C]⟩ ⟨2, ![E, 1]⟩ ⟨2, ![E, C]⟩ [1] [0] [] [0] [] 1 ![1, C])
    (vwf : GatherDims.WF ⟨1, ![N]⟩ ⟨2, ![E, 1]⟩ ⟨1, ![E]⟩ [] [0] [] [0] [] 1 ![1])
    (hcol : (⟨1, ![E]⟩ : Shape).BroadcastsInDim ⟨2, ![E, 1]⟩ ![0])
    (hacr : (⟨2, ![E, 1]⟩ : Shape).BroadcastsInDim ⟨2, ![E, C]⟩ ![0, 1])
    (hw : FVec Ideal ⟨2, ![N, C]⟩ .f32) (d : FVec Ideal ⟨1, ![N]⟩ .f32) (sidx tidx : IVec ⟨2, ![E, 1]⟩ 32)
    (k : Fin E) (q : Fin C) :
    mulf (Host.gather (rowTake N C E gwf) hw sidx)
      (broadcastInDim ⟨2, ![E, C]⟩ ![0, 1] hacr (broadcastInDim ⟨2, ![E, 1]⟩ ![0] hcol
        (mulf (Host.gather (vecTake N E vwf) d sidx) (Host.gather (vecTake N E vwf) d tidx)))) (ix2 k q)
    = hw (ix2 ⟨min (sidx (ix2 k (⟨0, Nat.one_pos⟩ : Fin 1))).toInt.toNat (N - 1), by omega⟩ q)
      * (d (ix1 ⟨min (sidx (ix2 k (⟨0, Nat.one_pos⟩ : Fin 1))).toInt.toNat (N - 1), by omega⟩)
        * d (ix1 ⟨min (tidx (ix2 k (⟨0, Nat.one_pos⟩ : Fin 1))).toInt.toNat (N - 1), by omega⟩)) := by
  rw [mulf_apply, rowTake_apply hN, bcastAcross_apply, bcastCol_apply, mulf_apply, vecTake_apply hN, vecTake_apply hN]
  rfl

/-- The tiled program's update row of edge `k`: the gathered row of the rows scaled beforehand. -/
theorem updK_point (hN : 0 < N)
    (gwf : GatherDims.WF ⟨2, ![N, C]⟩ ⟨2, ![E, 1]⟩ ⟨2, ![E, C]⟩ [1] [0] [] [0] [] 1 ![1, C])
    (ls : (⟨2, ![N, C]⟩ : Shape).Idx → EReal) (sidx : IVec ⟨2, ![E, 1]⟩ 32) (k : Fin E) (q : Fin C) :
    Host.gather (rowTake N C E gwf) ls sidx (ix2 k q)
    = ls (ix2 ⟨min (sidx (ix2 k (⟨0, Nat.one_pos⟩ : Fin 1))).toInt.toNat (N - 1), by omega⟩ q) := by
  rw [rowTake_apply hN]
  rfl

/-- Two scatter-adds onto a zero operand whose update rows differ, on the rows that land on `j`, by one
    nonnegative real factor `c`: the results at row `j` differ by that factor. -/
theorem scatter_scale {w : Nat} (swf : ScatterDims.WF ⟨2, ![N, C]⟩ ⟨2, ![E, 1]⟩ ⟨2, ![E, C]⟩ [1] [0] [0] 1)
    (x0 : (⟨2, ![N, C]⟩ : Shape).Idx → EReal) (idx : IVec ⟨2, ![E, 1]⟩ w)
    (updR updK : (⟨2, ![E, C]⟩ : Shape).Idx → EReal) (j : Fin N) (q : Fin C) {c : EReal}
    (hx0 : x0 (ix2 j q) = 0) (h0 : 0 ≤ c) (ht : c ≠ ⊤)
    (hupd : ∀ k : Fin E, lands N (idx (ix2 k (⟨0, Nat.one_pos⟩ : Fin 1))) = some j → updR (ix2 k q) = updK (ix2 k q) * c) :
    Ideal.hostScatterAdd (rowScatter N C E swf) x0 idx updR (ix2 j q)
      = Ideal.hostScatterAdd (rowScatter N C E swf) x0 idx updK (ix2 j q) * c := by
  rw [rowScatter_apply, rowScatter_apply, hx0, zero_add, zero_add, sum_mul_of_nonneg _ _ h0 ht]
  exact Finset.sum_congr rfl fun k hk => hupd k (Finset.mem_filter.mp hk).2

end Point

/-! ## One layer at a node and a channel -/

section Layer
open Cert.LibRowScatter Cert.LibTake Cert.LibMatmul

/-- The two update rows of an edge whose wrapped and clamped target is `j` differ by the factor `d j`. -/
theorem upd_eq {N C E : Nat} (hN : 0 < N)
    (gwf : GatherDims.WF ⟨2, ![N, C]⟩ ⟨2, ![E, 1]⟩ ⟨2, ![E, C]⟩ [1] [0] [] [0] [] 1 ![1, C])
    (vwf : GatherDims.WF ⟨1, ![N]⟩ ⟨2, ![E, 1]⟩ ⟨1, ![E]⟩ [] [0] [] [0] [] 1 ![1])
    (hcol : (⟨1, ![E]⟩ : Shape).BroadcastsInDim ⟨2, ![E, 1]⟩ ![0])
    (hacr : (⟨2, ![E, 1]⟩ : Shape).BroadcastsInDim ⟨2, ![E, C]⟩ ![0, 1])
    (hw : FVec Ideal ⟨2, ![N, C]⟩ .f32) (d : FVec Ideal ⟨1, ![N]⟩ .f32)
    (dcol : (⟨2, ![N, 1]⟩ : Shape).Idx → EReal) (hdcol : ∀ p : Fin N, dcol (ix2 p (⟨0, Nat.one_pos⟩ : Fin 1)) = d (ix1 p))
    (ls : (⟨2, ![N, C]⟩ : Shape).Idx → EReal)
    (hls : ∀ (p : Fin N) (q : Fin C), ls (ix2 p q) = hw (ix2 p q) * dcol (ix2 p (⟨0, Nat.one_pos⟩ : Fin 1)))
    (sidx tidx : IVec ⟨2, ![E, 1]⟩ 32) (k : Fin E) (q : Fin C) (j : Fin N)
    (ht : min (tidx (ix2 k (⟨0, Nat.one_pos⟩ : Fin 1))).toInt.toNat (N - 1) = j.val) :
    mulf (Host.gather (rowTake N C E gwf) hw sidx)
      (broadcastInDim ⟨2, ![E, C]⟩ ![0, 1] hacr (broadcastInDim ⟨2, ![E, 1]⟩ ![0] hcol
        (mulf (Host.gather (vecTake N E vwf) d sidx) (Host.gather (vecTake N E vwf) d tidx)))) (ix2 k q)
    = Host.gather (rowTake N C E gwf) ls sidx (ix2 k q) * d (ix1 j) := by
  rw [updR_point hN, updK_point hN, hls, hdcol, mul_assoc]
  have hj : (⟨min (tidx (ix2 k (⟨0, Nat.one_pos⟩ : Fin 1))).toInt.toNat (N - 1), by omega⟩ : Fin N) = j := Fin.ext ht
  rw [hj]

/-- A vector of node ids wrapped and carried to a column, read at an edge. -/
theorem wrapIdx_point (v : IVec Cert.ReferenceIdeal.S850000 32) (k : Fin 850000) :
    Cert.Gcn.R.wrapIdx v (ix2 k (⟨0, Nat.one_pos⟩ : Fin 1))
      = Scalar.select (IntOp.cmpi .slt (v (ix1 k)) 0#32) (IntOp.addi (v (ix1 k)) 50000#32) (v (ix1 k)) := by
  unfold Cert.Gcn.R.wrapIdx
  rw [bcastCol_apply]
  rfl

/-- An edge that lands on node `j` reads the degree factor of its target at `j`. -/
theorem target_of_lands (a1 : IVec Cert.KernelIdeal.S2x800000 32) (k : Fin 850000) (j : Fin 50000)
    (hk : lands 50000 (Cert.Gcn.dstIdxK a1 (ix2 k (⟨0, Nat.one_pos⟩ : Fin 1))) = some j) :
    min (Cert.Gcn.R.wrapIdx (Cert.Gcn.R.dst a1) (ix2 k (⟨0, Nat.one_pos⟩ : Fin 1))).toInt.toNat (50000 - 1) = j.val := by
  unfold Cert.Gcn.dstIdxK at hk
  rw [bcastCol_apply] at hk
  rw [wrapIdx_point, dst_eq]
  obtain ⟨h1, h2⟩ := lands_wrap 50000#32 hk
  rw [h1]
  exact h2

theorem BAr_apply {A B : Nat} (agg : (⟨2, ![A, B]⟩ : Shape).Idx → EReal) (d : (⟨2, ![A, 1]⟩ : Shape).Idx → EReal)
    (b : (⟨2, ![1, B]⟩ : Shape).Idx → EReal) (j : Fin A) (q : Fin B) :
    Cert.Gcn.BAr agg d b (ix2 j q)
      = max (agg (ix2 j q) * d (ix2 j (⟨0, Nat.one_pos⟩ : Fin 1)) + b (ix2 (⟨0, Nat.one_pos⟩ : Fin 1) q)) Cert.Gcn.z0 := rfl

theorem BA_apply {A B : Nat} (agg : (⟨2, ![A, B]⟩ : Shape).Idx → EReal) (d : (⟨2, ![A, 1]⟩ : Shape).Idx → EReal)
    (b : (⟨2, ![1, B]⟩ : Shape).Idx → EReal) (j : Fin A) (q : Fin B) :
    Cert.Gcn.BA agg d b (ix2 j q)
      = agg (ix2 j q) * d (ix2 j (⟨0, Nat.one_pos⟩ : Fin 1)) + b (ix2 (⟨0, Nat.one_pos⟩ : Fin 1) q) := rfl

theorem LS_apply {A K B : Nat} (x : (⟨2, ![A, K]⟩ : Shape).Idx → EReal) (w : (⟨2, ![K, B]⟩ : Shape).Idx → EReal)
    (d : (⟨2, ![A, 1]⟩ : Shape).Idx → EReal) (p : Fin A) (q : Fin B) :
    Cert.Gcn.LS x w d (ix2 p q) = MM x w (ix2 p q) * d (ix2 p (⟨0, Nat.one_pos⟩ : Fin 1)) := rfl

/-- The degree factor kept as a column, read at a node. -/
theorem d2dK_apply (a1 : IVec Cert.KernelIdeal.S2x800000 32) (p : Fin 50000) :
    Cert.Gcn.d2dK a1 (ix2 p (⟨0, Nat.one_pos⟩ : Fin 1)) = Cert.Gcn.disK a1 (ix1 p) := by
  unfold Cert.Gcn.d2dK
  exact castCol_apply _ _ p _

/-- The host's scatter-add at the ideal values is the exact sum. -/
theorem scatterAdd_eq {s si u : Shape} {w : Nat} (dd : ScatterDims s si u) (x : FVec Ideal s .f32) (idx : IVec si w)
    (upd : FVec Ideal u .f32) : Host.scatterAdd (F := Ideal) dd x idx upd = Ideal.hostScatterAdd dd x idx upd := rfl

theorem layer128 (h : FVec Ideal Cert.KernelIdeal.S50000x128 .f32) (w : FVec Ideal Cert.KernelIdeal.S128x128 .f32)
    (b : FVec Ideal Cert.KernelIdeal.S128 .f32) (a1 : IVec Cert.KernelIdeal.S2x800000 32) :
    Cert.Gcn.R.layerR128 h w b a1 = Cert.Gcn.layerK128 h w b a1 := by
  funext i
  obtain ⟨j, q, rfl⟩ : ∃ (j : Fin 50000) (q : Fin 128), i = ix2 j q := ⟨i 0, i 1, eq_ix2 i⟩
  have hN : 0 < 50000 := by decide
  have hmm : Host.dotGeneral (F := Ideal) Cert.ReferenceIdeal.dot_S50000x128_S128x128_S50000x128_1_0_0_1_n_n none h w
      = MM (A := 50000) (K := 128) (B := 128) h w :=
    dotGeneral_eq Cert.ReferenceIdeal.dot_S50000x128_S128x128_S50000x128_1_0_0_1_n_n rfl rfl rfl rfl rfl rfl none .single h w
  have hsR : Cert.ReferenceIdeal.scatter_S50000x128_S850000x1_S850000x128_1_0_0_1
      = rowScatter 50000 128 850000 Cert.ReferenceIdeal.Gen.scatter_S50000x128_S850000x1_S850000x128_1_0_0_1_wf := rfl
  have hsK : Cert.KernelIdeal.scatter_S50000x128_S850000x1_S850000x128_1_0_0_1
      = rowScatter 50000 128 850000 Cert.ReferenceIdeal.Gen.scatter_S50000x128_S850000x1_S850000x128_1_0_0_1_wf := rfl
  have hgR : Cert.ReferenceIdeal.gather_S50000x128_S850000x1_S850000x128_1_0_n_n_0_1_1128
      = rowTake 50000 128 850000 Cert.ReferenceIdeal.Gen.gather_S50000x128_S850000x1_S850000x128_1_0_n_n_0_1_1128_wf := rfl
  have hgK : Cert.KernelIdeal.gather_S50000x128_S850000x1_S850000x128_1_0_n_n_0_1_1128
      = rowTake 50000 128 850000 Cert.ReferenceIdeal.Gen.gather_S50000x128_S850000x1_S850000x128_1_0_n_n_0_1_1128_wf := rfl
  have hvR : Cert.ReferenceIdeal.gather_S50000_S850000x1_S850000_n_0_n_n_0_1_1
      = vecTake 50000 850000 Cert.ReferenceIdeal.Gen.gather_S50000_S850000x1_S850000_n_0_n_n_0_1_1_wf := rfl
  have hd := disK_nonneg a1 (ix1 j)
  unfold Cert.Gcn.R.layerR128 Cert.Gcn.layerK128 Cert.Gcn.aggK128 Cert.Gcn.R.enorm Cert.Gcn.row128
  rw [maximumf_apply, addf_apply, bcastDown_apply, bcastRow_apply, BAr_apply, castRow_apply, d2dK_apply,
    scatterAdd_eq, scatterAdd_eq, hsR, hsK, hgR, hgK, hvR, hmm, dstIdx_eq, srcIdx_eq, dis_eq]
  refine congrArg₂ max (congrArg (· + b (ix1 q)) ?_) rfl
  refine scatter_scale _ _ _ _ _ j q ?_ hd.1 hd.2 ?_
  · exact Ideal.ofBits_zero_f32
  · intro k hk
    rw [extf_apply]
    exact upd_eq hN _ _ _ _ (MM (A := 50000) (K := 128) (B := 128) h w) (Cert.Gcn.disK a1) (Cert.Gcn.d2dK a1) (d2dK_apply a1)
      (Cert.Gcn.LS (A := 50000) (K := 128) (B := 128) h w (Cert.Gcn.d2dK a1)) (fun p q => LS_apply h w (Cert.Gcn.d2dK a1) p q) _ _ k q j (target_of_lands a1 k j hk)

theorem layer256 (h : FVec Ideal Cert.KernelIdeal.S50000x128 .f32) (w : FVec Ideal Cert.KernelIdeal.S128x256 .f32)
    (b : FVec Ideal Cert.KernelIdeal.S256 .f32) (a1 : IVec Cert.KernelIdeal.S2x800000 32) :
    Cert.Gcn.R.layerR256 h w b a1 = Cert.Gcn.layerK256 h w b a1 := by
  funext i
  obtain ⟨j, q, rfl⟩ : ∃ (j : Fin 50000) (q : Fin 256), i = ix2 j q := ⟨i 0, i 1, eq_ix2 i⟩
  have hN : 0 < 50000 := by decide
  have hmm : Host.dotGeneral (F := Ideal) Cert.ReferenceIdeal.dot_S50000x128_S128x256_S50000x256_1_0_0_1_n_n none h w
      = MM (A := 50000) (K := 128) (B := 256) h w :=
    dotGeneral_eq Cert.ReferenceIdeal.dot_S50000x128_S128x256_S50000x256_1_0_0_1_n_n rfl rfl rfl rfl rfl rfl none .single h w
  have hsR : Cert.ReferenceIdeal.scatter_S50000x256_S850000x1_S850000x256_1_0_0_1
      = rowScatter 50000 256 850000 Cert.ReferenceIdeal.Gen.scatter_S50000x256_S850000x1_S850000x256_1_0_0_1_wf := rfl
  have hsK : Cert.KernelIdeal.scatter_S50000x256_S850000x1_S850000x256_1_0_0_1
      = rowScatter 50000 256 850000 Cert.ReferenceIdeal.Gen.scatter_S50000x256_S850000x1_S850000x256_1_0_0_1_wf := rfl
  have hgR : Cert.ReferenceIdeal.gather_S50000x256_S850000x1_S850000x256_1_0_n_n_0_1_1256
      = rowTake 50000 256 850000 Cert.ReferenceIdeal.Gen.gather_S50000x256_S850000x1_S850000x256_1_0_n_n_0_1_1256_wf := rfl
  have hgK : Cert.KernelIdeal.gather_S50000x256_S850000x1_S850000x256_1_0_n_n_0_1_1256
      = rowTake 50000 256 850000 Cert.ReferenceIdeal.Gen.gather_S50000x256_S850000x1_S850000x256_1_0_n_n_0_1_1256_wf := rfl
  have hvR : Cert.ReferenceIdeal.gather_S50000_S850000x1_S850000_n_0_n_n_0_1_1
      = vecTake 50000 850000 Cert.ReferenceIdeal.Gen.gather_S50000_S850000x1_S850000_n_0_n_n_0_1_1_wf := rfl
  have hd := disK_nonneg a1 (ix1 j)
  unfold Cert.Gcn.R.layerR256 Cert.Gcn.layerK256 Cert.Gcn.aggK256 Cert.Gcn.R.enorm Cert.Gcn.row256
  rw [addf_apply, bcastDown_apply, bcastRow_apply, BA_apply, castRow_apply, d2dK_apply,
    scatterAdd_eq, scatterAdd_eq, hsR, hsK, hgR, hgK, hvR, hmm, dstIdx_eq, srcIdx_eq, dis_eq]
  refine congrArg (· + b (ix1 q)) ?_
  refine scatter_scale _ _ _ _ _ j q ?_ hd.1 hd.2 ?_
  · exact Ideal.ofBits_zero_f32
  · intro k hk
    rw [extf_apply]
    exact upd_eq hN _ _ _ _ (MM (A := 50000) (K := 128) (B := 256) h w) (Cert.Gcn.disK a1) (Cert.Gcn.d2dK a1) (d2dK_apply a1)
      (Cert.Gcn.LS (A := 50000) (K := 128) (B := 256) h w (Cert.Gcn.d2dK a1)) (fun p q => LS_apply h w (Cert.Gcn.d2dK a1) p q) _ _ k q j (target_of_lands a1 k j hk)

end Layer

end Cert.Gcn.LayerLaw

end
-- ==== Proof.HeadLaw.lean ====
/-
  The readout head computed by the plain program's host operations is the function the tiled program's last region
  computes: the same sums and counts, max(count, 1), the division, three dense layers.
-/
import proofs.«141883_j50397146251362_2_alg».proof.Proof.Stages
import proofs.«141883_j50397146251362_2_alg».proof.Proof.RStages
import proofs.«141883_j50397146251362_2_alg».proof.Proof.LibRowScatter
import proofs.«141883_j50397146251362_2_alg».proof.Proof.LibTake
import proofs.«141883_j50397146251362_2_alg».proof.Proof.LibMatmul
import Idealize.ShloMosaic.PureOps.Ideal.Laws
import Idealize.ShloMosaic.Lib.Pipeline.Value
import Idealize.ShloMosaic.Lib.ValueIdx

set_option maxRecDepth 16384

noncomputable section

namespace Cert.Gcn.HeadLaw

open Idealize.ShloMosaic Idealize.ShloMosaic.ValueIdx

/-! ## The steps as whole arrays, for any extents -/

/-- The maximum with a splat of the word of 0.0 is `Relu`. -/
theorem relu_eq {A B : Nat} (h0 : (⟨0, ![]⟩ : Shape).BroadcastsInDim ⟨2, ![A, B]⟩ ![])
    (x : FVec Ideal ⟨2, ![A, B]⟩ .f32) :
    maximumf x (broadcastInDim ⟨2, ![A, B]⟩ ![] h0 (constant (F := Ideal) ⟨0, ![]⟩ .f32 0x00000000#32))
      = Cert.Gcn.Relu x := rfl

/-- A plain matrix product plus the bias carried to a row and down the rows is `Dense` at the bias recast as a row. -/
theorem dense_eq {A K B : Nat} (d : DotDims ⟨2, ![A, K]⟩ ⟨2, ![K, B]⟩ ⟨2, ![A, B]⟩)
    (hlb : d.lhsBatch = []) (hln : d.lhsNonContracting = [0]) (hlc : d.lhsContracting = [1])
    (hrb : d.rhsBatch = []) (hrn : d.rhsNonContracting = [1]) (hrc : d.rhsContracting = [0])
    (h1 : (⟨1, ![B]⟩ : Shape).BroadcastsInDim ⟨2, ![1, B]⟩ ![1])
    (h2 : (⟨2, ![1, B]⟩ : Shape).BroadcastsInDim ⟨2, ![A, B]⟩ ![0, 1])
    (hc : (⟨1, ![B]⟩ : Shape).ShapeCasts ⟨2, ![1, B]⟩)
    (x : FVec Ideal ⟨2, ![A, K]⟩ .f32) (w : FVec Ideal ⟨2, ![K, B]⟩ .f32) (b : FVec Ideal ⟨1, ![B]⟩ .f32) :
    addf (Host.dotGeneral (F := Ideal) d none x w)
        (broadcastInDim ⟨2, ![A, B]⟩ ![0, 1] h2 (broadcastInDim ⟨2, ![1, B]⟩ ![1] h1 b))
      = Cert.Gcn.Dense x w (shapeCast ⟨2, ![1, B]⟩ b hc) := by
  funext i
  obtain ⟨p, q, rfl⟩ : ∃ (p : Fin A) (q : Fin B), i = ix2 p q := ⟨i 0, i 1, eq_ix2 i⟩
  show FloatOps.dotGeneral d none .single x w (ix2 p q)
      + broadcastInDim ⟨2, ![A, B]⟩ ![0, 1] h2 (broadcastInDim ⟨2, ![1, B]⟩ ![1] h1 b) (ix2 p q)
    = Cert.LibMatmul.MM x w (ix2 p q) + shapeCast ⟨2, ![1, B]⟩ b hc (ix2 (⟨0, Nat.one_pos⟩ : Fin 1) q)
  rw [Cert.LibMatmul.dotGeneral_eq d hlb hln hlc hrb hrn hrc, Cert.LibTake.bcastDown_apply,
    Cert.LibTake.bcastRow_apply, Cert.LibTake.castRow_apply]

/-- The sums divided by max(count, 1.0) carried to a column and across the columns is `Pool` at the counts recast
    as a column. -/
theorem pool_eq {G C : Nat}
    (hc : (⟨1, ![G]⟩ : Shape).BroadcastsInDim ⟨2, ![G, 1]⟩ ![0])
    (ha : (⟨2, ![G, 1]⟩ : Shape).BroadcastsInDim ⟨2, ![G, C]⟩ ![0, 1])
    (h1 : (⟨0, ![]⟩ : Shape).BroadcastsInDim ⟨1, ![G]⟩ ![])
    (hs : (⟨1, ![G]⟩ : Shape).ShapeCasts ⟨2, ![G, 1]⟩)
    (sums : FVec Ideal ⟨2, ![G, C]⟩ .f32) (cnt : FVec Ideal ⟨1, ![G]⟩ .f32) :
    Host.divf (F := Ideal) sums
        (broadcastInDim ⟨2, ![G, C]⟩ ![0, 1] ha (broadcastInDim ⟨2, ![G, 1]⟩ ![0] hc
          (maximumf cnt (broadcastInDim ⟨1, ![G]⟩ ![] h1 (constant (F := Ideal) ⟨0, ![]⟩ .f32 0x3F800000#32)))))
      = Cert.Gcn.Pool sums (shapeCast ⟨2, ![G, 1]⟩ cnt hs) := by
  funext i
  obtain ⟨p, q, rfl⟩ : ∃ (p : Fin G) (q : Fin C), i = ix2 p q := ⟨i 0, i 1, eq_ix2 i⟩
  show Ideal.div (sums (ix2 p q))
      (broadcastInDim ⟨2, ![G, C]⟩ ![0, 1] ha (broadcastInDim ⟨2, ![G, 1]⟩ ![0] hc
        (maximumf cnt (broadcastInDim ⟨1, ![G]⟩ ![] h1 (constant (F := Ideal) ⟨0, ![]⟩ .f32 0x3F800000#32)))) (ix2 p q))
    = Ideal.div (sums (ix2 p q)) (max (shapeCast ⟨2, ![G, 1]⟩ cnt hs (ix2 p (⟨0, Nat.one_pos⟩ : Fin 1))) Cert.Gcn.one)
  rw [Cert.LibTake.bcastAcross_apply, Cert.LibTake.bcastCol_apply, Cert.LibTake.castCol_apply]
  rfl

/-! ## The two programs' scatters are the same terms -/

theorem sums_eq (h3 : FVec Ideal Cert.KernelIdeal.S50000x256 .f32) (a2 : IVec Cert.KernelIdeal.S50000 32) :
    Host.scatterAdd (F := Ideal) Cert.ReferenceIdeal.scatter_S256x256_S50000x1_S50000x256_1_0_0_1
        (broadcastInDim Cert.ReferenceIdeal.S256x256 ![] Cert.ReferenceIdeal.Facts₀.bcast_S_S256x256
          (constant (F := Ideal) Cert.ReferenceIdeal.S_ .f32 0x00000000#32))
        (broadcastInDim Cert.ReferenceIdeal.S50000x1 ![0] Cert.ReferenceIdeal.Facts₀.bcast_S50000_S50000x1_0 a2) h3
      = Cert.Gcn.sumsK h3 a2 := rfl

theorem cnt_eq (a2 : IVec Cert.KernelIdeal.S50000 32) :
    Host.scatterAdd (F := Ideal) Cert.ReferenceIdeal.scatter_S256_S50000x1_S50000_n_0_0_1
        (broadcastInDim Cert.ReferenceIdeal.S256 ![] Cert.ReferenceIdeal.Facts₀.bcast_S_S256
          (constant (F := Ideal) Cert.ReferenceIdeal.S_ .f32 0x00000000#32))
        (broadcastInDim Cert.ReferenceIdeal.S50000x1 ![0] Cert.ReferenceIdeal.Facts₀.bcast_S50000_S50000x1_0 a2)
        (broadcastInDim Cert.ReferenceIdeal.S50000 ![] Cert.ReferenceIdeal.Facts₀.bcast_S_S50000
          (constant (F := Ideal) Cert.ReferenceIdeal.S_ .f32 0x3F800000#32))
      = Cert.Gcn.cntK a2 := rfl

theorem feat (h3 : FVec Ideal Cert.KernelIdeal.S50000x256 .f32) (a2 : IVec Cert.KernelIdeal.S50000 32)
    (w1 : FVec Ideal Cert.KernelIdeal.S256x128 .f32) (b1 : FVec Ideal Cert.KernelIdeal.S128 .f32)
    (w2 : FVec Ideal Cert.KernelIdeal.S128x64 .f32) (b2 : FVec Ideal Cert.KernelIdeal.S64 .f32) :
    Cert.Gcn.R.featOfR h3 a2 w1 b1 w2 b2 = Cert.Gcn.featOfK h3 a2 w1 b1 w2 b2 := by
  unfold Cert.Gcn.R.featOfR Cert.Gcn.featOfK Cert.Gcn.HeadFeat Cert.Gcn.cnt2dK Cert.Gcn.row128 Cert.Gcn.row64
  rw [sums_eq, cnt_eq]
  rw [pool_eq (G := 256) (C := 256) _ _ _ Cert.KernelIdeal.Facts₀.shapeCasts_S256_S256x1,
    dense_eq (A := 256) (K := 256) (B := 128) Cert.ReferenceIdeal.dot_S256x256_S256x128_S256x128_1_0_0_1_n_n
      rfl rfl rfl rfl rfl rfl _ _ Cert.KernelIdeal.Facts₀.shapeCasts_S128_S1x128,
    relu_eq,
    dense_eq (A := 256) (K := 128) (B := 64) Cert.ReferenceIdeal.dot_S256x128_S128x64_S256x64_1_0_0_1_n_n
      rfl rfl rfl rfl rfl rfl _ _ Cert.KernelIdeal.Facts₀.shapeCasts_S64_S1x64,
    relu_eq]

theorem scores (ft : FVec Ideal Cert.KernelIdeal.S256x64 .f32) (w3 : FVec Ideal Cert.KernelIdeal.S64x10 .f32)
    (b3 : FVec Ideal Cert.KernelIdeal.S10 .f32) :
    Cert.Gcn.R.scoresOfR ft w3 b3 = Cert.Gcn.scoresOfK ft w3 b3 := by
  unfold Cert.Gcn.R.scoresOfR Cert.Gcn.scoresOfK Cert.Gcn.row10
  exact dense_eq (A := 256) (K := 64) (B := 10) Cert.ReferenceIdeal.dot_S256x64_S64x10_S256x10_1_0_0_1_n_n rfl rfl rfl rfl rfl rfl _ _
    Cert.KernelIdeal.Facts₀.shapeCasts_S10_S1x10 ft w3 b3

end Cert.Gcn.HeadLaw

end
-- ==== Proof.lean ====
/-
  A three-layer graph-convolution classifier with a mean-pool readout and a three-layer dense head, written two ways.

  The plain program weighs every edge e by d[src e] * d[dst e] (d = rsqrt of the in-degree with self-loops, 0 where
  the degree is not positive), sums the weighted rows of h W onto the edge targets, and adds the bias. The tiled
  program scales the rows of h W by d before the edges are walked and scales the summed row by d[target] after, in
  seven tiled regions among host gathers and scatter-adds. At the ideal values (every float an extended real, every
  operation exact, format changes the identity) the two are one function: d[j] is a nonnegative real whatever the
  degree, a nonnegative real factor distributes over any sum of extended reals, and an edge that lands on node j
  has target j (`LayerLaw`); the readout head is the same operations on both sides (`HeadLaw`). Nothing here needs
  the inputs to be finite.

  The frames of the two tiled programs are the generated ones; the plain program's run is `RefRun`; the tiled
  program's run with its results named is `KRun`, and its results as functions of the arguments `KValue`.
-/
import proofs.«141883_j50397146251362_2_alg».proof.Defs
import proofs.«141883_j50397146251362_2_alg».proof.Proof.Gen.Kernel
import proofs.«141883_j50397146251362_2_alg».proof.Proof.Gen.Kernel.Frame
import proofs.«141883_j50397146251362_2_alg».proof.Proof.Gen.KernelIdeal
import proofs.«141883_j50397146251362_2_alg».proof.Proof.Gen.KernelIdeal.Frame
import proofs.«141883_j50397146251362_2_alg».proof.Proof.Gen.ReferenceIdeal
import proofs.«141883_j50397146251362_2_alg».proof.Proof.Gen.Pre_finite_inputs
import proofs.«141883_j50397146251362_2_alg».proof.Proof.KRun
import proofs.«141883_j50397146251362_2_alg».proof.Proof.KValue
import proofs.«141883_j50397146251362_2_alg».proof.Proof.RefRun
import proofs.«141883_j50397146251362_2_alg».proof.Proof.LayerLaw
import proofs.«141883_j50397146251362_2_alg».proof.Proof.HeadLaw
import Idealize.ShloMosaic.Adequacy
import Idealize.ShloMosaic.Init

noncomputable section

namespace Cert.Proof

open Idealize.ShloMosaic Idealize.SL.Sem

theorem frame_k : Cert.frame_Kernel := fun m ρ _ => Cert.Kernel.Gen.frame m ρ

theorem frame_ki : Cert.frame_KernelIdeal := fun m ρ _ => Cert.KernelIdeal.Gen.frame m ρ

/-- The plain program's frame is its run with the two results dropped. -/
theorem frame_ri : Cert.frame_ReferenceIdeal := fun m ρ _ =>
  (θ_run Cert.ReferenceIdeal.defs _ _).mono (fun _ h c => (h c).2.2) (Cert.Gcn.RefRun.run m ρ)

/-- The ideal pass rewrote nothing: the idealized program is the printed one read at the ideal values. -/
theorem preserves : Cert.preserves_Kernel_KernelIdeal := trivial

/-- The plain program's class scores, from a memory that agrees with the tiled program's on the arguments, are the
    tiled program's: layer by layer the two are one function. -/
theorem scores_bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12))
    (e13 : m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13))
    (e14 : m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) :
    Cert.Gcn.RefRun.scoresOf m' c = Cert.KernelIdeal.Gen.W14 m ρ c (Proc.devRef .tc Cert.KernelIdeal.main_v69_0) := by
  rw [Cert.Gcn.KValue.scores_eq m ρ c]
  unfold Cert.Gcn.RefRun.scoresOf Cert.Gcn.RefRun.featOf Cert.Gcn.RefRun.h3Of
  rw [e0, e1, e2, e3, e4, e5, e6, e7, e8, e9, e10, e11, e12, e13, e14]
  rw [Cert.Gcn.HeadLaw.scores, Cert.Gcn.HeadLaw.feat, Cert.Gcn.LayerLaw.layer256, Cert.Gcn.LayerLaw.layer128, Cert.Gcn.LayerLaw.layer128]

/-- The same for the hidden features. -/
theorem feat_bridge (m : (ℓ : Loc Cert.KernelIdeal.nD Cert.KernelIdeal.τ Cert.KernelIdeal.sig) → Buf (Elt Ideal) ℓ) (ρ : Dev Cert.KernelIdeal.nD → PrngReg)
    (m' : (ℓ : Loc Cert.ReferenceIdeal.nD Cert.ReferenceIdeal.τ Cert.ReferenceIdeal.sig) → Buf (Elt Ideal) ℓ) (c : Dev Cert.KernelIdeal.nD)
    (e0 : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0))
    (e1 : m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1))
    (e2 : m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2))
    (e3 : m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3))
    (e4 : m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4))
    (e5 : m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5))
    (e6 : m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6))
    (e7 : m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7))
    (e8 : m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8))
    (e9 : m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9))
    (e10 : m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10))
    (e11 : m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11))
    (e12 : m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)) :
    Cert.Gcn.RefRun.featOf m' c = Cert.KernelIdeal.Gen.W14 m ρ c (Proc.devRef .tc Cert.KernelIdeal.main_v69_1) := by
  rw [Cert.Gcn.KValue.feat_eq m ρ c]
  unfold Cert.Gcn.RefRun.featOf Cert.Gcn.RefRun.h3Of
  rw [e0, e1, e2, e3, e4, e5, e6, e7, e8, e9, e10, e11, e12]
  rw [Cert.Gcn.HeadLaw.feat, Cert.Gcn.LayerLaw.layer256, Cert.Gcn.LayerLaw.layer128, Cert.Gcn.LayerLaw.layer128]

/-- Both programs run, from memories that agree on the arguments, to the same class scores and hidden features:
    the tiled program's run names its results, the plain program's run states them layer by layer, and the two
    bridges above join them. -/
theorem algebraic : Cert.algebraic_KernelIdeal_ReferenceIdeal := by
  intro m ρ m' ρ' _ hagree
  refine ⟨fun c => Cert.KernelIdeal.Gen.W14 m ρ c (Proc.devRef .tc Cert.KernelIdeal.main_v69_0),
    fun c => Cert.KernelIdeal.Gen.W14 m ρ c (Proc.devRef .tc Cert.KernelIdeal.main_v69_1),
    Cert.Gcn.KRun.run (F := Ideal) m ρ, ?_⟩
  refine (θ_run Cert.ReferenceIdeal.defs _ _).mono (fun r h c => ?_) (Cert.Gcn.RefRun.run m' ρ')
  obtain ⟨e0, e1, e2, e3, e4, e5, e6, e7, e8, e9, e10, e11, e12, e13, e14⟩ := hagree c
  exact ⟨(h c).1.trans (scores_bridge m ρ m' c e0 e1 e2 e3 e4 e5 e6 e7 e8 e9 e10 e11 e12 e13 e14),
    (h c).2.1.trans (feat_bridge m ρ m' c e0 e1 e2 e3 e4 e5 e6 e7 e8 e9 e10 e11 e12), (h c).2.2⟩

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
